-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1 : Shape := ⟨2, ![1024, 1]⟩
abbrev S1024x512 : Shape := ⟨2, ![1024, 512]⟩

abbrev nBuf : Space → Nat
  | .hbm => 17
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S8x2048x1024, .bf16⟩
  | .hbm, ⟨14, _⟩ => ⟨S8x2048x1024, .bf16⟩
  | .hbm, ⟨15, _⟩ => ⟨S8x2048x1024, .bf16⟩
  | .hbm, ⟨16, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x1024x1024, .f32⟩
  | .local _ .vmem, ⟨21, _⟩ => ⟨S1x1024x1024, .f32⟩
  | .local _ .vmem, ⟨22, _⟩ => ⟨S1024x1, .f32⟩
  | .local _ .vmem, ⟨23, _⟩ => ⟨S1024x1, .f32⟩
  | .local _ .vmem, ⟨24, _⟩ => ⟨S1024x1024, .f32⟩
  | .local _ .vmem, ⟨25, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc1_scratch3 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![8, 2, 4], ![false, false, false]⟩

def k1_cond2 (i : grid1.Coords) : BitVec 1 :=
  let arg2 : BitVec 32 := BitVec.ofNat 32 (i 2).val
  let c3_i32 : BitVec 32 := 3#32
  let v39 : BitVec 1 := Scalar.cmpi .eq arg2 c3_i32
  let v40 : BitVec 32 := Scalar.extui v39
  let c0_i32_25 : BitVec 32 := 0#32
  let v41 : BitVec 1 := Scalar.cmpi .ne v40 c0_i32_25
  v41

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bitsLt_bf16_f32 : FTy.bits .bf16 < FTy.bits .f32
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  packedbf16_S1024x1024_S1024x1024_0_0 : (Rect.unit (s := S1024x1024) ![0, 0] S1024x1024.size inb_S1024x1024_S1024x1024_0_0).PackedRows (EltTy.packing .bf16)
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S512x1024_S1024x1024_S512x1024_1_0_0_1_n_n_wf : DotDims.WF S512x1024 S1024x1024 S512x1024 [1] [0] [0] [1] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S8x2048x1024.size a
  hwx0_7 : ∀ i : grid0.Coords, EltTy.bits .bf16 = 32 ∨ (Rect.block (s := S8x2048x1024) S1x512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x1024.size a ≤ S8x2048x1024.size a
  hwx0_8 : ∀ i : grid0.Coords, EltTy.bits .bf16 = 32 ∨ (Rect.block (s := S8x2048x1024) S1x512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S8x2048x1024.size a
  hwx0_9 : ∀ i : grid0.Coords, EltTy.bits .bf16 = 32 ∨ (Rect.block (s := S8x2048x1024) S1x512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x2048x1024.size a
  hwx1_0 : ∀ i : grid1.Coords, EltTy.bits .bf16 = 32 ∨ (Rect.block (s := S8x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S8x2048x1024.size a
  hwx1_1 : ∀ i : grid1.Coords, EltTy.bits .bf16 = 32 ∨ (Rect.block (s := S8x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S8x2048x1024.size a
  hwx1_2 : ∀ i : grid1.Coords, EltTy.bits .bf16 = 32 ∨ (Rect.block (s := S8x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S8x2048x1024.size a
  hwx1_3 : ∀ i : grid1.Coords, EltTy.bits .f32 = 32 ∨ (Rect.block (s := S8x2048x1024) S1x1024x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S1x512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S1x512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S1x512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v6_0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8x2048x1024, .f32⟩
  | .hbm, ⟨8, _⟩ => ⟨S1x1x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S1x1x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Kernel.ProjFrame.lean ====
/-
  The projection kernel's half of the frame, at the buffer contents the region is entered with. Its grid has
  8 × 4 points (batch, row block). At each point the body loads the input block, the three weight matrices and the
  three bias rows whole, and stores three whole blocks: the query, key and value projections of the input block,
  each a matrix product plus the broadcast bias row, rounded to the narrower format. Each output buffer is loaded
  once before it is stored into; the loaded value is not used. So what the body leaves in an output buffer is one
  whole-block store over whatever was there, a closed function of the input blocks at the point; and an input
  buffer holds its window's block at every point, whether or not it was fetched there (the weights and biases are
  fetched at the first point only, their block index never moves).
-/
import proofs.«170116_j5909874999592_2_alg».proof.Proof.Gen.Kernel.Launch
import proofs.«170116_j5909874999592_2_alg».proof.Proof.Gen.Kernel.Skeleton
import proofs.«170116_j5909874999592_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter everything below is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the entry contents' and whose body leaves the block in place: unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the entry contents' and whose body leaves the block in place: unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the entry contents' and whose body leaves the block in place: unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is the entry contents' and whose body leaves the block in place: unfetched, the block index
    has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is the entry contents' and whose body leaves the block in place: unfetched, the block index
    has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is the entry contents' and whose body leaves the block in place: unfetched, the block index
    has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is the entry contents' and whose body leaves the block in place: unfetched, the block index
    has not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole input or output block. -/
abbrev r0_0 : Rect S1x512x1024 := Rect.unit (s := S1x512x1024) ![0, 0, 0] S1x512x1024.size inb_S1x512x1024_S1x512x1024_0_0_0
/-- A whole weight matrix. -/
abbrev r0_1 : Rect S1024x1024 := Rect.unit (s := S1024x1024) ![0, 0] S1024x1024.size inb_S1024x1024_S1024x1024_0_0
/-- A whole bias row. -/
abbrev r0_2 : Rect S1x1024 := Rect.unit (s := S1x1024) ![0, 0] S1x1024.size inb_S1x1024_S1x1024_0_0

/-! ## What the body leaves in each output window's buffer -/

/-- The query window's buffer after the body: its one whole-block store, the projection of the input block by the
    first weight matrix and bias row. -/
def out0_7 (x0 : Vec F S1x512x1024 .f32) (x1 : Vec F S1024x1024 .bf16) (x2 : Vec F S1x1024 .f32) : Vec F S1x512x1024 .bf16 :=
  View.canon [⟨r0_0, k0_pay4 (View.ld x0 r0_0) (View.ld x1 r0_1) (View.ld x2 r0_2)⟩]

/-- The key window's buffer after the body: the projection by the second weight matrix and bias row. -/
def out0_8 (x0 : Vec F S1x512x1024 .f32) (x3 : Vec F S1024x1024 .bf16) (x4 : Vec F S1x1024 .f32) : Vec F S1x512x1024 .bf16 :=
  View.canon [⟨r0_0, k0_pay5 (View.ld x0 r0_0) (View.ld x3 r0_1) (View.ld x4 r0_2)⟩]

/-- The value window's buffer after the body: the projection by the third weight matrix and bias row. -/
def out0_9 (x0 : Vec F S1x512x1024 .f32) (x5 : Vec F S1024x1024 .bf16) (x6 : Vec F S1x1024 .f32) : Vec F S1x512x1024 .bf16 :=
  View.canon [⟨r0_0, k0_pay1 (k0_pay3 (View.ld x0 r0_0) (View.ld x5 r0_1) (View.ld x6 r0_2))⟩]

/-- One whole-block store tiles the buffer, so it covers it. -/
theorem cover0_out (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-! ## The body's triple -/

set_option maxHeartbeats 4000000 in
/-- The kernel body on whole staging buffers, the inputs' at read contents `xW` and the outputs' at anything, runs to
    the continuation holding the inputs' as they were and each output's at `out0_W` of the inputs'. -/
theorem sound_kernel0 (c : Dev nD) (E : Set ℕ) (i : grid0.Coords) (arg2 : Memref sig .tc .vmem S1x512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole)
    (x0 : Vec F S1x512x1024 .f32) (x1 : Vec F S1024x1024 .bf16) (x2 : Vec F S1x1024 .f32) (x3 : Vec F S1024x1024 .bf16) (x4 : Vec F S1x1024 .f32) (x5 : Vec F S1024x1024 .bf16) (x6 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (out0_7 x0 x1 x2) ∗ owns (c : Thread nD τ) arg10 fullShare (out0_8 x0 x3 x4) ∗ owns (c : Thread nD τ) arg11 fullShare (out0_9 x0 x5 x6)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_out _)
  isplitl [H8]
  · iexists _; isplitr
    swap; · iexact H8
    ipureintro
    exact View.read_writes_eq_canon _ _ _ (cover0_out _)
  iexists _; isplitr
  swap; · iexact H9
  ipureintro
  exact View.read_writes_eq_canon _ _ _ (cover0_out _)

/-! ## The pipeline's proof data -/

/-- The proof data of the projection pipeline on core `c`: the arrays as the region finds them; after the body at
    point `t` each input's buffer at its block and each output's at `out0_W` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.AttnCases.lean ====
/-
  The attention kernel's grid has 8 × 2 × 4 points (batch, query block, key block), the key-block coordinate
  running fastest. Its body branches twice on that coordinate: at key block 0 it resets the running maximum, the
  running sum, the accumulator and the scaled queries; at key block 3 it divides the accumulator by the running
  sum and stores the quotient into the output block. So a point is of one of three kinds: FIRST (key block 0),
  MIDDLE (key blocks 1 and 2), LAST (key block 3). The output window is left alone and not written back
  except at the LAST points.
-/
import proofs.«170116_j5909874999592_2_alg».proof.Proof.Gen.Kernel.Launch
import proofs.«170116_j5909874999592_2_alg».proof.Proof.Gen.Kernel.Skeleton
import proofs.«170116_j5909874999592_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch is taken where the key-block coordinate is zero (the body's scalar chain on the coordinate). -/
abbrev cond1_0 (i : grid1.Coords) : Prop := (Scalar.cmpi .ne (Scalar.extui (Scalar.cmpi .eq (BitVec.ofNat 32 (i 2).val) 0#32)) 0#32) = 1#1
/-- Over the grid: exactly at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The normalising branch is taken where the key-block coordinate is the last one. -/
abbrev cond1_1 (i : grid1.Coords) : Prop := k1_cond2 i = 1#1
/-- Over the grid: exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a FIRST or MIDDLE point the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At a LAST point the output window is live. -/
theorem liveAt1_3 : ∀ t : Fin cfg1.N, cond1_1 (grid1.coords t) → cfg1.idle 3 (grid1.coords t) = false := by decide +kernel
/-- No point is both FIRST and LAST. -/
theorem not_both1 : ∀ t : Fin cfg1.N, cond1_0 (grid1.coords t) → ¬cond1_1 (grid1.coords t) := by decide +kernel

end Cert.Kernel.Hand

end
-- ==== Proof.Kernel.AttnRunA.lean ====
/-
  The attention kernel's body at a FIRST point of its grid, run on whole staging and scratch buffers.
  At a FIRST point the body resets the four scratch buffers, whatever they held, and then performs the common step; the output block is handed back untouched.
  The common step: scores of the scaled query block against the key block; the new running maximum; the old
  running sum and accumulator rescaled by the exponential of (old maximum − new maximum), plus this block's
  exponentials and their product with the value block.
  What each buffer ends with is recorded as the list of the stores made into it (latest first), each store's value a
  term over the loaded blocks.
-/
import proofs.«170116_j5909874999592_2_alg».proof.Proof.Kernel.AttnCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a FIRST point: from the three input blocks at their contents, the output block at contents it hands back and the scratch buffers at anything, it runs to the end, keeps the input blocks, and leaves each buffer it stores into with the listed stores applied. -/
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : cond1_0 i) (hc1 : ¬cond1_1 i)
    (x0 : Vec F S1x1024x1024 .bf16) (x1 : Vec F S1x512x1024 .bf16) (x2 : Vec F S1x512x1024 .bf16) :
    Σ' (LS0 : List (View.Piece (Elt F) S1024x1 .f32)) (LS1 : List (View.Piece (Elt F) S1024x1 .f32)) (LS2 : List (View.Piece (Elt F) S1024x1024 .f32)), { LS3 : List (View.Piece (Elt F) S1024x1024 .bf16) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)
                ∗ (∃ f, arg10.view.loc (c : Thread nD τ) ↦[arg10.view.set]{fullShare} arg10.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    isplitl [HS2]
    · iexists _; iexact HS2
    iexists _; iexact HS3

end Cert.Kernel.Hand

end
-- ==== Proof.Kernel.AttnRunB.lean ====
/-
  The attention kernel's body at a MIDDLE point of its grid, run on whole staging and scratch buffers.
  At a MIDDLE point the body performs the common step on the scratch buffers as the point before left them; the scaled queries are only read, and the output block is handed back untouched.
  The common step: scores of the scaled query block against the key block; the new running maximum; the old
  running sum and accumulator rescaled by the exponential of (old maximum − new maximum), plus this block's
  exponentials and their product with the value block.
  What each buffer ends with is recorded as the list of the stores made into it (latest first), each store's value a
  term over the loaded blocks.
-/
import proofs.«170116_j5909874999592_2_alg».proof.Proof.Kernel.AttnCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a MIDDLE point: from the three input blocks at their contents, the output block at contents it hands back and the scratch buffers at the contents the point before left, it runs to the end, keeps the input blocks, and leaves each buffer it stores into with the listed stores applied. -/
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : ¬cond1_1 i)
    (x0 : Vec F S1x1024x1024 .bf16) (x1 : Vec F S1x512x1024 .bf16) (x2 : Vec F S1x512x1024 .bf16)
    (xs0 : Vec F S1024x1 .f32) (xs1 : Vec F S1024x1 .f32) (xs2 : Vec F S1024x1024 .f32) (xs3 : Vec F S1024x1024 .bf16) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)
                ∗ owns (c : Thread nD τ) arg10 fullShare xs3) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    isplitl [HS2]
    · iexists _; iexact HS2
    iexists _; isplitr; · ipureintro; exact harg10.read_unread _
    iexact HS3

end Cert.Kernel.Hand

end
-- ==== Proof.Kernel.AttnRunC.lean ====
/-
  The attention kernel's body at a LAST point of its grid, run on whole staging and scratch buffers.
  At a LAST point the body performs the common step and then stores the accumulator divided by the running sum into the output block, whatever it held.
  The common step: scores of the scaled query block against the key block; the new running maximum; the old
  running sum and accumulator rescaled by the exponential of (old maximum − new maximum), plus this block's
  exponentials and their product with the value block.
  What each buffer ends with is recorded as the list of the stores made into it (latest first), each store's value a
  term over the loaded blocks.
-/
import proofs.«170116_j5909874999592_2_alg».proof.Proof.Kernel.AttnCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a LAST point: from the three input blocks at their contents, the output block at anything and the scratch buffers at the contents the point before left, it runs to the end, keeps the input blocks, and leaves each buffer it stores into with the listed stores applied. -/
noncomputable def kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : cond1_1 i)
    (x0 : Vec F S1x1024x1024 .bf16) (x1 : Vec F S1x512x1024 .bf16) (x2 : Vec F S1x512x1024 .bf16)
    (xs0 : Vec F S1024x1 .f32) (xs1 : Vec F S1024x1 .f32) (xs2 : Vec F S1024x1024 .f32) (xs3 : Vec F S1024x1024 .bf16) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)
                ∗ owns (c : Thread nD τ) arg10 fullShare xs3) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]
    · iexists _; iexact HS0
    isplitl [HS1]
    · iexists _; iexact HS1
    isplitl [HS2]
    · iexists _; iexact HS2
    iexists _; isplitr; · ipureintro; exact harg10.read_unread _
    iexact HS3

end Cert.Kernel.Hand

end
-- ==== Proof.Kernel.AttnFrame.lean ====
/-
  The frame half of the attention kernel's region, at a parameter: the core's buffer contents `V` when the region
  is entered. After each grid point the kernel's state is a five-tuple: the output block's staging buffer, and the
  four scratch buffers — the running maximum, the running sum, the accumulator and the scaled queries. A FIRST
  point (key block 0) produces the scratch from the input blocks alone; a MIDDLE point from the input blocks and what
  the point before left; a LAST point likewise, and also the output block. Between a query block's four points the
  scratch buffers are carried, which the region's invariant records: before the first point every scoped buffer that is no
  staging buffer of this region is held at unknown contents; after a point, the four scratch buffers are held at that
  point's tuple, the others still at unknown contents.
-/
import proofs.«170116_j5909874999592_2_alg».proof.Proof.Kernel.AttnRunA
import proofs.«170116_j5909874999592_2_alg».proof.Proof.Kernel.AttnRunB
import proofs.«170116_j5909874999592_2_alg».proof.Proof.Kernel.AttnRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The buffers the body is run on -/

/-- One staging buffer of the output window, through which its contents are stated. -/
abbrev VO1_3 : View sig .tc .vmem S1x1024x1024 .f32 := (Memref.whole cc1_stg3_0 : Memref sig .tc .vmem S1x1024x1024 .f32).view
/-- Each window's current staging buffer at point `t`, and that it is a whole buffer. -/
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The four scratch buffers, whole, and as views. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev scM1_3 : Memref sig .tc .vmem S1024x1024 .bf16 := Memref.whole cc1_scratch3
abbrev VS1_0 : View sig .tc .vmem S1024x1 .f32 := scM1_0.view
abbrev VS1_1 : View sig .tc .vmem S1024x1 .f32 := scM1_1.view
abbrev VS1_2 : View sig .tc .vmem S1024x1024 .f32 := scM1_2.view
abbrev VS1_3 : View sig .tc .vmem S1024x1024 .bf16 := scM1_3.view

/-- The class invariant spelled out: the other region's fourteen staging buffers at unknown contents, the four scratch
    buffers owned at unknown contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

/-! ## What each kind of point leaves -/

/-- The stores of a FIRST point into the running maximum tile the whole buffer. -/
theorem scover1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : cond1_0 i) (hc1 : ¬cond1_1 i) (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 arg10 harg10 hc0 hc1 x0 x1 x2).1, y ∈ pc.1.set :=
  View.cover_of_tiledL (kernelRun1_A c i arg3 harg3 arg4 harg4 arg5 harg5 arg6 harg6 arg7 harg7 arg8 harg8 arg9 harg9 arg10 harg10 hc0 hc1 x0 x1 x2).1 S1024x1.size (by sl_kernel_rfl) y

/-- What such a point leaves in the running maximum: its stores read back. -/
def sout1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : cond1_0 i) (hc1 : ¬cond1_1 i) (x0 : Vec F S1x1024x1024 .bf16) (x1 : Vec F S1x512x1024 .bf16) (x2 : Vec F S1x512x1024 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2).1)

/-- The stores of a FIRST point into the running sum tile the whole buffer. -/
theorem scover1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : cond1_0 i) (hc1 : ¬cond1_1 i) (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 arg10 harg10 hc0 hc1 x0 x1 x2).2.1, y ∈ pc.1.set :=
  View.cover_of_tiledL (kernelRun1_A c i arg3 harg3 arg4 harg4 arg5 harg5 arg6 harg6 arg7 harg7 arg8 harg8 arg9 harg9 arg10 harg10 hc0 hc1 x0 x1 x2).2.1 S1024x1.size (by sl_kernel_rfl) y

/-- What such a point leaves in the running sum: its stores read back. -/
def sout1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : cond1_0 i) (hc1 : ¬cond1_1 i) (x0 : Vec F S1x1024x1024 .bf16) (x1 : Vec F S1x512x1024 .bf16) (x2 : Vec F S1x512x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 arg10 harg10 hc0 hc1 x0 x1 x2).2.1)

/-- The stores of a FIRST point into the accumulator tile the whole buffer. -/
theorem scover1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : cond1_0 i) (hc1 : ¬cond1_1 i) (x0 : Vec F S1x1024x1024 .bf16) (x1 : Vec F S1x512x1024 .bf16) (x2 : Vec F S1x512x1024 .bf16) (y : S1024x1024.Idx) :
    ∃ pc ∈ (kernelRun1_A c i arg3 harg3 arg4 harg4 arg5 harg5 arg6 harg6 arg7 harg7 arg8 harg8 arg9 harg9 arg10 harg10 hc0 hc1 x0 x1 x2).2.2.1, y ∈ pc.1.set :=
  View.cover_of_tiledL (kernelRun1_A c i arg3 harg3 arg4 harg4 arg5 harg5 arg6 harg6 arg7 harg7 arg8 harg8 arg9 harg9 arg10 harg10 hc0 hc1 x0 x1 x2).2.2.1 S1024x1024.size (by sl_kernel_rfl) y

/-- What such a point leaves in the accumulator: its stores read back. -/
def sout1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : cond1_0 i) (hc1 : ¬cond1_1 i) (x0 : Vec F S1x1024x1024 .bf16) (x1 : Vec F S1x512x1024 .bf16) (x2 : Vec F S1x512x1024 .bf16) : Vec F S1024x1024 .f32 :=
  VS1_2.read (Elt F) (VS1_2.writes (Elt F) VS1_2.junk (kernelRun1_A c i arg3 harg3 arg4 harg4 arg5 harg5 arg6 harg6 arg7 harg7 arg8 harg8 arg9 harg9 arg10 harg10 hc0 hc1 x0 x1 x2).2.2.1)

/-- The stores of a FIRST point into the scaled queries tile the whole buffer. -/
theorem scover1_A_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : cond1_0 i) (hc1 : ¬cond1_1 i) (x0 : Vec F S1x1024x1024 .bf16) (x1 : Vec F S1x512x1024 .bf16) (x2 : Vec F S1x512x1024 .bf16) (y : S1024x1024.Idx) :
    ∃ pc ∈ (kernelRun1_A c i arg3 harg3 arg4 harg4 arg5 harg5 arg6 harg6 arg7 harg7 arg8 harg8 arg9 harg9 arg10 harg10 hc0 hc1 x0 x1 x2).2.2.2.1, y ∈ pc.1.set :=
  View.cover_of_tiledL (kernelRun1_A c i arg3 harg3 arg4 harg4 arg5 harg5 arg6 harg6 arg7 harg7 arg8 harg8 arg9 harg9 arg10 harg10 hc0 hc1 x0 x1 x2).2.2.2.1 S1024x1024.size (by sl_kernel_rfl) y

/-- What such a point leaves in the scaled queries: its stores read back. -/
def sout1_A_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : cond1_0 i) (hc1 : ¬cond1_1 i) (x0 : Vec F S1x1024x1024 .bf16) (x1 : Vec F S1x512x1024 .bf16) (x2 : Vec F S1x512x1024 .bf16) : Vec F S1024x1024 .bf16 :=
  VS1_3.read (Elt F) (VS1_3.writes (Elt F) VS1_3.junk (kernelRun1_A c i arg3 harg3 arg4 harg4 arg5 harg5 arg6 harg6 arg7 harg7 arg8 harg8 arg9 harg9 arg10 harg10 hc0 hc1 x0 x1 x2).2.2.2.1)

/-- The stores of a MIDDLE point into the running maximum tile the whole buffer. -/
theorem scover1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : ¬cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) (y : S1024x1.Idx) :
    ∃ pc ∈ (kernelRun1_B c i arg3 harg3 arg4 harg4 arg5 harg5 arg6 harg6 arg7 harg7 arg8 harg8 arg9 harg9 arg10 harg10 hc0 hc1 x0 x1 x2 xs0 xs1 xs2 xs3).1, y ∈ pc.1.set :=
  View.cover_of_tiledL (kernelRun1_B c i arg3 harg3 arg4 harg4 arg5 harg5 arg6 harg6 arg7 harg7 arg8 harg8 arg9 harg9 arg10 harg10 hc0 hc1 x0 x1 x2 xs0 xs1 xs2 xs3).1 S1024x1.size (by sl_kernel_rfl) y

/-- What such a point leaves in the running maximum: its stores read back. -/
def sout1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : ¬cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) : Vec F S1024x1 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 xs0 xs1 xs2 xs3).1)

/-- The stores of a MIDDLE point into the running sum tile the whole buffer. -/
theorem scover1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : ¬cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) (y : S1024x1.Idx) :
    ∃ pc ∈ (kernelRun1_B c i arg3 harg3 arg4 harg4 arg5 harg5 arg6 harg6 arg7 harg7 arg8 harg8 arg9 harg9 arg10 harg10 hc0 hc1 x0 x1 x2 xs0 xs1 xs2 xs3).2.1, y ∈ pc.1.set :=
  View.cover_of_tiledL (kernelRun1_B c i arg3 harg3 arg4 harg4 arg5 harg5 arg6 harg6 arg7 harg7 arg8 harg8 arg9 harg9 arg10 harg10 hc0 hc1 x0 x1 x2 xs0 xs1 xs2 xs3).2.1 S1024x1.size (by sl_kernel_rfl) y

/-- What such a point leaves in the running sum: its stores read back. -/
def sout1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : ¬cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) : Vec F S1024x1 .f32 :=
  VS1_1.read (Elt F) (VS1_1.writes (Elt F) VS1_1.junk (kernelRun1_B c i arg3 harg3 arg4 harg4 arg5 harg5 arg6 harg6 arg7 harg7 arg8 harg8 arg9 harg9 arg10 harg10 hc0 hc1 x0 x1 x2 xs0 xs1 xs2 xs3).2.1)

/-- The stores of a MIDDLE point into the accumulator tile the whole buffer. -/
theorem scover1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : ¬cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) (y : S1024x1024.Idx) :
    ∃ pc ∈ (kernelRun1_B c i arg3 harg3 arg4 harg4 arg5 harg5 arg6 harg6 arg7 harg7 arg8 harg8 arg9 harg9 arg10 harg10 hc0 hc1 x0 x1 x2 xs0 xs1 xs2 xs3).2.2.1, y ∈ pc.1.set :=
  View.cover_of_tiledL (kernelRun1_B c i arg3 harg3 arg4 harg4 arg5 harg5 arg6 harg6 arg7 harg7 arg8 harg8 arg9 harg9 arg10 harg10 hc0 hc1 x0 x1 x2 xs0 xs1 xs2 xs3).2.2.1 S1024x1024.size (by sl_kernel_rfl) y

/-- What such a point leaves in the accumulator: its stores read back. -/
def sout1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : ¬cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) : Vec F S1024x1024 .f32 :=
  VS1_2.read (Elt F) (VS1_2.writes (Elt F) VS1_2.junk (kernelRun1_B c i arg3 harg3 arg4 harg4 arg5 harg5 arg6 harg6 arg7 harg7 arg8 harg8 arg9 harg9 arg10 harg10 hc0 hc1 x0 x1 x2 xs0 xs1 xs2 xs3).2.2.1)

/-- The stores of a LAST point into the running maximum tile the whole buffer. -/
theorem scover1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) (y : S1024x1.Idx) :
    ∃ pc ∈ (kernelRun1_C c i arg3 harg3 arg4 harg4 arg5 harg5 arg6 harg6 arg7 harg7 arg8 harg8 arg9 harg9 arg10 harg10 hc0 hc1 x0 x1 x2 xs0 xs1 xs2 xs3).2.1, y ∈ pc.1.set :=
  View.cover_of_tiledL (kernelRun1_C c i arg3 harg3 arg4 harg4 arg5 harg5 arg6 harg6 arg7 harg7 arg8 harg8 arg9 harg9 arg10 harg10 hc0 hc1 x0 x1 x2 xs0 xs1 xs2 xs3).2.1 S1024x1.size (by sl_kernel_rfl) y

/-- What such a point leaves in the running maximum: its stores read back. -/
def sout1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) : Vec F S1024x1 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 xs0 xs1 xs2 xs3).2.1)

/-- The stores of a LAST point into the running sum tile the whole buffer. -/
theorem scover1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) (y : S1024x1.Idx) :
    ∃ pc ∈ (kernelRun1_C c i arg3 harg3 arg4 harg4 arg5 harg5 arg6 harg6 arg7 harg7 arg8 harg8 arg9 harg9 arg10 harg10 hc0 hc1 x0 x1 x2 xs0 xs1 xs2 xs3).2.2.1, y ∈ pc.1.set :=
  View.cover_of_tiledL (kernelRun1_C c i arg3 harg3 arg4 harg4 arg5 harg5 arg6 harg6 arg7 harg7 arg8 harg8 arg9 harg9 arg10 harg10 hc0 hc1 x0 x1 x2 xs0 xs1 xs2 xs3).2.2.1 S1024x1.size (by sl_kernel_rfl) y

/-- What such a point leaves in the running sum: its stores read back. -/
def sout1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) : Vec F S1024x1 .f32 :=
  VS1_1.read (Elt F) (VS1_1.writes (Elt F) VS1_1.junk (kernelRun1_C c i arg3 harg3 arg4 harg4 arg5 harg5 arg6 harg6 arg7 harg7 arg8 harg8 arg9 harg9 arg10 harg10 hc0 hc1 x0 x1 x2 xs0 xs1 xs2 xs3).2.2.1)

/-- The stores of a LAST point into the accumulator tile the whole buffer. -/
theorem scover1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) (y : S1024x1024.Idx) :
    ∃ pc ∈ (kernelRun1_C c i arg3 harg3 arg4 harg4 arg5 harg5 arg6 harg6 arg7 harg7 arg8 harg8 arg9 harg9 arg10 harg10 hc0 hc1 x0 x1 x2 xs0 xs1 xs2 xs3).2.2.2.1, y ∈ pc.1.set :=
  View.cover_of_tiledL (kernelRun1_C c i arg3 harg3 arg4 harg4 arg5 harg5 arg6 harg6 arg7 harg7 arg8 harg8 arg9 harg9 arg10 harg10 hc0 hc1 x0 x1 x2 xs0 xs1 xs2 xs3).2.2.2.1 S1024x1024.size (by sl_kernel_rfl) y

/-- What such a point leaves in the accumulator: its stores read back. -/
def sout1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) : Vec F S1024x1024 .f32 :=
  VS1_2.read (Elt F) (VS1_2.writes (Elt F) VS1_2.junk (kernelRun1_C c i arg3 harg3 arg4 harg4 arg5 harg5 arg6 harg6 arg7 harg7 arg8 harg8 arg9 harg9 arg10 harg10 hc0 hc1 x0 x1 x2 xs0 xs1 xs2 xs3).2.2.2.1)

/-- The store of a LAST point into the output block covers it. -/
theorem cover1_C_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) (y : S1x1024x1024.Idx) :
    ∃ pc ∈ (kernelRun1_C c i arg3 harg3 arg4 harg4 arg5 harg5 arg6 harg6 arg7 harg7 arg8 harg8 arg9 harg9 arg10 harg10 hc0 hc1 x0 x1 x2 xs0 xs1 xs2 xs3).1, y ∈ pc.1.set :=
  View.cover_of_tiledL (kernelRun1_C c i arg3 harg3 arg4 harg4 arg5 harg5 arg6 harg6 arg7 harg7 arg8 harg8 arg9 harg9 arg10 harg10 hc0 hc1 x0 x1 x2 xs0 xs1 xs2 xs3).1 S1x1024x1024.size (by sl_kernel_rfl) y

/-- What a LAST point leaves in the output block: the accumulator divided by the running sum, as stored. -/
def out1_C_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) : Vec F S1x1024x1024 .f32 :=
  VO1_3.read (Elt F) (VO1_3.writes (Elt F) VO1_3.junk (kernelRun1_C c i arg3 harg3 arg4 harg4 arg5 harg5 arg6 harg6 arg7 harg7 arg8 harg8 arg9 harg9 arg10 harg10 hc0 hc1 x0 x1 x2 xs0 xs1 xs2 xs3).1)

/-! ## The state after each point -/

/-- The five-tuple after the body at position `n`: the kind of point the closed forms select, run on the point's buffers and
    input blocks, over the scratch the point before left. At a FIRST or MIDDLE point the output component is a
    placeholder nothing reads: the window is idle there and not written back. -/
def outsAt1 (c : Dev nD) : (n : ℕ) → n < cfg1.N → Vec F S1x1024x1024 .f32 × Vec F S1024x1 .f32 × Vec F S1024x1 .f32 × Vec F S1024x1024 .f32 × Vec F S1024x1024 .bf16
  | 0, hn => (VO1_3.read (Elt F) VO1_3.junk, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (VO1_3.read (Elt F) VO1_3.junk, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, (outsAt1 c n (Nat.lt_of_succ_lt hn)).2.2.2.2)
      else
        (VO1_3.read (Elt F) VO1_3.junk, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, (outsAt1 c n (Nat.lt_of_succ_lt hn)).2.2.2.2)

/-- At a FIRST point: that kind's tuple. -/
theorem outsAt1_A (c : Dev nD) (t : Fin cfg1.N) (h0 : t.val % 4 = 0) (h1 : ¬t.val % 4 = 3) :
    outsAt1 V c t.val t.isLt = (VO1_3.read (Elt F) VO1_3.junk, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t), sout1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a MIDDLE point: that kind's tuple over what the point before left. -/
theorem outsAt1_B (c : Dev nD) (t : Fin cfg1.N) (h0 : ¬t.val % 4 = 0) (h1 : ¬t.val % 4 = 3) :
    outsAt1 V c t.val t.isLt = (VO1_3.read (Elt F) VO1_3.junk, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- At a LAST point: that kind's tuple over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the grid's first point the class invariant (every such buffer at unknown contents); afterwards
    the four scratch buffers at the tuple the point before left, the other region's staging buffers at unknown contents,
    the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2.1 ∗ owns (c : Thread nD τ) scM1_3 fullShare (outsAt1 V c (n - 1) (by omega)).2.2.2.2) ∗ (∃ r, prngReg c r)) := by
  cases n with
  | zero => exact absurd rfl hz
  | succ n => rfl

/-! ## The proof data -/

/-- The arrays as the region finds them; after the body at a point each input's buffer at its block and the output's at the
    tuple's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
/-- The body at any point: the input buffers hold their blocks; the closed forms say which kind the point is; the
    invariant hands the body the scratch buffers at what the point before left (at anything at the grid's first point) and
    takes them back at this point's tuple, the stores of each kind covering each buffer they go into; the output block is
    handed back untouched except at a LAST point, where the stored quotient covers it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1 sout1_A_2 sout1_A_3; (try dsimp only)
      by_cases hz : t.val = 0
      ·
        rw [PhiS1_castSucc V c t, PhiS1_zero V c _ _ hz, PhiA1_eq]
        iintro ⟨⟨⟨HA0, HA1, HA2, HA3, HA4, HA5, HA6, HA7, HA8, HA9, HA10, HA11, HA12, HA13, HS0, HS1, HS2, HS3⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HS3]; · iexact HS3
        iintro ⟨H0, H1, H2, H3, ⟨%e0, HS0⟩, ⟨%e1, HS1⟩, ⟨%e2, HS2⟩, ⟨%e3, HS3⟩⟩
        isplitl [HA0 HA1 HA2 HA3 HA4 HA5 HA6 HA7 HA8 HA9 HA10 HA11 HA12 HA13 HS0 HS1 HS2 HS3 Hg]
        · isplitl [HA0 HA1 HA2 HA3 HA4 HA5 HA6 HA7 HA8 HA9 HA10 HA11 HA12 HA13 HS0 HS1 HS2 HS3]
          · skip
            isplitl [HA0]; · iexact HA0
            isplitl [HA1]; · iexact HA1
            isplitl [HA2]; · iexact HA2
            isplitl [HA3]; · iexact HA3
            isplitl [HA4]; · iexact HA4
            isplitl [HA5]; · iexact HA5
            isplitl [HA6]; · iexact HA6
            isplitl [HA7]; · iexact HA7
            isplitl [HA8]; · iexact HA8
            isplitl [HA9]; · iexact HA9
            isplitl [HA10]; · iexact HA10
            isplitl [HA11]; · iexact HA11
            isplitl [HA12]; · iexact HA12
            isplitl [HA13]; · iexact HA13
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _)
            · unfold owns; iexists _; isplitr
              swap; · iexact HS3
              ipureintro; exact View.read_writes_of_cover _ _ _ _ _ (scover1_A_3 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      ·
        rw [PhiS1_castSucc V c t, PhiS1_pos V c _ _ hz]
        iintro ⟨⟨⟨HA0, HA1, HA2, HA3, HA4, HA5, HA6, HA7, HA8, HA9, HA10, HA11, HA12, HA13, HS0, HS1, HS2, HS3⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        isplitl [HS3]; · iexists _; iexact HS3
        iintro ⟨H0, H1, H2, H3, ⟨%e0, HS0⟩, ⟨%e1, HS1⟩, ⟨%e2, HS2⟩, ⟨%e3, HS3⟩⟩
        isplitl [HA0 HA1 HA2 HA3 HA4 HA5 HA6 HA7 HA8 HA9 HA10 HA11 HA12 HA13 HS0 HS1 HS2 HS3 Hg]
        · isplitl [HA0 HA1 HA2 HA3 HA4 HA5 HA6 HA7 HA8 HA9 HA10 HA11 HA12 HA13 HS0 HS1 HS2 HS3]
          · skip
            isplitl [HA0]; · iexact HA0
            isplitl [HA1]; · iexact HA1
            isplitl [HA2]; · iexact HA2
            isplitl [HA3]; · iexact HA3
            isplitl [HA4]; · iexact HA4
            isplitl [HA5]; · iexact HA5
            isplitl [HA6]; · iexact HA6
            isplitl [HA7]; · iexact HA7
            isplitl [HA8]; · iexact HA8
            isplitl [HA9]; · iexact HA9
            isplitl [HA10]; · iexact HA10
            isplitl [HA11]; · iexact HA11
            isplitl [HA12]; · iexact HA12
            isplitl [HA13]; · iexact HA13
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _)
            · unfold owns; iexists _; isplitr
              swap; · iexact HS3
              ipureintro; exact View.read_writes_of_cover _ _ _ _ _ (scover1_A_3 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1 sout1_C_2; (try dsimp only)
      by_cases hz : t.val = 0
      · exfalso; omega
      ·
        rw [PhiS1_castSucc V c t, PhiS1_pos V c _ _ hz]
        iintro ⟨⟨⟨HA0, HA1, HA2, HA3, HA4, HA5, HA6, HA7, HA8, HA9, HA10, HA11, HA12, HA13, HS0, HS1, HS2, HS3⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) _ _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        isplitl [HS3]; · iexact HS3
        iintro ⟨H0, H1, H2, ⟨%e6, H3⟩, ⟨%e0, HS0⟩, ⟨%e1, HS1⟩, ⟨%e2, HS2⟩, HS3⟩
        isplitl [HA0 HA1 HA2 HA3 HA4 HA5 HA6 HA7 HA8 HA9 HA10 HA11 HA12 HA13 HS0 HS1 HS2 HS3 Hg]
        · isplitl [HA0 HA1 HA2 HA3 HA4 HA5 HA6 HA7 HA8 HA9 HA10 HA11 HA12 HA13 HS0 HS1 HS2 HS3]
          · skip
            isplitl [HA0]; · iexact HA0
            isplitl [HA1]; · iexact HA1
            isplitl [HA2]; · iexact HA2
            isplitl [HA3]; · iexact HA3
            isplitl [HA4]; · iexact HA4
            isplitl [HA5]; · iexact HA5
            isplitl [HA6]; · iexact HA6
            isplitl [HA7]; · iexact HA7
            isplitl [HA8]; · iexact HA8
            isplitl [HA9]; · iexact HA9
            isplitl [HA10]; · iexact HA10
            isplitl [HA11]; · iexact HA11
            isplitl [HA12]; · iexact HA12
            isplitl [HA13]; · iexact HA13
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_C_2 c _ _ _ _ _ _ _ _ _ _ _ _ _ _ _ _ _ _ _ _ _ _ _ _ _ _)
            · iexact HS3
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1 sout1_B_2; (try dsimp only)
      by_cases hz : t.val = 0
      · exfalso; omega
      ·
        rw [PhiS1_castSucc V c t, PhiS1_pos V c _ _ hz]
        iintro ⟨⟨⟨HA0, HA1, HA2, HA3, HA4, HA5, HA6, HA7, HA8, HA9, HA10, HA11, HA12, HA13, HS0, HS1, HS2, HS3⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) _ _ _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HS3]; · iexact HS3
        iintro ⟨H0, H1, H2, H3, ⟨%e0, HS0⟩, ⟨%e1, HS1⟩, ⟨%e2, HS2⟩, HS3⟩
        isplitl [HA0 HA1 HA2 HA3 HA4 HA5 HA6 HA7 HA8 HA9 HA10 HA11 HA12 HA13 HS0 HS1 HS2 HS3 Hg]
        · isplitl [HA0 HA1 HA2 HA3 HA4 HA5 HA6 HA7 HA8 HA9 HA10 HA11 HA12 HA13 HS0 HS1 HS2 HS3]
          · skip
            isplitl [HA0]; · iexact HA0
            isplitl [HA1]; · iexact HA1
            isplitl [HA2]; · iexact HA2
            isplitl [HA3]; · iexact HA3
            isplitl [HA4]; · iexact HA4
            isplitl [HA5]; · iexact HA5
            isplitl [HA6]; · iexact HA6
            isplitl [HA7]; · iexact HA7
            isplitl [HA8]; · iexact HA8
            isplitl [HA9]; · iexact HA9
            isplitl [HA10]; · iexact HA10
            isplitl [HA11]; · iexact HA11
            isplitl [HA12]; · iexact HA12
            isplitl [HA13]; · iexact HA13
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_B_2 c _ _ _ _ _ _ _ _ _ _ _ _ _ _ _ _ _ _ _ _ _ _ _ _ _ _)
            · iexact HS3
          iexact Hg
        isplitl [Ho]; · iexact Ho
        isplitl [H0]; · iexact H0
        isplitl [H1]; · iexact H1
        isplitl [H2]; · iexact H2
        iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class invariant back: the scratch buffers' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HA0, HA1, HA2, HA3, HA4, HA5, HA6, HA7, HA8, HA9, HA10, HA11, HA12, HA13, HS0, HS1, HS2, HS3⟩, Hg⟩
  isplitl [HA0 HA1 HA2 HA3 HA4 HA5 HA6 HA7 HA8 HA9 HA10 HA11 HA12 HA13 HS0 HS1 HS2 HS3]
  · skip
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexact HA8
    isplitl [HA9]; · iexact HA9
    isplitl [HA10]; · iexact HA10
    isplitl [HA11]; · iexact HA11
    isplitl [HA12]; · iexact HA12
    isplitl [HA13]; · iexact HA13
    isplitl [HS0]; · iexists _; iexact HS0
    isplitl [HS1]; · iexists _; iexact HS1
    isplitl [HS2]; · iexists _; iexact HS2
    iexists _; iexact HS3
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.Kernel.Run.lean ====
/-
  The whole program as a run. Its main function is: a stretch of host operations (the three weight matrices rounded,
  the three bias vectors reshaped to rows), the projection region, the attention region. The buffers' contents are
  followed from boundary to boundary: at launch; after the host stretch; after the projection region (its three result
  arrays at what its write-backs leave, everything else as before); after the attention region (likewise its one result
  array). Every weakly fair execution ends with every unscoped buffer at the last of these, which holds each argument as
  launched and the result array at what the attention region's write-backs leave.
-/
import proofs.«170116_j5909874999592_2_alg».proof.Proof.Kernel.ProjFrame
import proofs.«170116_j5909874999592_2_alg».proof.Proof.Kernel.AttnFrame
import proofs.«170116_j5909874999592_2_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev Wt0 : Dev nD → Valuation τ sig (Elt F) := fun c b => m (c, b)
/-- After the host stretch: the projection region's entry. -/
abbrev Wt1 : Dev nD → Valuation τ sig (Elt F) := fun c => StableHlo.after hostOps0 (Wt0 m c)
abbrev Vt1 : (c : Dev nD) → (b : Ref sig .tc) → Buf (Elt F) ((c : Thread nD τ).loc b) := fun c b => Wt1 m c b
/-- After the projection region: its arrays at what the pipeline leaves, every other buffer as entered. -/
def Wt2 (c : Dev nD) : Valuation τ sig (Elt F) :=
  Pipeline.withArrays spec0 c (Wt1 m c) fun w => (dat0 (Vt1 m) c).arrAt w cfg0.N
theorem Wt2_arr (c : Dev nD) (w : Fin cfg0.W) :
    Wt2 m c (Proc.devRef .tc (Pipeline.arrRef spec0 w)) = (dat0 (Vt1 m) c).arrAt w cfg0.N := by
  unfold Wt2; exact Pipeline.withArrays_arr spec0 launch0.win.arr_inj c _ _ w
theorem Wt2_of_ne (c : Dev nD) (b : Ref sig .tc) (hb : ∀ w, Pipeline.arrRef spec0 w ≠ b) :
    Wt2 m c (Proc.devRef .tc b) = Wt1 m c (Proc.devRef .tc b) := by
  unfold Wt2; exact Pipeline.withArrays_of_ne spec0 c _ _ b hb
abbrev Vt2 : (c : Dev nD) → (b : Ref sig .tc) → Buf (Elt F) ((c : Thread nD τ).loc b) := fun c b => Wt2 m c b
theorem hFin0 (c : Dev nD) (w : Fin cfg0.W) : (dat0 (Vt1 m) c).arrAt w cfg0.N = Vt2 m c (Pipeline.arrRef spec0 w) :=
  (Wt2_arr m c w).symm
theorem hrestH0 (c : Dev nD) : ∀ b, b ∉ Finset.univ.image (Pipeline.arrRef spec0) → Vt2 m c b = Vt1 m c b :=
  fun b hb => Wt2_of_ne m c b fun w e => hb (Finset.mem_image.mpr ⟨w, Finset.mem_univ _, e⟩)
/-- After the attention region: likewise. -/
def Wt3 (c : Dev nD) : Valuation τ sig (Elt F) :=
  Pipeline.withArrays spec1 c (Wt2 m c) fun w => (dat1 (Vt2 m) c).arrAt w cfg1.N
theorem Wt3_arr (c : Dev nD) (w : Fin cfg1.W) :
    Wt3 m c (Proc.devRef .tc (Pipeline.arrRef spec1 w)) = (dat1 (Vt2 m) c).arrAt w cfg1.N := by
  unfold Wt3; exact Pipeline.withArrays_arr spec1 launch1.win.arr_inj c _ _ w
theorem Wt3_of_ne (c : Dev nD) (b : Ref sig .tc) (hb : ∀ w, Pipeline.arrRef spec1 w ≠ b) :
    Wt3 m c (Proc.devRef .tc b) = Wt2 m c (Proc.devRef .tc b) := by
  unfold Wt3; exact Pipeline.withArrays_of_ne spec1 c _ _ b hb
abbrev Vt3 : (c : Dev nD) → (b : Ref sig .tc) → Buf (Elt F) ((c : Thread nD τ).loc b) := fun c b => Wt3 m c b
theorem hFin1 (c : Dev nD) (w : Fin cfg1.W) : (dat1 (Vt2 m) c).arrAt w cfg1.N = Vt3 m c (Pipeline.arrRef spec1 w) :=
  (Wt3_arr m c w).symm
theorem hrestH1 (c : Dev nD) : ∀ b, b ∉ Finset.univ.image (Pipeline.arrRef spec1) → Vt3 m c b = Vt2 m c b :=
  fun b hb => Wt3_of_ne m c b fun w e => hb (Finset.mem_image.mpr ⟨w, Finset.mem_univ _, e⟩)

/-! ### The arguments end as launched: no host operation writes one and no region's window is one of them except as an
    input, whose array the pipeline leaves as entered -/

theorem Wt3_main_arg0 (c : Dev nD) : Wt3 m c (Proc.devRef .tc main_arg0) = m ((c : Thread nD τ).loc main_arg0) :=
  (Wt3_of_ne m c main_arg0 (by decide)).trans <| ((Wt2_arr m c 0).trans (((dat0 (Vt1 m) c).arrAt_in 0 rfl _).trans (A_eq0 (Vt1 m) c 0))).trans <| (V1_of m c main_arg0 (by decide)).trans rfl
theorem Wt3_main_arg1 (c : Dev nD) : Wt3 m c (Proc.devRef .tc main_arg1) = m ((c : Thread nD τ).loc main_arg1) :=
  (Wt3_of_ne m c main_arg1 (by decide)).trans <| (Wt2_of_ne m c main_arg1 (by decide)).trans <| (V1_of m c main_arg1 (by decide)).trans rfl
theorem Wt3_main_arg2 (c : Dev nD) : Wt3 m c (Proc.devRef .tc main_arg2) = m ((c : Thread nD τ).loc main_arg2) :=
  (Wt3_of_ne m c main_arg2 (by decide)).trans <| (Wt2_of_ne m c main_arg2 (by decide)).trans <| (V1_of m c main_arg2 (by decide)).trans rfl
theorem Wt3_main_arg3 (c : Dev nD) : Wt3 m c (Proc.devRef .tc main_arg3) = m ((c : Thread nD τ).loc main_arg3) :=
  (Wt3_of_ne m c main_arg3 (by decide)).trans <| (Wt2_of_ne m c main_arg3 (by decide)).trans <| (V1_of m c main_arg3 (by decide)).trans rfl
theorem Wt3_main_arg4 (c : Dev nD) : Wt3 m c (Proc.devRef .tc main_arg4) = m ((c : Thread nD τ).loc main_arg4) :=
  (Wt3_of_ne m c main_arg4 (by decide)).trans <| (Wt2_of_ne m c main_arg4 (by decide)).trans <| (V1_of m c main_arg4 (by decide)).trans rfl
theorem Wt3_main_arg5 (c : Dev nD) : Wt3 m c (Proc.devRef .tc main_arg5) = m ((c : Thread nD τ).loc main_arg5) :=
  (Wt3_of_ne m c main_arg5 (by decide)).trans <| (Wt2_of_ne m c main_arg5 (by decide)).trans <| (V1_of m c main_arg5 (by decide)).trans rfl
theorem Wt3_main_arg6 (c : Dev nD) : Wt3 m c (Proc.devRef .tc main_arg6) = m ((c : Thread nD τ).loc main_arg6) :=
  (Wt3_of_ne m c main_arg6 (by decide)).trans <| (Wt2_of_ne m c main_arg6 (by decide)).trans <| (V1_of m c main_arg6 (by decide)).trans rfl

/-! ## The proof data family and the thread state -/

/-- Every pipeline's proof data at its region's entry contents, a literal match on the pipeline. -/
def pdatsH : (p : Fin 2) → (c : Dev nD) → Dat τ (Elt F) Unit ℕ (UR sig nD τ) ℕ (Pipeline.pin (pcfgs (F := F)) adm p) c
  | ⟨0, _⟩ => fun c => dat0 (Vt1 m) c
  | ⟨1, _⟩ => fun c => dat1 (Vt2 m) c
abbrev 𝒱H : Variants := Variants.none
abbrev LH : GSem nD τ sig → Finset Unit := fun _ => ∅
abbrev lvH : GSem nD τ sig → Unit → ℕ := fun _ _ => 0
/-- What rides beside the buffers through every segment: the generator register at some state and the core owing nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TendH (c : Dev nD) : sProp 𝕄 := iprop(StableHlo.held (c : Thread nD τ) (Pipeline.ucRefs τ sig) (Wt3 m c) ∗ ∃ r, prngReg c r)

/-! ## The regions as segments -/

-- the library's lemmas are stated over the pinned configuration, which unifies with the printed one only when
-- unification may unfold plain definitions in a metavariable's type
set_option backward.isDefEq.respectTransparency.types false in
/-- REGION 0 over the thread state: entered from every unscoped buffer at `Wt1`, left at `Wt2`. Its arrays are split
    out of the unscoped buffers at entry and put back at their final contents at exit; the generator register goes into the
    region's invariant and comes back; nothing is owed; the kernel has no semaphore of its own. -/
def region0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vt1 m) c).loose
  hwaits := Pipeline.hwaits_of_owed_zero _ _ _ _ LH lvH 0 fun _ _ => rfl
  pre c := iprop(StableHlo.held (c : Thread nD τ) (Pipeline.ucRefs τ sig) (Wt1 m c) ∗ RH c)
  post c := iprop(StableHlo.held (c : Thread nD τ) (Pipeline.ucRefs τ sig) (Wt2 m c) ∗ RH c)
  X c := iprop(∃ r, prngReg c r)
  Y c := iprop(∃ r, prngReg c r)
  Z c := Pipeline.unscopedRest (Ix := Unit) (Name := ℕ) (U := UR sig nD τ) (Lvl := ℕ) spec0 c (Vt1 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (Vt1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdatsH m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (Vt1 m c) (Vt2 m c) ((pdatsH m 0 c).arrAt · cfg0.N) (hFin0 m c) (hrestH0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unifies with the printed one only when
-- unification may unfold plain definitions in a metavariable's type
set_option backward.isDefEq.respectTransparency.types false in
/-- REGION 1 over the thread state: entered from every unscoped buffer at `Wt2`, left at `Wt3`. Its arrays are split
    out of the unscoped buffers at entry and put back at their final contents at exit; the generator register goes into the
    region's invariant and comes back; nothing is owed; the kernel has no semaphore of its own. -/
def region1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vt2 m) c).loose
  hwaits := Pipeline.hwaits_of_owed_zero _ _ _ _ LH lvH 1 fun _ _ => rfl
  pre c := iprop(StableHlo.held (c : Thread nD τ) (Pipeline.ucRefs τ sig) (Wt2 m c) ∗ RH c)
  post c := iprop(StableHlo.held (c : Thread nD τ) (Pipeline.ucRefs τ sig) (Wt3 m c) ∗ RH c)
  X c := iprop(∃ r, prngReg c r)
  Y c := iprop(∃ r, prngReg c r)
  Z c := Pipeline.unscopedRest (Ix := Unit) (Name := ℕ) (U := UR sig nD τ) (Lvl := ℕ) spec1 c (Vt2 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (Vt2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (Vt2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (Vt2 m c) (Vt3 m c) ((pdatsH m 1 c).arrAt · cfg1.N) (hFin1 m c) (hrestH1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segsH : List (Pipeline.Seg (pcfgs (F := F)) adm (pdatsH m) () defs₀ 𝒱H LH lvH) :=
  [ .host (hsegH hostOps0 hostOps0_sub hostOps0_fresh (Wt0 m)),
    .region (region0 m),
    .region (region1 m) ]
theorem main_runH (c : Dev nD) : main (F := F) c = Pipeline.Seg.run (segsH m) := (main_chain c).trans (by chain_rfl)

set_option backward.isDefEq.respectTransparency.types false in
/-- Every weakly fair execution of the program from memory `m` with zero counters terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wt3 m c b) :=
  Pipeline.θ_run_regions_kit (pcfgs (F := F)) adm (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wt0 m c) ∗ RH c)) (Tₙ := TendH m)
    (hch := ⟨fun _ => .rfl, fun _ => .rfl, fun _ => .rfl, fun c => by
      show iprop(StableHlo.held (c : Thread nD τ) (Pipeline.ucRefs τ sig) (Wt3 m c) ∗ RH c) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (Wt0 m c)
        from Pipeline.unscopedBufs_held c (Wt0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wt3 m c b)
    (hfin := fun c s' => by
      iintro ⟨⟨Hh, -⟩, HSI⟩
      unfold StableHlo.held
      imodintro
      iapply (pointsTo_read_all (Pipeline.ucRefs τ sig) (fun b => (((c : Thread nD τ)).1, b)) (Wt3 m c) s')
      isplitl [Hh] <;> iassumption)
    (hQ := fun s h c => h c)

end Cert.Kernel.Hand

end
-- ==== Proof.KernelIdeal.ProjFrame.lean ====
/-
  The projection kernel's half of the frame, at the buffer contents the region is entered with. Its grid has
  8 × 4 points (batch, row block). At each point the body loads the input block, the three weight matrices and the
  three bias rows whole, and stores three whole blocks: the query, key and value projections of the input block,
  each a matrix product plus the broadcast bias row, rounded to the narrower format. Each output buffer is loaded
  once before it is stored into; the loaded value is not used. So what the body leaves in an output buffer is one
  whole-block store over whatever was there, a closed function of the input blocks at the point; and an input
  buffer holds its window's block at every point, whether or not it was fetched there (the weights and biases are
  fetched at the first point only, their block index never moves).
-/
import proofs.«170116_j5909874999592_2_alg».proof.Proof.Gen.KernelIdeal.Launch
import proofs.«170116_j5909874999592_2_alg».proof.Proof.Gen.KernelIdeal.Skeleton
import proofs.«170116_j5909874999592_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter everything below is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the entry contents' and whose body leaves the block in place: unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the entry contents' and whose body leaves the block in place: unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the entry contents' and whose body leaves the block in place: unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is the entry contents' and whose body leaves the block in place: unfetched, the block index
    has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is the entry contents' and whose body leaves the block in place: unfetched, the block index
    has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is the entry contents' and whose body leaves the block in place: unfetched, the block index
    has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is the entry contents' and whose body leaves the block in place: unfetched, the block index
    has not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole input or output block. -/
abbrev r0_0 : Rect S1x512x1024 := Rect.unit (s := S1x512x1024) ![0, 0, 0] S1x512x1024.size inb_S1x512x1024_S1x512x1024_0_0_0
/-- A whole weight matrix. -/
abbrev r0_1 : Rect S1024x1024 := Rect.unit (s := S1024x1024) ![0, 0] S1024x1024.size inb_S1024x1024_S1024x1024_0_0
/-- A whole bias row. -/
abbrev r0_2 : Rect S1x1024 := Rect.unit (s := S1x1024) ![0, 0] S1x1024.size inb_S1x1024_S1x1024_0_0

/-! ## What the body leaves in each output window's buffer -/

/-- The query window's buffer after the body: its one whole-block store, the projection of the input block by the
    first weight matrix and bias row. -/
def out0_7 (x0 : Vec F S1x512x1024 .f32) (x1 : Vec F S1024x1024 .bf16) (x2 : Vec F S1x1024 .f32) : Vec F S1x512x1024 .bf16 :=
  View.canon [⟨r0_0, k0_pay4 (View.ld x0 r0_0) (View.ld x1 r0_1) (View.ld x2 r0_2)⟩]

/-- The key window's buffer after the body: the projection by the second weight matrix and bias row. -/
def out0_8 (x0 : Vec F S1x512x1024 .f32) (x3 : Vec F S1024x1024 .bf16) (x4 : Vec F S1x1024 .f32) : Vec F S1x512x1024 .bf16 :=
  View.canon [⟨r0_0, k0_pay5 (View.ld x0 r0_0) (View.ld x3 r0_1) (View.ld x4 r0_2)⟩]

/-- The value window's buffer after the body: the projection by the third weight matrix and bias row. -/
def out0_9 (x0 : Vec F S1x512x1024 .f32) (x5 : Vec F S1024x1024 .bf16) (x6 : Vec F S1x1024 .f32) : Vec F S1x512x1024 .bf16 :=
  View.canon [⟨r0_0, k0_pay1 (k0_pay3 (View.ld x0 r0_0) (View.ld x5 r0_1) (View.ld x6 r0_2))⟩]

/-- One whole-block store tiles the buffer, so it covers it. -/
theorem cover0_out (p0 : Vec F S1x512x1024 .bf16) (y : S1x512x1024.Idx) :
    ∃ pc ∈ ([⟨r0_0, p0⟩] : List (View.Piece (Elt F) S1x512x1024 .bf16)), y ∈ pc.1.set :=
  View.cover_of_tiled [⟨r0_0, p0⟩] S1x512x1024.size (by rfl) y

/-! ## The body's triple -/

set_option maxHeartbeats 4000000 in
/-- The kernel body on whole staging buffers, the inputs' at read contents `xW` and the outputs' at anything, runs to
    the continuation holding the inputs' as they were and each output's at `out0_W` of the inputs'. -/
theorem sound_kernel0 (c : Dev nD) (E : Set ℕ) (i : grid0.Coords) (arg2 : Memref sig .tc .vmem S1x512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1x512x1024 .bf16) (harg11 : arg11.IsWhole)
    (x0 : Vec F S1x512x1024 .f32) (x1 : Vec F S1024x1024 .bf16) (x2 : Vec F S1x1024 .f32) (x3 : Vec F S1024x1024 .bf16) (x4 : Vec F S1x1024 .f32) (x5 : Vec F S1024x1024 .bf16) (x6 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (out0_7 x0 x1 x2) ∗ owns (c : Thread nD τ) arg10 fullShare (out0_8 x0 x3 x4) ∗ owns (c : Thread nD τ) arg11 fullShare (out0_9 x0 x5 x6)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_out _)
  isplitl [H8]
  · iexists _; isplitr
    swap; · iexact H8
    ipureintro
    exact View.read_writes_eq_canon _ _ _ (cover0_out _)
  iexists _; isplitr
  swap; · iexact H9
  ipureintro
  exact View.read_writes_eq_canon _ _ _ (cover0_out _)

/-! ## The pipeline's proof data -/

/-- The proof data of the projection pipeline on core `c`: the arrays as the region finds them; after the body at
    point `t` each input's buffer at its block and each output's at `out0_W` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.AttnCases.lean ====
/-
  The attention kernel's grid has 8 × 2 × 4 points (batch, query block, key block), the key-block coordinate
  running fastest. Its body branches twice on that coordinate: at key block 0 it resets the running maximum, the
  running sum, the accumulator and the scaled queries; at key block 3 it divides the accumulator by the running
  sum and stores the quotient into the output block. So a point is of one of three kinds: FIRST (key block 0),
  MIDDLE (key blocks 1 and 2), LAST (key block 3). The output window is left alone and not written back
  except at the LAST points.
-/
import proofs.«170116_j5909874999592_2_alg».proof.Proof.Gen.KernelIdeal.Launch
import proofs.«170116_j5909874999592_2_alg».proof.Proof.Gen.KernelIdeal.Skeleton
import proofs.«170116_j5909874999592_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch is taken where the key-block coordinate is zero (the body's scalar chain on the coordinate). -/
abbrev cond1_0 (i : grid1.Coords) : Prop := (Scalar.cmpi .ne (Scalar.extui (Scalar.cmpi .eq (BitVec.ofNat 32 (i 2).val) 0#32)) 0#32) = 1#1
/-- Over the grid: exactly at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The normalising branch is taken where the key-block coordinate is the last one. -/
abbrev cond1_1 (i : grid1.Coords) : Prop := k1_cond2 i = 1#1
/-- Over the grid: exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a FIRST or MIDDLE point the output window is idle and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At a LAST point the output window is live. -/
theorem liveAt1_3 : ∀ t : Fin cfg1.N, cond1_1 (grid1.coords t) → cfg1.idle 3 (grid1.coords t) = false := by decide +kernel
/-- No point is both FIRST and LAST. -/
theorem not_both1 : ∀ t : Fin cfg1.N, cond1_0 (grid1.coords t) → ¬cond1_1 (grid1.coords t) := by decide +kernel

end Cert.KernelIdeal.Hand

end
-- ==== Proof.KernelIdeal.AttnRunA.lean ====
/-
  The attention kernel's body at a FIRST point of its grid, run on whole staging and scratch buffers.
  At a FIRST point the body resets the four scratch buffers, whatever they held, and then performs the common step; the output block is handed back untouched.
  The common step: scores of the scaled query block against the key block; the new running maximum; the old
  running sum and accumulator rescaled by the exponential of (old maximum − new maximum), plus this block's
  exponentials and their product with the value block.
  What each buffer ends with is recorded as the list of the stores made into it (latest first), each store's value a
  term over the loaded blocks.
-/
import proofs.«170116_j5909874999592_2_alg».proof.Proof.KernelIdeal.AttnCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a FIRST point: from the three input blocks at their contents, the output block at contents it hands back and the scratch buffers at anything, it runs to the end, keeps the input blocks, and leaves each buffer it stores into with the listed stores applied. -/
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : cond1_0 i) (hc1 : ¬cond1_1 i)
    (x0 : Vec F S1x1024x1024 .bf16) (x1 : Vec F S1x512x1024 .bf16) (x2 : Vec F S1x512x1024 .bf16) :
    Σ' (LS0 : List (View.Piece (Elt F) S1024x1 .f32)) (LS1 : List (View.Piece (Elt F) S1024x1 .f32)) (LS2 : List (View.Piece (Elt F) S1024x1024 .f32)), { LS3 : List (View.Piece (Elt F) S1024x1024 .bf16) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)
                ∗ (∃ f, arg10.view.loc (c : Thread nD τ) ↦[arg10.view.set]{fullShare} arg10.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    isplitl [HS2]
    · iexists _; iexact HS2
    iexists _; iexact HS3

end Cert.KernelIdeal.Hand

end
-- ==== Proof.KernelIdeal.AttnRunB.lean ====
/-
  The attention kernel's body at a MIDDLE point of its grid, run on whole staging and scratch buffers.
  At a MIDDLE point the body performs the common step on the scratch buffers as the point before left them; the scaled queries are only read, and the output block is handed back untouched.
  The common step: scores of the scaled query block against the key block; the new running maximum; the old
  running sum and accumulator rescaled by the exponential of (old maximum − new maximum), plus this block's
  exponentials and their product with the value block.
  What each buffer ends with is recorded as the list of the stores made into it (latest first), each store's value a
  term over the loaded blocks.
-/
import proofs.«170116_j5909874999592_2_alg».proof.Proof.KernelIdeal.AttnCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a MIDDLE point: from the three input blocks at their contents, the output block at contents it hands back and the scratch buffers at the contents the point before left, it runs to the end, keeps the input blocks, and leaves each buffer it stores into with the listed stores applied. -/
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : ¬cond1_1 i)
    (x0 : Vec F S1x1024x1024 .bf16) (x1 : Vec F S1x512x1024 .bf16) (x2 : Vec F S1x512x1024 .bf16)
    (xs0 : Vec F S1024x1 .f32) (xs1 : Vec F S1024x1 .f32) (xs2 : Vec F S1024x1024 .f32) (xs3 : Vec F S1024x1024 .bf16) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)
                ∗ owns (c : Thread nD τ) arg10 fullShare xs3) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    isplitl [HS2]
    · iexists _; iexact HS2
    iexists _; isplitr; · ipureintro; exact harg10.read_unread _
    iexact HS3

end Cert.KernelIdeal.Hand

end
-- ==== Proof.KernelIdeal.AttnRunC.lean ====
/-
  The attention kernel's body at a LAST point of its grid, run on whole staging and scratch buffers.
  At a LAST point the body performs the common step and then stores the accumulator divided by the running sum into the output block, whatever it held.
  The common step: scores of the scaled query block against the key block; the new running maximum; the old
  running sum and accumulator rescaled by the exponential of (old maximum − new maximum), plus this block's
  exponentials and their product with the value block.
  What each buffer ends with is recorded as the list of the stores made into it (latest first), each store's value a
  term over the loaded blocks.
-/
import proofs.«170116_j5909874999592_2_alg».proof.Proof.KernelIdeal.AttnCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a LAST point: from the three input blocks at their contents, the output block at anything and the scratch buffers at the contents the point before left, it runs to the end, keeps the input blocks, and leaves each buffer it stores into with the listed stores applied. -/
noncomputable def kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : cond1_1 i)
    (x0 : Vec F S1x1024x1024 .bf16) (x1 : Vec F S1x512x1024 .bf16) (x2 : Vec F S1x512x1024 .bf16)
    (xs0 : Vec F S1024x1 .f32) (xs1 : Vec F S1024x1 .f32) (xs2 : Vec F S1024x1024 .f32) (xs3 : Vec F S1024x1024 .bf16) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)
                ∗ owns (c : Thread nD τ) arg10 fullShare xs3) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]
    · iexists _; iexact HS0
    isplitl [HS1]
    · iexists _; iexact HS1
    isplitl [HS2]
    · iexists _; iexact HS2
    iexists _; isplitr; · ipureintro; exact harg10.read_unread _
    iexact HS3

end Cert.KernelIdeal.Hand

end
-- ==== Proof.KernelIdeal.AttnFrame.lean ====
/-
  The frame half of the attention kernel's region, at a parameter: the core's buffer contents `V` when the region
  is entered. After each grid point the kernel's state is a five-tuple: the output block's staging buffer, and the
  four scratch buffers — the running maximum, the running sum, the accumulator and the scaled queries. A FIRST
  point (key block 0) produces the scratch from the input blocks alone; a MIDDLE point from the input blocks and what
  the point before left; a LAST point likewise, and also the output block. Between a query block's four points the
  scratch buffers are carried, which the region's invariant records: before the first point every scoped buffer that is no
  staging buffer of this region is held at unknown contents; after a point, the four scratch buffers are held at that
  point's tuple, the others still at unknown contents.
-/
import proofs.«170116_j5909874999592_2_alg».proof.Proof.KernelIdeal.AttnRunA
import proofs.«170116_j5909874999592_2_alg».proof.Proof.KernelIdeal.AttnRunB
import proofs.«170116_j5909874999592_2_alg».proof.Proof.KernelIdeal.AttnRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The buffers the body is run on -/

/-- One staging buffer of the output window, through which its contents are stated. -/
abbrev VO1_3 : View sig .tc .vmem S1x1024x1024 .f32 := (Memref.whole cc1_stg3_0 : Memref sig .tc .vmem S1x1024x1024 .f32).view
/-- Each window's current staging buffer at point `t`, and that it is a whole buffer. -/
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The four scratch buffers, whole, and as views. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev scM1_3 : Memref sig .tc .vmem S1024x1024 .bf16 := Memref.whole cc1_scratch3
abbrev VS1_0 : View sig .tc .vmem S1024x1 .f32 := scM1_0.view
abbrev VS1_1 : View sig .tc .vmem S1024x1 .f32 := scM1_1.view
abbrev VS1_2 : View sig .tc .vmem S1024x1024 .f32 := scM1_2.view
abbrev VS1_3 : View sig .tc .vmem S1024x1024 .bf16 := scM1_3.view

/-- The class invariant spelled out: the other region's fourteen staging buffers at unknown contents, the four scratch
    buffers owned at unknown contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

/-! ## What each kind of point leaves -/

/-- The stores of a FIRST point into the running maximum tile the whole buffer. -/
theorem scover1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : cond1_0 i) (hc1 : ¬cond1_1 i) (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 arg10 harg10 hc0 hc1 x0 x1 x2).1, y ∈ pc.1.set :=
  View.cover_of_tiledL (kernelRun1_A c i arg3 harg3 arg4 harg4 arg5 harg5 arg6 harg6 arg7 harg7 arg8 harg8 arg9 harg9 arg10 harg10 hc0 hc1 x0 x1 x2).1 S1024x1.size (by sl_kernel_rfl) y

/-- What such a point leaves in the running maximum: its stores read back. -/
def sout1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : cond1_0 i) (hc1 : ¬cond1_1 i) (x0 : Vec F S1x1024x1024 .bf16) (x1 : Vec F S1x512x1024 .bf16) (x2 : Vec F S1x512x1024 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2).1)

/-- The stores of a FIRST point into the running sum tile the whole buffer. -/
theorem scover1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : cond1_0 i) (hc1 : ¬cond1_1 i) (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 arg10 harg10 hc0 hc1 x0 x1 x2).2.1, y ∈ pc.1.set :=
  View.cover_of_tiledL (kernelRun1_A c i arg3 harg3 arg4 harg4 arg5 harg5 arg6 harg6 arg7 harg7 arg8 harg8 arg9 harg9 arg10 harg10 hc0 hc1 x0 x1 x2).2.1 S1024x1.size (by sl_kernel_rfl) y

/-- What such a point leaves in the running sum: its stores read back. -/
def sout1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : cond1_0 i) (hc1 : ¬cond1_1 i) (x0 : Vec F S1x1024x1024 .bf16) (x1 : Vec F S1x512x1024 .bf16) (x2 : Vec F S1x512x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 arg10 harg10 hc0 hc1 x0 x1 x2).2.1)

/-- The stores of a FIRST point into the accumulator tile the whole buffer. -/
theorem scover1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : cond1_0 i) (hc1 : ¬cond1_1 i) (x0 : Vec F S1x1024x1024 .bf16) (x1 : Vec F S1x512x1024 .bf16) (x2 : Vec F S1x512x1024 .bf16) (y : S1024x1024.Idx) :
    ∃ pc ∈ (kernelRun1_A c i arg3 harg3 arg4 harg4 arg5 harg5 arg6 harg6 arg7 harg7 arg8 harg8 arg9 harg9 arg10 harg10 hc0 hc1 x0 x1 x2).2.2.1, y ∈ pc.1.set :=
  View.cover_of_tiledL (kernelRun1_A c i arg3 harg3 arg4 harg4 arg5 harg5 arg6 harg6 arg7 harg7 arg8 harg8 arg9 harg9 arg10 harg10 hc0 hc1 x0 x1 x2).2.2.1 S1024x1024.size (by sl_kernel_rfl) y

/-- What such a point leaves in the accumulator: its stores read back. -/
def sout1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : cond1_0 i) (hc1 : ¬cond1_1 i) (x0 : Vec F S1x1024x1024 .bf16) (x1 : Vec F S1x512x1024 .bf16) (x2 : Vec F S1x512x1024 .bf16) : Vec F S1024x1024 .f32 :=
  VS1_2.read (Elt F) (VS1_2.writes (Elt F) VS1_2.junk (kernelRun1_A c i arg3 harg3 arg4 harg4 arg5 harg5 arg6 harg6 arg7 harg7 arg8 harg8 arg9 harg9 arg10 harg10 hc0 hc1 x0 x1 x2).2.2.1)

/-- The stores of a FIRST point into the scaled queries tile the whole buffer. -/
theorem scover1_A_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : cond1_0 i) (hc1 : ¬cond1_1 i) (x0 : Vec F S1x1024x1024 .bf16) (x1 : Vec F S1x512x1024 .bf16) (x2 : Vec F S1x512x1024 .bf16) (y : S1024x1024.Idx) :
    ∃ pc ∈ (kernelRun1_A c i arg3 harg3 arg4 harg4 arg5 harg5 arg6 harg6 arg7 harg7 arg8 harg8 arg9 harg9 arg10 harg10 hc0 hc1 x0 x1 x2).2.2.2.1, y ∈ pc.1.set :=
  View.cover_of_tiledL (kernelRun1_A c i arg3 harg3 arg4 harg4 arg5 harg5 arg6 harg6 arg7 harg7 arg8 harg8 arg9 harg9 arg10 harg10 hc0 hc1 x0 x1 x2).2.2.2.1 S1024x1024.size (by sl_kernel_rfl) y

/-- What such a point leaves in the scaled queries: its stores read back. -/
def sout1_A_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : cond1_0 i) (hc1 : ¬cond1_1 i) (x0 : Vec F S1x1024x1024 .bf16) (x1 : Vec F S1x512x1024 .bf16) (x2 : Vec F S1x512x1024 .bf16) : Vec F S1024x1024 .bf16 :=
  VS1_3.read (Elt F) (VS1_3.writes (Elt F) VS1_3.junk (kernelRun1_A c i arg3 harg3 arg4 harg4 arg5 harg5 arg6 harg6 arg7 harg7 arg8 harg8 arg9 harg9 arg10 harg10 hc0 hc1 x0 x1 x2).2.2.2.1)

/-- The stores of a MIDDLE point into the running maximum tile the whole buffer. -/
theorem scover1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : ¬cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) (y : S1024x1.Idx) :
    ∃ pc ∈ (kernelRun1_B c i arg3 harg3 arg4 harg4 arg5 harg5 arg6 harg6 arg7 harg7 arg8 harg8 arg9 harg9 arg10 harg10 hc0 hc1 x0 x1 x2 xs0 xs1 xs2 xs3).1, y ∈ pc.1.set :=
  View.cover_of_tiledL (kernelRun1_B c i arg3 harg3 arg4 harg4 arg5 harg5 arg6 harg6 arg7 harg7 arg8 harg8 arg9 harg9 arg10 harg10 hc0 hc1 x0 x1 x2 xs0 xs1 xs2 xs3).1 S1024x1.size (by sl_kernel_rfl) y

/-- What such a point leaves in the running maximum: its stores read back. -/
def sout1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : ¬cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) : Vec F S1024x1 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 xs0 xs1 xs2 xs3).1)

/-- The stores of a MIDDLE point into the running sum tile the whole buffer. -/
theorem scover1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : ¬cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) (y : S1024x1.Idx) :
    ∃ pc ∈ (kernelRun1_B c i arg3 harg3 arg4 harg4 arg5 harg5 arg6 harg6 arg7 harg7 arg8 harg8 arg9 harg9 arg10 harg10 hc0 hc1 x0 x1 x2 xs0 xs1 xs2 xs3).2.1, y ∈ pc.1.set :=
  View.cover_of_tiledL (kernelRun1_B c i arg3 harg3 arg4 harg4 arg5 harg5 arg6 harg6 arg7 harg7 arg8 harg8 arg9 harg9 arg10 harg10 hc0 hc1 x0 x1 x2 xs0 xs1 xs2 xs3).2.1 S1024x1.size (by sl_kernel_rfl) y

/-- What such a point leaves in the running sum: its stores read back. -/
def sout1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : ¬cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) : Vec F S1024x1 .f32 :=
  VS1_1.read (Elt F) (VS1_1.writes (Elt F) VS1_1.junk (kernelRun1_B c i arg3 harg3 arg4 harg4 arg5 harg5 arg6 harg6 arg7 harg7 arg8 harg8 arg9 harg9 arg10 harg10 hc0 hc1 x0 x1 x2 xs0 xs1 xs2 xs3).2.1)

/-- The stores of a MIDDLE point into the accumulator tile the whole buffer. -/
theorem scover1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : ¬cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) (y : S1024x1024.Idx) :
    ∃ pc ∈ (kernelRun1_B c i arg3 harg3 arg4 harg4 arg5 harg5 arg6 harg6 arg7 harg7 arg8 harg8 arg9 harg9 arg10 harg10 hc0 hc1 x0 x1 x2 xs0 xs1 xs2 xs3).2.2.1, y ∈ pc.1.set :=
  View.cover_of_tiledL (kernelRun1_B c i arg3 harg3 arg4 harg4 arg5 harg5 arg6 harg6 arg7 harg7 arg8 harg8 arg9 harg9 arg10 harg10 hc0 hc1 x0 x1 x2 xs0 xs1 xs2 xs3).2.2.1 S1024x1024.size (by sl_kernel_rfl) y

/-- What such a point leaves in the accumulator: its stores read back. -/
def sout1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : ¬cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) : Vec F S1024x1024 .f32 :=
  VS1_2.read (Elt F) (VS1_2.writes (Elt F) VS1_2.junk (kernelRun1_B c i arg3 harg3 arg4 harg4 arg5 harg5 arg6 harg6 arg7 harg7 arg8 harg8 arg9 harg9 arg10 harg10 hc0 hc1 x0 x1 x2 xs0 xs1 xs2 xs3).2.2.1)

/-- The stores of a LAST point into the running maximum tile the whole buffer. -/
theorem scover1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) (y : S1024x1.Idx) :
    ∃ pc ∈ (kernelRun1_C c i arg3 harg3 arg4 harg4 arg5 harg5 arg6 harg6 arg7 harg7 arg8 harg8 arg9 harg9 arg10 harg10 hc0 hc1 x0 x1 x2 xs0 xs1 xs2 xs3).2.1, y ∈ pc.1.set :=
  View.cover_of_tiledL (kernelRun1_C c i arg3 harg3 arg4 harg4 arg5 harg5 arg6 harg6 arg7 harg7 arg8 harg8 arg9 harg9 arg10 harg10 hc0 hc1 x0 x1 x2 xs0 xs1 xs2 xs3).2.1 S1024x1.size (by sl_kernel_rfl) y

/-- What such a point leaves in the running maximum: its stores read back. -/
def sout1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) : Vec F S1024x1 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 xs0 xs1 xs2 xs3).2.1)

/-- The stores of a LAST point into the running sum tile the whole buffer. -/
theorem scover1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) (y : S1024x1.Idx) :
    ∃ pc ∈ (kernelRun1_C c i arg3 harg3 arg4 harg4 arg5 harg5 arg6 harg6 arg7 harg7 arg8 harg8 arg9 harg9 arg10 harg10 hc0 hc1 x0 x1 x2 xs0 xs1 xs2 xs3).2.2.1, y ∈ pc.1.set :=
  View.cover_of_tiledL (kernelRun1_C c i arg3 harg3 arg4 harg4 arg5 harg5 arg6 harg6 arg7 harg7 arg8 harg8 arg9 harg9 arg10 harg10 hc0 hc1 x0 x1 x2 xs0 xs1 xs2 xs3).2.2.1 S1024x1.size (by sl_kernel_rfl) y

/-- What such a point leaves in the running sum: its stores read back. -/
def sout1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) : Vec F S1024x1 .f32 :=
  VS1_1.read (Elt F) (VS1_1.writes (Elt F) VS1_1.junk (kernelRun1_C c i arg3 harg3 arg4 harg4 arg5 harg5 arg6 harg6 arg7 harg7 arg8 harg8 arg9 harg9 arg10 harg10 hc0 hc1 x0 x1 x2 xs0 xs1 xs2 xs3).2.2.1)

/-- The stores of a LAST point into the accumulator tile the whole buffer. -/
theorem scover1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) (y : S1024x1024.Idx) :
    ∃ pc ∈ (kernelRun1_C c i arg3 harg3 arg4 harg4 arg5 harg5 arg6 harg6 arg7 harg7 arg8 harg8 arg9 harg9 arg10 harg10 hc0 hc1 x0 x1 x2 xs0 xs1 xs2 xs3).2.2.2.1, y ∈ pc.1.set :=
  View.cover_of_tiledL (kernelRun1_C c i arg3 harg3 arg4 harg4 arg5 harg5 arg6 harg6 arg7 harg7 arg8 harg8 arg9 harg9 arg10 harg10 hc0 hc1 x0 x1 x2 xs0 xs1 xs2 xs3).2.2.2.1 S1024x1024.size (by sl_kernel_rfl) y

/-- What such a point leaves in the accumulator: its stores read back. -/
def sout1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) : Vec F S1024x1024 .f32 :=
  VS1_2.read (Elt F) (VS1_2.writes (Elt F) VS1_2.junk (kernelRun1_C c i arg3 harg3 arg4 harg4 arg5 harg5 arg6 harg6 arg7 harg7 arg8 harg8 arg9 harg9 arg10 harg10 hc0 hc1 x0 x1 x2 xs0 xs1 xs2 xs3).2.2.2.1)

/-- The store of a LAST point into the output block covers it. -/
theorem cover1_C_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) (y : S1x1024x1024.Idx) :
    ∃ pc ∈ (kernelRun1_C c i arg3 harg3 arg4 harg4 arg5 harg5 arg6 harg6 arg7 harg7 arg8 harg8 arg9 harg9 arg10 harg10 hc0 hc1 x0 x1 x2 xs0 xs1 xs2 xs3).1, y ∈ pc.1.set :=
  View.cover_of_tiledL (kernelRun1_C c i arg3 harg3 arg4 harg4 arg5 harg5 arg6 harg6 arg7 harg7 arg8 harg8 arg9 harg9 arg10 harg10 hc0 hc1 x0 x1 x2 xs0 xs1 xs2 xs3).1 S1x1024x1024.size (by sl_kernel_rfl) y

/-- What a LAST point leaves in the output block: the accumulator divided by the running sum, as stored. -/
def out1_C_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) : Vec F S1x1024x1024 .f32 :=
  VO1_3.read (Elt F) (VO1_3.writes (Elt F) VO1_3.junk (kernelRun1_C c i arg3 harg3 arg4 harg4 arg5 harg5 arg6 harg6 arg7 harg7 arg8 harg8 arg9 harg9 arg10 harg10 hc0 hc1 x0 x1 x2 xs0 xs1 xs2 xs3).1)

/-! ## The state after each point -/

/-- The five-tuple after the body at position `n`: the kind of point the closed forms select, run on the point's buffers and
    input blocks, over the scratch the point before left. At a FIRST or MIDDLE point the output component is a
    placeholder nothing reads: the window is idle there and not written back. -/
def outsAt1 (c : Dev nD) : (n : ℕ) → n < cfg1.N → Vec F S1x1024x1024 .f32 × Vec F S1024x1 .f32 × Vec F S1024x1 .f32 × Vec F S1024x1024 .f32 × Vec F S1024x1024 .bf16
  | 0, hn => (VO1_3.read (Elt F) VO1_3.junk, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) scM1_3 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (VO1_3.read (Elt F) VO1_3.junk, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, (outsAt1 c n (Nat.lt_of_succ_lt hn)).2.2.2.2)
      else
        (VO1_3.read (Elt F) VO1_3.junk, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) scM1_3 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, (outsAt1 c n (Nat.lt_of_succ_lt hn)).2.2.2.2)

/-- At a FIRST point: that kind's tuple. -/
theorem outsAt1_A (c : Dev nD) (t : Fin cfg1.N) (h0 : t.val % 4 = 0) (h1 : ¬t.val % 4 = 3) :
    outsAt1 V c t.val t.isLt = (VO1_3.read (Elt F) VO1_3.junk, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t), sout1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a MIDDLE point: that kind's tuple over what the point before left. -/
theorem outsAt1_B (c : Dev nD) (t : Fin cfg1.N) (h0 : ¬t.val % 4 = 0) (h1 : ¬t.val % 4 = 3) :
    outsAt1 V c t.val t.isLt = (VO1_3.read (Elt F) VO1_3.junk, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- At a LAST point: that kind's tuple over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the grid's first point the class invariant (every such buffer at unknown contents); afterwards
    the four scratch buffers at the tuple the point before left, the other region's staging buffers at unknown contents,
    the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2.1 ∗ owns (c : Thread nD τ) scM1_3 fullShare (outsAt1 V c (n - 1) (by omega)).2.2.2.2) ∗ (∃ r, prngReg c r)) := by
  cases n with
  | zero => exact absurd rfl hz
  | succ n => rfl

/-! ## The proof data -/

/-- The arrays as the region finds them; after the body at a point each input's buffer at its block and the output's at the
    tuple's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
/-- The body at any point: the input buffers hold their blocks; the closed forms say which kind the point is; the
    invariant hands the body the scratch buffers at what the point before left (at anything at the grid's first point) and
    takes them back at this point's tuple, the stores of each kind covering each buffer they go into; the output block is
    handed back untouched except at a LAST point, where the stored quotient covers it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1 sout1_A_2 sout1_A_3; (try dsimp only)
      by_cases hz : t.val = 0
      ·
        rw [PhiS1_castSucc V c t, PhiS1_zero V c _ _ hz, PhiA1_eq]
        iintro ⟨⟨⟨HA0, HA1, HA2, HA3, HA4, HA5, HA6, HA7, HA8, HA9, HA10, HA11, HA12, HA13, HS0, HS1, HS2, HS3⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HS3]; · iexact HS3
        iintro ⟨H0, H1, H2, H3, ⟨%e0, HS0⟩, ⟨%e1, HS1⟩, ⟨%e2, HS2⟩, ⟨%e3, HS3⟩⟩
        isplitl [HA0 HA1 HA2 HA3 HA4 HA5 HA6 HA7 HA8 HA9 HA10 HA11 HA12 HA13 HS0 HS1 HS2 HS3 Hg]
        · isplitl [HA0 HA1 HA2 HA3 HA4 HA5 HA6 HA7 HA8 HA9 HA10 HA11 HA12 HA13 HS0 HS1 HS2 HS3]
          · skip
            isplitl [HA0]; · iexact HA0
            isplitl [HA1]; · iexact HA1
            isplitl [HA2]; · iexact HA2
            isplitl [HA3]; · iexact HA3
            isplitl [HA4]; · iexact HA4
            isplitl [HA5]; · iexact HA5
            isplitl [HA6]; · iexact HA6
            isplitl [HA7]; · iexact HA7
            isplitl [HA8]; · iexact HA8
            isplitl [HA9]; · iexact HA9
            isplitl [HA10]; · iexact HA10
            isplitl [HA11]; · iexact HA11
            isplitl [HA12]; · iexact HA12
            isplitl [HA13]; · iexact HA13
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _)
            · unfold owns; iexists _; isplitr
              swap; · iexact HS3
              ipureintro; exact View.read_writes_of_cover _ _ _ _ _ (scover1_A_3 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      ·
        rw [PhiS1_castSucc V c t, PhiS1_pos V c _ _ hz]
        iintro ⟨⟨⟨HA0, HA1, HA2, HA3, HA4, HA5, HA6, HA7, HA8, HA9, HA10, HA11, HA12, HA13, HS0, HS1, HS2, HS3⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        isplitl [HS3]; · iexists _; iexact HS3
        iintro ⟨H0, H1, H2, H3, ⟨%e0, HS0⟩, ⟨%e1, HS1⟩, ⟨%e2, HS2⟩, ⟨%e3, HS3⟩⟩
        isplitl [HA0 HA1 HA2 HA3 HA4 HA5 HA6 HA7 HA8 HA9 HA10 HA11 HA12 HA13 HS0 HS1 HS2 HS3 Hg]
        · isplitl [HA0 HA1 HA2 HA3 HA4 HA5 HA6 HA7 HA8 HA9 HA10 HA11 HA12 HA13 HS0 HS1 HS2 HS3]
          · skip
            isplitl [HA0]; · iexact HA0
            isplitl [HA1]; · iexact HA1
            isplitl [HA2]; · iexact HA2
            isplitl [HA3]; · iexact HA3
            isplitl [HA4]; · iexact HA4
            isplitl [HA5]; · iexact HA5
            isplitl [HA6]; · iexact HA6
            isplitl [HA7]; · iexact HA7
            isplitl [HA8]; · iexact HA8
            isplitl [HA9]; · iexact HA9
            isplitl [HA10]; · iexact HA10
            isplitl [HA11]; · iexact HA11
            isplitl [HA12]; · iexact HA12
            isplitl [HA13]; · iexact HA13
            isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _)
            · unfold owns; iexists _; isplitr
              swap; · iexact HS3
              ipureintro; exact View.read_writes_of_cover _ _ _ _ _ (scover1_A_3 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1 sout1_C_2; (try dsimp only)
      by_cases hz : t.val = 0
      · exfalso; omega
      ·
        rw [PhiS1_castSucc V c t, PhiS1_pos V c _ _ hz]
        iintro ⟨⟨⟨HA0, HA1, HA2, HA3, HA4, HA5, HA6, HA7, HA8, HA9, HA10, HA11, HA12, HA13, HS0, HS1, HS2, HS3⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) _ _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        isplitl [HS3]; · iexact HS3
        iintro ⟨H0, H1, H2, ⟨%e6, H3⟩, ⟨%e0, HS0⟩, ⟨%e1, HS1⟩, ⟨%e2, HS2⟩, HS3⟩
        isplitl [HA0 HA1 HA2 HA3 HA4 HA5 HA6 HA7 HA8 HA9 HA10 HA11 HA12 HA13 HS0 HS1 HS2 HS3 Hg]
        · isplitl [HA0 HA1 HA2 HA3 HA4 HA5 HA6 HA7 HA8 HA9 HA10 HA11 HA12 HA13 HS0 HS1 HS2 HS3]
          · skip
            isplitl [HA0]; · iexact HA0
            isplitl [HA1]; · iexact HA1
            isplitl [HA2]; · iexact HA2
            isplitl [HA3]; · iexact HA3
            isplitl [HA4]; · iexact HA4
            isplitl [HA5]; · iexact HA5
            isplitl [HA6]; · iexact HA6
            isplitl [HA7]; · iexact HA7
            isplitl [HA8]; · iexact HA8
            isplitl [HA9]; · iexact HA9
            isplitl [HA10]; · iexact HA10
            isplitl [HA11]; · iexact HA11
            isplitl [HA12]; · iexact HA12
            isplitl [HA13]; · iexact HA13
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_C_2 c _ _ _ _ _ _ _ _ _ _ _ _ _ _ _ _ _ _ _ _ _ _ _ _ _ _)
            · iexact HS3
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1 sout1_B_2; (try dsimp only)
      by_cases hz : t.val = 0
      · exfalso; omega
      ·
        rw [PhiS1_castSucc V c t, PhiS1_pos V c _ _ hz]
        iintro ⟨⟨⟨HA0, HA1, HA2, HA3, HA4, HA5, HA6, HA7, HA8, HA9, HA10, HA11, HA12, HA13, HS0, HS1, HS2, HS3⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) _ _ _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        isplitl [HS3]; · iexact HS3
        iintro ⟨H0, H1, H2, H3, ⟨%e0, HS0⟩, ⟨%e1, HS1⟩, ⟨%e2, HS2⟩, HS3⟩
        isplitl [HA0 HA1 HA2 HA3 HA4 HA5 HA6 HA7 HA8 HA9 HA10 HA11 HA12 HA13 HS0 HS1 HS2 HS3 Hg]
        · isplitl [HA0 HA1 HA2 HA3 HA4 HA5 HA6 HA7 HA8 HA9 HA10 HA11 HA12 HA13 HS0 HS1 HS2 HS3]
          · skip
            isplitl [HA0]; · iexact HA0
            isplitl [HA1]; · iexact HA1
            isplitl [HA2]; · iexact HA2
            isplitl [HA3]; · iexact HA3
            isplitl [HA4]; · iexact HA4
            isplitl [HA5]; · iexact HA5
            isplitl [HA6]; · iexact HA6
            isplitl [HA7]; · iexact HA7
            isplitl [HA8]; · iexact HA8
            isplitl [HA9]; · iexact HA9
            isplitl [HA10]; · iexact HA10
            isplitl [HA11]; · iexact HA11
            isplitl [HA12]; · iexact HA12
            isplitl [HA13]; · iexact HA13
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_B_2 c _ _ _ _ _ _ _ _ _ _ _ _ _ _ _ _ _ _ _ _ _ _ _ _ _ _)
            · iexact HS3
          iexact Hg
        isplitl [Ho]; · iexact Ho
        isplitl [H0]; · iexact H0
        isplitl [H1]; · iexact H1
        isplitl [H2]; · iexact H2
        iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class invariant back: the scratch buffers' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HA0, HA1, HA2, HA3, HA4, HA5, HA6, HA7, HA8, HA9, HA10, HA11, HA12, HA13, HS0, HS1, HS2, HS3⟩, Hg⟩
  isplitl [HA0 HA1 HA2 HA3 HA4 HA5 HA6 HA7 HA8 HA9 HA10 HA11 HA12 HA13 HS0 HS1 HS2 HS3]
  · skip
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HA8]; · iexact HA8
    isplitl [HA9]; · iexact HA9
    isplitl [HA10]; · iexact HA10
    isplitl [HA11]; · iexact HA11
    isplitl [HA12]; · iexact HA12
    isplitl [HA13]; · iexact HA13
    isplitl [HS0]; · iexists _; iexact HS0
    isplitl [HS1]; · iexists _; iexact HS1
    isplitl [HS2]; · iexists _; iexact HS2
    iexists _; iexact HS3
  iexact Hg

theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KernelIdeal.Run.lean ====
/-
  The whole program as a run. Its main function is: a stretch of host operations (the three weight matrices rounded,
  the three bias vectors reshaped to rows), the projection region, the attention region. The buffers' contents are
  followed from boundary to boundary: at launch; after the host stretch; after the projection region (its three result
  arrays at what its write-backs leave, everything else as before); after the attention region (likewise its one result
  array). Every weakly fair execution ends with every unscoped buffer at the last of these, which holds each argument as
  launched and the result array at what the attention region's write-backs leave.
-/
import proofs.«170116_j5909874999592_2_alg».proof.Proof.KernelIdeal.ProjFrame
import proofs.«170116_j5909874999592_2_alg».proof.Proof.KernelIdeal.AttnFrame
import proofs.«170116_j5909874999592_2_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev Wt0 : Dev nD → Valuation τ sig (Elt F) := fun c b => m (c, b)
/-- After the host stretch: the projection region's entry. -/
abbrev Wt1 : Dev nD → Valuation τ sig (Elt F) := fun c => StableHlo.after hostOps0 (Wt0 m c)
abbrev Vt1 : (c : Dev nD) → (b : Ref sig .tc) → Buf (Elt F) ((c : Thread nD τ).loc b) := fun c b => Wt1 m c b
/-- After the projection region: its arrays at what the pipeline leaves, every other buffer as entered. -/
def Wt2 (c : Dev nD) : Valuation τ sig (Elt F) :=
  Pipeline.withArrays spec0 c (Wt1 m c) fun w => (dat0 (Vt1 m) c).arrAt w cfg0.N
theorem Wt2_arr (c : Dev nD) (w : Fin cfg0.W) :
    Wt2 m c (Proc.devRef .tc (Pipeline.arrRef spec0 w)) = (dat0 (Vt1 m) c).arrAt w cfg0.N := by
  unfold Wt2; exact Pipeline.withArrays_arr spec0 launch0.win.arr_inj c _ _ w
theorem Wt2_of_ne (c : Dev nD) (b : Ref sig .tc) (hb : ∀ w, Pipeline.arrRef spec0 w ≠ b) :
    Wt2 m c (Proc.devRef .tc b) = Wt1 m c (Proc.devRef .tc b) := by
  unfold Wt2; exact Pipeline.withArrays_of_ne spec0 c _ _ b hb
abbrev Vt2 : (c : Dev nD) → (b : Ref sig .tc) → Buf (Elt F) ((c : Thread nD τ).loc b) := fun c b => Wt2 m c b
theorem hFin0 (c : Dev nD) (w : Fin cfg0.W) : (dat0 (Vt1 m) c).arrAt w cfg0.N = Vt2 m c (Pipeline.arrRef spec0 w) :=
  (Wt2_arr m c w).symm
theorem hrestH0 (c : Dev nD) : ∀ b, b ∉ Finset.univ.image (Pipeline.arrRef spec0) → Vt2 m c b = Vt1 m c b :=
  fun b hb => Wt2_of_ne m c b fun w e => hb (Finset.mem_image.mpr ⟨w, Finset.mem_univ _, e⟩)
/-- After the attention region: likewise. -/
def Wt3 (c : Dev nD) : Valuation τ sig (Elt F) :=
  Pipeline.withArrays spec1 c (Wt2 m c) fun w => (dat1 (Vt2 m) c).arrAt w cfg1.N
theorem Wt3_arr (c : Dev nD) (w : Fin cfg1.W) :
    Wt3 m c (Proc.devRef .tc (Pipeline.arrRef spec1 w)) = (dat1 (Vt2 m) c).arrAt w cfg1.N := by
  unfold Wt3; exact Pipeline.withArrays_arr spec1 launch1.win.arr_inj c _ _ w
theorem Wt3_of_ne (c : Dev nD) (b : Ref sig .tc) (hb : ∀ w, Pipeline.arrRef spec1 w ≠ b) :
    Wt3 m c (Proc.devRef .tc b) = Wt2 m c (Proc.devRef .tc b) := by
  unfold Wt3; exact Pipeline.withArrays_of_ne spec1 c _ _ b hb
abbrev Vt3 : (c : Dev nD) → (b : Ref sig .tc) → Buf (Elt F) ((c : Thread nD τ).loc b) := fun c b => Wt3 m c b
theorem hFin1 (c : Dev nD) (w : Fin cfg1.W) : (dat1 (Vt2 m) c).arrAt w cfg1.N = Vt3 m c (Pipeline.arrRef spec1 w) :=
  (Wt3_arr m c w).symm
theorem hrestH1 (c : Dev nD) : ∀ b, b ∉ Finset.univ.image (Pipeline.arrRef spec1) → Vt3 m c b = Vt2 m c b :=
  fun b hb => Wt3_of_ne m c b fun w e => hb (Finset.mem_image.mpr ⟨w, Finset.mem_univ _, e⟩)

/-! ### The arguments end as launched: no host operation writes one and no region's window is one of them except as an
    input, whose array the pipeline leaves as entered -/

theorem Wt3_main_arg0 (c : Dev nD) : Wt3 m c (Proc.devRef .tc main_arg0) = m ((c : Thread nD τ).loc main_arg0) :=
  (Wt3_of_ne m c main_arg0 (by decide)).trans <| ((Wt2_arr m c 0).trans (((dat0 (Vt1 m) c).arrAt_in 0 rfl _).trans (A_eq0 (Vt1 m) c 0))).trans <| (V1_of m c main_arg0 (by decide)).trans rfl
theorem Wt3_main_arg1 (c : Dev nD) : Wt3 m c (Proc.devRef .tc main_arg1) = m ((c : Thread nD τ).loc main_arg1) :=
  (Wt3_of_ne m c main_arg1 (by decide)).trans <| (Wt2_of_ne m c main_arg1 (by decide)).trans <| (V1_of m c main_arg1 (by decide)).trans rfl
theorem Wt3_main_arg2 (c : Dev nD) : Wt3 m c (Proc.devRef .tc main_arg2) = m ((c : Thread nD τ).loc main_arg2) :=
  (Wt3_of_ne m c main_arg2 (by decide)).trans <| (Wt2_of_ne m c main_arg2 (by decide)).trans <| (V1_of m c main_arg2 (by decide)).trans rfl
theorem Wt3_main_arg3 (c : Dev nD) : Wt3 m c (Proc.devRef .tc main_arg3) = m ((c : Thread nD τ).loc main_arg3) :=
  (Wt3_of_ne m c main_arg3 (by decide)).trans <| (Wt2_of_ne m c main_arg3 (by decide)).trans <| (V1_of m c main_arg3 (by decide)).trans rfl
theorem Wt3_main_arg4 (c : Dev nD) : Wt3 m c (Proc.devRef .tc main_arg4) = m ((c : Thread nD τ).loc main_arg4) :=
  (Wt3_of_ne m c main_arg4 (by decide)).trans <| (Wt2_of_ne m c main_arg4 (by decide)).trans <| (V1_of m c main_arg4 (by decide)).trans rfl
theorem Wt3_main_arg5 (c : Dev nD) : Wt3 m c (Proc.devRef .tc main_arg5) = m ((c : Thread nD τ).loc main_arg5) :=
  (Wt3_of_ne m c main_arg5 (by decide)).trans <| (Wt2_of_ne m c main_arg5 (by decide)).trans <| (V1_of m c main_arg5 (by decide)).trans rfl
theorem Wt3_main_arg6 (c : Dev nD) : Wt3 m c (Proc.devRef .tc main_arg6) = m ((c : Thread nD τ).loc main_arg6) :=
  (Wt3_of_ne m c main_arg6 (by decide)).trans <| (Wt2_of_ne m c main_arg6 (by decide)).trans <| (V1_of m c main_arg6 (by decide)).trans rfl

/-! ## The proof data family and the thread state -/

/-- Every pipeline's proof data at its region's entry contents, a literal match on the pipeline. -/
def pdatsH : (p : Fin 2) → (c : Dev nD) → Dat τ (Elt F) Unit ℕ (UR sig nD τ) ℕ (Pipeline.pin (pcfgs (F := F)) adm p) c
  | ⟨0, _⟩ => fun c => dat0 (Vt1 m) c
  | ⟨1, _⟩ => fun c => dat1 (Vt2 m) c
abbrev 𝒱H : Variants := Variants.none
abbrev LH : GSem nD τ sig → Finset Unit := fun _ => ∅
abbrev lvH : GSem nD τ sig → Unit → ℕ := fun _ _ => 0
/-- What rides beside the buffers through every segment: the generator register at some state and the core owing nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TendH (c : Dev nD) : sProp 𝕄 := iprop(StableHlo.held (c : Thread nD τ) (Pipeline.ucRefs τ sig) (Wt3 m c) ∗ ∃ r, prngReg c r)

/-! ## The regions as segments -/

-- the library's lemmas are stated over the pinned configuration, which unifies with the printed one only when
-- unification may unfold plain definitions in a metavariable's type
set_option backward.isDefEq.respectTransparency.types false in
/-- REGION 0 over the thread state: entered from every unscoped buffer at `Wt1`, left at `Wt2`. Its arrays are split
    out of the unscoped buffers at entry and put back at their final contents at exit; the generator register goes into the
    region's invariant and comes back; nothing is owed; the kernel has no semaphore of its own. -/
def region0 : Pipeline.RegionSeg (pcfgs (F := F)) adm (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vt1 m) c).loose
  hwaits := Pipeline.hwaits_of_owed_zero _ _ _ _ LH lvH 0 fun _ _ => rfl
  pre c := iprop(StableHlo.held (c : Thread nD τ) (Pipeline.ucRefs τ sig) (Wt1 m c) ∗ RH c)
  post c := iprop(StableHlo.held (c : Thread nD τ) (Pipeline.ucRefs τ sig) (Wt2 m c) ∗ RH c)
  X c := iprop(∃ r, prngReg c r)
  Y c := iprop(∃ r, prngReg c r)
  Z c := Pipeline.unscopedRest (Ix := Unit) (Name := ℕ) (U := UR sig nD τ) (Lvl := ℕ) spec0 c (Vt1 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (Vt1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdatsH m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (Vt1 m c) (Vt2 m c) ((pdatsH m 0 c).arrAt · cfg0.N) (hFin0 m c) (hrestH0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration, which unifies with the printed one only when
-- unification may unfold plain definitions in a metavariable's type
set_option backward.isDefEq.respectTransparency.types false in
/-- REGION 1 over the thread state: entered from every unscoped buffer at `Wt2`, left at `Wt3`. Its arrays are split
    out of the unscoped buffers at entry and put back at their final contents at exit; the generator register goes into the
    region's invariant and comes back; nothing is owed; the kernel has no semaphore of its own. -/
def region1 : Pipeline.RegionSeg (pcfgs (F := F)) adm (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vt2 m) c).loose
  hwaits := Pipeline.hwaits_of_owed_zero _ _ _ _ LH lvH 1 fun _ _ => rfl
  pre c := iprop(StableHlo.held (c : Thread nD τ) (Pipeline.ucRefs τ sig) (Wt2 m c) ∗ RH c)
  post c := iprop(StableHlo.held (c : Thread nD τ) (Pipeline.ucRefs τ sig) (Wt3 m c) ∗ RH c)
  X c := iprop(∃ r, prngReg c r)
  Y c := iprop(∃ r, prngReg c r)
  Z c := Pipeline.unscopedRest (Ix := Unit) (Name := ℕ) (U := UR sig nD τ) (Lvl := ℕ) spec1 c (Vt2 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (Vt2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (Vt2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (Vt2 m c) (Vt3 m c) ((pdatsH m 1 c).arrAt · cfg1.N) (hFin1 m c) (hrestH1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segsH : List (Pipeline.Seg (pcfgs (F := F)) adm (pdatsH m) () defs₀ 𝒱H LH lvH) :=
  [ .host (hsegH hostOps0 hostOps0_sub hostOps0_fresh (Wt0 m)),
    .region (region0 m),
    .region (region1 m) ]
theorem main_runH (c : Dev nD) : main (F := F) c = Pipeline.Seg.run (segsH m) := (main_chain c).trans (by chain_rfl)

set_option backward.isDefEq.respectTransparency.types false in
/-- Every weakly fair execution of the program from memory `m` with zero counters terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wt3 m c b) :=
  Pipeline.θ_run_regions_kit (pcfgs (F := F)) adm (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wt0 m c) ∗ RH c)) (Tₙ := TendH m)
    (hch := ⟨fun _ => .rfl, fun _ => .rfl, fun _ => .rfl, fun c => by
      show iprop(StableHlo.held (c : Thread nD τ) (Pipeline.ucRefs τ sig) (Wt3 m c) ∗ RH c) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (Wt0 m c)
        from Pipeline.unscopedBufs_held c (Wt0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wt3 m c b)
    (hfin := fun c s' => by
      iintro ⟨⟨Hh, -⟩, HSI⟩
      unfold StableHlo.held
      imodintro
      iapply (pointsTo_read_all (Pipeline.ucRefs τ sig) (fun b => (((c : Thread nD τ)).1, b)) (Wt3 m c) s')
      isplitl [Hh] <;> iassumption)
    (hQ := fun s h c => h c)

end Cert.KernelIdeal.Hand

end
-- ==== Proof.Frames.lean ====
/-
  The three frame claims. Each kernel program's run ends with every unscoped buffer at the contents followed from
  boundary to boundary through the host stretch and the two regions; at an argument's buffer those contents walk back to
  the launch memory, since no host operation writes an argument and a region at most reads one through an input window. The
  reference has no kernel: its frame is its run with the result forgotten.
-/
import proofs.«170116_j5909874999592_2_alg».proof.Defs
import proofs.«170116_j5909874999592_2_alg».proof.Proof.Kernel.Run
import proofs.«170116_j5909874999592_2_alg».proof.Proof.KernelIdeal.Run
import proofs.«170116_j5909874999592_2_alg».proof.Proof.Gen.Kernel
import proofs.«170116_j5909874999592_2_alg».proof.Proof.Gen.KernelIdeal
import proofs.«170116_j5909874999592_2_alg».proof.Proof.Gen.ReferenceIdeal
import proofs.«170116_j5909874999592_2_alg».proof.Proof.Gen.ReferenceIdeal.Run
import proofs.«170116_j5909874999592_2_alg».proof.Proof.Gen.Pre_finite_inputs

set_option maxRecDepth 16384

noncomputable section

namespace Cert.Proof.Frames

open Idealize.ShloMosaic Idealize.ShloMosaic.TcCoe Idealize.SL.Sem

theorem frame_k : Cert.frame_Kernel := fun m ρ _ =>
  (θ_run Cert.Kernel.defs _ _).mono (fun r h c => ⟨(h c _ (Cert.Kernel.Hand.mem_ucH Cert.Kernel.main_arg0 (by decide))).trans (Cert.Kernel.Hand.Wt3_main_arg0 m c),
    (h c _ (Cert.Kernel.Hand.mem_ucH Cert.Kernel.main_arg1 (by decide))).trans (Cert.Kernel.Hand.Wt3_main_arg1 m c),
    (h c _ (Cert.Kernel.Hand.mem_ucH Cert.Kernel.main_arg2 (by decide))).trans (Cert.Kernel.Hand.Wt3_main_arg2 m c),
    (h c _ (Cert.Kernel.Hand.mem_ucH Cert.Kernel.main_arg3 (by decide))).trans (Cert.Kernel.Hand.Wt3_main_arg3 m c),
    (h c _ (Cert.Kernel.Hand.mem_ucH Cert.Kernel.main_arg4 (by decide))).trans (Cert.Kernel.Hand.Wt3_main_arg4 m c),
    (h c _ (Cert.Kernel.Hand.mem_ucH Cert.Kernel.main_arg5 (by decide))).trans (Cert.Kernel.Hand.Wt3_main_arg5 m c),
    (h c _ (Cert.Kernel.Hand.mem_ucH Cert.Kernel.main_arg6 (by decide))).trans (Cert.Kernel.Hand.Wt3_main_arg6 m c)⟩)
    (Cert.Kernel.Hand.run_all (F := Bits) m ρ)

theorem frame_ki : Cert.frame_KernelIdeal := fun m ρ _ =>
  (θ_run Cert.KernelIdeal.defs _ _).mono (fun r h c => ⟨(h c _ (Cert.KernelIdeal.Hand.mem_ucH Cert.KernelIdeal.main_arg0 (by decide))).trans (Cert.KernelIdeal.Hand.Wt3_main_arg0 m c),
    (h c _ (Cert.KernelIdeal.Hand.mem_ucH Cert.KernelIdeal.main_arg1 (by decide))).trans (Cert.KernelIdeal.Hand.Wt3_main_arg1 m c),
    (h c _ (Cert.KernelIdeal.Hand.mem_ucH Cert.KernelIdeal.main_arg2 (by decide))).trans (Cert.KernelIdeal.Hand.Wt3_main_arg2 m c),
    (h c _ (Cert.KernelIdeal.Hand.mem_ucH Cert.KernelIdeal.main_arg3 (by decide))).trans (Cert.KernelIdeal.Hand.Wt3_main_arg3 m c),
    (h c _ (Cert.KernelIdeal.Hand.mem_ucH Cert.KernelIdeal.main_arg4 (by decide))).trans (Cert.KernelIdeal.Hand.Wt3_main_arg4 m c),
    (h c _ (Cert.KernelIdeal.Hand.mem_ucH Cert.KernelIdeal.main_arg5 (by decide))).trans (Cert.KernelIdeal.Hand.Wt3_main_arg5 m c),
    (h c _ (Cert.KernelIdeal.Hand.mem_ucH Cert.KernelIdeal.main_arg6 (by decide))).trans (Cert.KernelIdeal.Hand.Wt3_main_arg6 m c)⟩)
    (Cert.KernelIdeal.Hand.run_all (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

end Cert.Proof.Frames

end
-- ==== Proof.KernelIdeal.AttnPieces.lean ====
/-
  What each kind of point leaves in each buffer, read as a term over the blocks it loaded: the stores recorded by the
  run are whole-block stores, so a buffer's contents after the point is the value of the last store into it, and the value
  of a load is what the buffer held: the block as entered, or the value of an earlier store of the same point.
-/
import proofs.«170116_j5909874999592_2_alg».proof.Proof.KernelIdeal.AttnFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 2000000 in
/-- What a MIDDLE point leaves in the running maximum, as a term over the loaded blocks and the scratch the point before left. -/
theorem sout1_B_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : ¬cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) :
    sout1_B_0 c i arg3 harg3 arg4 harg4 arg5 harg5 arg6 harg6 arg7 harg7 arg8 harg8 arg9 harg9 arg10 harg10 hc0 hc1 x0 x1 x2 xs0 xs1 xs2 xs3 = k1_pay2 (k1_pay10 xs3 x1 xs0) := by
  unfold sout1_B_0
  rw [View.read_writes_eq_canon _ _ _ (scover1_B_0 c i arg3 harg3 arg4 harg4 arg5 harg5 arg6 harg6 arg7 harg7 arg8 harg8 arg9 harg9 arg10 harg10 hc0 hc1 x0 x1 x2 xs0 xs1 xs2 xs3)]
  unfold kernelRun1_B
  dsimp only
  sl_unfold_words
  rw [View.canon_unit_zero hz2]
  simp only [View.readAt_eq_ld, harg3.read_unread, harg4.read_unread, harg5.read_unread, harg7.read_unread, harg8.read_unread, harg9.read_unread, harg10.read_unread, View.ld_unit_zero (S := S1024x1) hz2, View.ld_unit_zero (S := S1024x1024) hz2, View.ld_unit_zero (S := S1x512x1024) hz3, View.ld_unit_zero (S := S1x1024x1024) hz3, View.readCov_unit_zero (S := S1024x1) _ hz2, View.readCov_unit_zero (S := S1024x1024) _ hz2]

set_option maxHeartbeats 2000000 in
/-- What a MIDDLE point leaves in the running sum, as a term over the loaded blocks and the scratch the point before left. -/
theorem sout1_B_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : ¬cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) :
    sout1_B_1 c i arg3 harg3 arg4 harg4 arg5 harg5 arg6 harg6 arg7 harg7 arg8 harg8 arg9 harg9 arg10 harg10 hc0 hc1 x0 x1 x2 xs0 xs1 xs2 xs3 = k1_pay13 xs3 x1 xs0 xs0 xs1 := by
  unfold sout1_B_1
  rw [View.read_writes_eq_canon _ _ _ (scover1_B_1 c i arg3 harg3 arg4 harg4 arg5 harg5 arg6 harg6 arg7 harg7 arg8 harg8 arg9 harg9 arg10 harg10 hc0 hc1 x0 x1 x2 xs0 xs1 xs2 xs3)]
  unfold kernelRun1_B
  dsimp only
  sl_unfold_words
  rw [View.canon_unit_zero hz2]
  simp only [View.readAt_eq_ld, harg3.read_unread, harg4.read_unread, harg5.read_unread, harg7.read_unread, harg8.read_unread, harg9.read_unread, harg10.read_unread, View.ld_unit_zero (S := S1024x1) hz2, View.ld_unit_zero (S := S1024x1024) hz2, View.ld_unit_zero (S := S1x512x1024) hz3, View.ld_unit_zero (S := S1x1024x1024) hz3, View.readCov_unit_zero (S := S1024x1) _ hz2, View.readCov_unit_zero (S := S1024x1024) _ hz2]

set_option maxHeartbeats 2000000 in
/-- What a MIDDLE point leaves in the accumulator, as a term over the loaded blocks and the scratch the point before left. -/
theorem sout1_B_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : ¬cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) :
    sout1_B_2 c i arg3 harg3 arg4 harg4 arg5 harg5 arg6 harg6 arg7 harg7 arg8 harg8 arg9 harg9 arg10 harg10 hc0 hc1 x0 x1 x2 xs0 xs1 xs2 xs3 = k1_pay1 (k1_pay8 x2) (k1_pay14 xs3 x1 xs0 xs0 xs2) (k1_pay15 xs3 x1 xs0) (constant S1024x1024 .f32 0x00000000#32) := by
  unfold sout1_B_2
  rw [View.read_writes_eq_canon _ _ _ (scover1_B_2 c i arg3 harg3 arg4 harg4 arg5 harg5 arg6 harg6 arg7 harg7 arg8 harg8 arg9 harg9 arg10 harg10 hc0 hc1 x0 x1 x2 xs0 xs1 xs2 xs3)]
  unfold kernelRun1_B
  dsimp only
  sl_unfold_words
  rw [View.canon_unit_zero hz2]
  simp only [View.readAt_eq_ld, harg3.read_unread, harg4.read_unread, harg5.read_unread, harg7.read_unread, harg8.read_unread, harg9.read_unread, harg10.read_unread, View.ld_unit_zero (S := S1024x1) hz2, View.ld_unit_zero (S := S1024x1024) hz2, View.ld_unit_zero (S := S1x512x1024) hz3, View.ld_unit_zero (S := S1x1024x1024) hz3, View.readCov_unit_zero (S := S1024x1) _ hz2, View.readCov_unit_zero (S := S1024x1024) _ hz2]

set_option maxHeartbeats 2000000 in
/-- What a LAST point leaves in the running maximum, as a term over the loaded blocks and the scratch the point before left. -/
theorem sout1_C_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) :
    sout1_C_0 c i arg3 harg3 arg4 harg4 arg5 harg5 arg6 harg6 arg7 harg7 arg8 harg8 arg9 harg9 arg10 harg10 hc0 hc1 x0 x1 x2 xs0 xs1 xs2 xs3 = k1_pay2 (k1_pay10 xs3 x1 xs0) := by
  unfold sout1_C_0
  rw [View.read_writes_eq_canon _ _ _ (scover1_C_0 c i arg3 harg3 arg4 harg4 arg5 harg5 arg6 harg6 arg7 harg7 arg8 harg8 arg9 harg9 arg10 harg10 hc0 hc1 x0 x1 x2 xs0 xs1 xs2 xs3)]
  unfold kernelRun1_C
  dsimp only
  sl_unfold_words
  rw [View.canon_unit_zero hz2]
  simp only [View.readAt_eq_ld, harg3.read_unread, harg4.read_unread, harg5.read_unread, harg7.read_unread, harg8.read_unread, harg9.read_unread, harg10.read_unread, View.ld_unit_zero (S := S1024x1) hz2, View.ld_unit_zero (S := S1024x1024) hz2, View.ld_unit_zero (S := S1x512x1024) hz3, View.ld_unit_zero (S := S1x1024x1024) hz3, View.readCov_unit_zero (S := S1024x1) _ hz2, View.readCov_unit_zero (S := S1024x1024) _ hz2]

set_option maxHeartbeats 2000000 in
/-- What a LAST point leaves in the running sum, as a term over the loaded blocks and the scratch the point before left. -/
theorem sout1_C_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) :
    sout1_C_1 c i arg3 harg3 arg4 harg4 arg5 harg5 arg6 harg6 arg7 harg7 arg8 harg8 arg9 harg9 arg10 harg10 hc0 hc1 x0 x1 x2 xs0 xs1 xs2 xs3 = k1_pay13 xs3 x1 xs0 xs0 xs1 := by
  unfold sout1_C_1
  rw [View.read_writes_eq_canon _ _ _ (scover1_C_1 c i arg3 harg3 arg4 harg4 arg5 harg5 arg6 harg6 arg7 harg7 arg8 harg8 arg9 harg9 arg10 harg10 hc0 hc1 x0 x1 x2 xs0 xs1 xs2 xs3)]
  unfold kernelRun1_C
  dsimp only
  sl_unfold_words
  rw [View.canon_unit_zero hz2]
  simp only [View.readAt_eq_ld, harg3.read_unread, harg4.read_unread, harg5.read_unread, harg7.read_unread, harg8.read_unread, harg9.read_unread, harg10.read_unread, View.ld_unit_zero (S := S1024x1) hz2, View.ld_unit_zero (S := S1024x1024) hz2, View.ld_unit_zero (S := S1x512x1024) hz3, View.ld_unit_zero (S := S1x1024x1024) hz3, View.readCov_unit_zero (S := S1024x1) _ hz2, View.readCov_unit_zero (S := S1024x1024) _ hz2]

set_option maxHeartbeats 2000000 in
/-- What a LAST point leaves in the accumulator, as a term over the loaded blocks and the scratch the point before left. -/
theorem sout1_C_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) :
    sout1_C_2 c i arg3 harg3 arg4 harg4 arg5 harg5 arg6 harg6 arg7 harg7 arg8 harg8 arg9 harg9 arg10 harg10 hc0 hc1 x0 x1 x2 xs0 xs1 xs2 xs3 = k1_pay1 (k1_pay8 x2) (k1_pay14 xs3 x1 xs0 xs0 xs2) (k1_pay15 xs3 x1 xs0) (constant S1024x1024 .f32 0x00000000#32) := by
  unfold sout1_C_2
  rw [View.read_writes_eq_canon _ _ _ (scover1_C_2 c i arg3 harg3 arg4 harg4 arg5 harg5 arg6 harg6 arg7 harg7 arg8 harg8 arg9 harg9 arg10 harg10 hc0 hc1 x0 x1 x2 xs0 xs1 xs2 xs3)]
  unfold kernelRun1_C
  dsimp only
  sl_unfold_words
  rw [View.canon_unit_zero hz2]
  simp only [View.readAt_eq_ld, harg3.read_unread, harg4.read_unread, harg5.read_unread, harg7.read_unread, harg8.read_unread, harg9.read_unread, harg10.read_unread, View.ld_unit_zero (S := S1024x1) hz2, View.ld_unit_zero (S := S1024x1024) hz2, View.ld_unit_zero (S := S1x512x1024) hz3, View.ld_unit_zero (S := S1x1024x1024) hz3, View.readCov_unit_zero (S := S1024x1) _ hz2, View.readCov_unit_zero (S := S1024x1024) _ hz2]

set_option maxHeartbeats 2000000 in
/-- What a FIRST point leaves in the running maximum, as a term over the loaded blocks. -/
theorem sout1_A_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : cond1_0 i) (hc1 : ¬cond1_1 i) (x0 : Vec F S1x1024x1024 .bf16) (x1 : Vec F S1x512x1024 .bf16) (x2 : Vec F S1x512x1024 .bf16) :
    sout1_A_0 c i arg3 harg3 arg4 harg4 arg5 harg5 arg6 harg6 arg7 harg7 arg8 harg8 arg9 harg9 arg10 harg10 hc0 hc1 x0 x1 x2 = k1_pay2 (k1_pay10 (k1_pay7 x0) x1 k1_pay4) := by
  unfold sout1_A_0
  rw [View.read_writes_eq_canon _ _ _ (scover1_A_0 c i arg3 harg3 arg4 harg4 arg5 harg5 arg6 harg6 arg7 harg7 arg8 harg8 arg9 harg9 arg10 harg10 hc0 hc1 x0 x1 x2)]
  unfold kernelRun1_A
  dsimp only
  sl_unfold_words
  rw [View.canon_cons_unit_zero hz2]
  simp only [View.readAt_eq_ld, harg3.read_unread, harg4.read_unread, harg5.read_unread, harg7.read_unread, harg8.read_unread, harg9.read_unread, harg10.read_unread, View.ld_unit_zero (S := S1024x1) hz2, View.ld_unit_zero (S := S1024x1024) hz2, View.ld_unit_zero (S := S1x512x1024) hz3, View.ld_unit_zero (S := S1x1024x1024) hz3, View.readCov_unit_zero (S := S1024x1) _ hz2, View.readCov_unit_zero (S := S1024x1024) _ hz2]

set_option maxHeartbeats 2000000 in
/-- What a FIRST point leaves in the running sum, as a term over the loaded blocks. -/
theorem sout1_A_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : cond1_0 i) (hc1 : ¬cond1_1 i) (x0 : Vec F S1x1024x1024 .bf16) (x1 : Vec F S1x512x1024 .bf16) (x2 : Vec F S1x512x1024 .bf16) :
    sout1_A_1 c i arg3 harg3 arg4 harg4 arg5 harg5 arg6 harg6 arg7 harg7 arg8 harg8 arg9 harg9 arg10 harg10 hc0 hc1 x0 x1 x2 = k1_pay13 (k1_pay7 x0) x1 k1_pay4 k1_pay4 k1_pay5 := by
  unfold sout1_A_1
  rw [View.read_writes_eq_canon _ _ _ (scover1_A_1 c i arg3 harg3 arg4 harg4 arg5 harg5 arg6 harg6 arg7 harg7 arg8 harg8 arg9 harg9 arg10 harg10 hc0 hc1 x0 x1 x2)]
  unfold kernelRun1_A
  dsimp only
  sl_unfold_words
  rw [View.canon_cons_unit_zero hz2]
  simp only [View.readAt_eq_ld, harg3.read_unread, harg4.read_unread, harg5.read_unread, harg7.read_unread, harg8.read_unread, harg9.read_unread, harg10.read_unread, View.ld_unit_zero (S := S1024x1) hz2, View.ld_unit_zero (S := S1024x1024) hz2, View.ld_unit_zero (S := S1x512x1024) hz3, View.ld_unit_zero (S := S1x1024x1024) hz3, View.readCov_unit_zero (S := S1024x1) _ hz2, View.readCov_unit_zero (S := S1024x1024) _ hz2]

set_option maxHeartbeats 2000000 in
/-- What a FIRST point leaves in the accumulator, as a term over the loaded blocks. -/
theorem sout1_A_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : cond1_0 i) (hc1 : ¬cond1_1 i) (x0 : Vec F S1x1024x1024 .bf16) (x1 : Vec F S1x512x1024 .bf16) (x2 : Vec F S1x512x1024 .bf16) :
    sout1_A_2 c i arg3 harg3 arg4 harg4 arg5 harg5 arg6 harg6 arg7 harg7 arg8 harg8 arg9 harg9 arg10 harg10 hc0 hc1 x0 x1 x2 = k1_pay1 (k1_pay8 x2) (k1_pay14 (k1_pay7 x0) x1 k1_pay4 k1_pay4 k1_pay6) (k1_pay15 (k1_pay7 x0) x1 k1_pay4) (constant S1024x1024 .f32 0x00000000#32) := by
  unfold sout1_A_2
  rw [View.read_writes_eq_canon _ _ _ (scover1_A_2 c i arg3 harg3 arg4 harg4 arg5 harg5 arg6 harg6 arg7 harg7 arg8 harg8 arg9 harg9 arg10 harg10 hc0 hc1 x0 x1 x2)]
  unfold kernelRun1_A
  dsimp only
  sl_unfold_words
  rw [View.canon_cons_unit_zero hz2]
  simp only [View.readAt_eq_ld, harg3.read_unread, harg4.read_unread, harg5.read_unread, harg7.read_unread, harg8.read_unread, harg9.read_unread, harg10.read_unread, View.ld_unit_zero (S := S1024x1) hz2, View.ld_unit_zero (S := S1024x1024) hz2, View.ld_unit_zero (S := S1x512x1024) hz3, View.ld_unit_zero (S := S1x1024x1024) hz3, View.readCov_unit_zero (S := S1024x1) _ hz2, View.readCov_unit_zero (S := S1024x1024) _ hz2]

set_option maxHeartbeats 2000000 in
/-- What a FIRST point leaves in the scaled queries, as a term over the loaded blocks. -/
theorem sout1_A_3_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : cond1_0 i) (hc1 : ¬cond1_1 i) (x0 : Vec F S1x1024x1024 .bf16) (x1 : Vec F S1x512x1024 .bf16) (x2 : Vec F S1x512x1024 .bf16) :
    sout1_A_3 c i arg3 harg3 arg4 harg4 arg5 harg5 arg6 harg6 arg7 harg7 arg8 harg8 arg9 harg9 arg10 harg10 hc0 hc1 x0 x1 x2 = k1_pay7 x0 := by
  unfold sout1_A_3
  rw [View.read_writes_eq_canon _ _ _ (scover1_A_3 c i arg3 harg3 arg4 harg4 arg5 harg5 arg6 harg6 arg7 harg7 arg8 harg8 arg9 harg9 arg10 harg10 hc0 hc1 x0 x1 x2)]
  unfold kernelRun1_A
  dsimp only
  sl_unfold_words
  rw [View.canon_cons_unit_zero hz2]
  simp only [View.readAt_eq_ld, harg3.read_unread, harg4.read_unread, harg5.read_unread, harg7.read_unread, harg8.read_unread, harg9.read_unread, harg10.read_unread, View.ld_unit_zero (S := S1024x1) hz2, View.ld_unit_zero (S := S1024x1024) hz2, View.ld_unit_zero (S := S1x512x1024) hz3, View.ld_unit_zero (S := S1x1024x1024) hz3, View.readCov_unit_zero (S := S1024x1) _ hz2, View.readCov_unit_zero (S := S1024x1024) _ hz2]

set_option maxHeartbeats 2000000 in
/-- What a LAST point leaves in the output block: the new accumulator divided by the new running sum. -/
theorem out1_C_3_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (arg10 : Memref sig .tc .vmem S1024x1024 .bf16) (harg10 : arg10.IsWhole) (hc0 : ¬cond1_0 i) (hc1 : cond1_1 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (xs3 : Vec F S1024x1024 .bf16) :
    out1_C_3 c i arg3 harg3 arg4 harg4 arg5 harg5 arg6 harg6 arg7 harg7 arg8 harg8 arg9 harg9 arg10 harg10 hc0 hc1 x0 x1 x2 xs0 xs1 xs2 xs3 = k1_pay3 (k1_pay1 (k1_pay8 x2) (k1_pay14 xs3 x1 xs0 xs0 xs2) (k1_pay15 xs3 x1 xs0) (constant S1024x1024 .f32 0x00000000#32)) (k1_pay13 xs3 x1 xs0 xs0 xs1) := by
  unfold out1_C_3
  rw [View.read_writes_eq_canon _ _ _ (cover1_C_3 c i arg3 harg3 arg4 harg4 arg5 harg5 arg6 harg6 arg7 harg7 arg8 harg8 arg9 harg9 arg10 harg10 hc0 hc1 x0 x1 x2 xs0 xs1 xs2 xs3)]
  unfold kernelRun1_C
  dsimp only
  sl_unfold_words
  rw [View.canon_unit_zero hz3]
  simp only [View.readAt_eq_ld, harg3.read_unread, harg4.read_unread, harg5.read_unread, harg7.read_unread, harg8.read_unread, harg9.read_unread, harg10.read_unread, View.ld_unit_zero (S := S1024x1) hz2, View.ld_unit_zero (S := S1024x1024) hz2, View.ld_unit_zero (S := S1x512x1024) hz3, View.ld_unit_zero (S := S1x1024x1024) hz3, View.readCov_unit_zero (S := S1024x1) _ hz2, View.readCov_unit_zero (S := S1024x1024) _ hz2]

end Cert.KernelIdeal.Hand

end
-- ==== Proof.KernelIdeal.AttnSteps.lean ====
/-
  The attention kernel's scratch state from point to point, as compositions of the body's payload functions. The state is
  the quadruple (running maximum, running sum, accumulator, scaled queries). A FIRST point builds it from the query block and
  its key and value blocks over the reset values; a later point updates it from its own key and value blocks and keeps the
  scaled queries; a LAST point's output block is the updated accumulator divided by the updated running sum.
-/
import proofs.«170116_j5909874999592_2_alg».proof.Proof.Gen.KernelIdeal.Skeleton

noncomputable section

namespace Cert.KernelIdeal.Hand

open Cert.KernelIdeal Cert.KernelIdeal.Gen Idealize.ShloMosaic

variable {F : FTy → Type} [FloatOps F]

/-- The scratch state: running maximum, running sum, accumulator, scaled queries. -/
abbrev AttnSt (F : FTy → Type) : Type := Vec F S1024x1 .f32 × Vec F S1024x1 .f32 × Vec F S1024x1024 .f32 × Vec F S1024x1024 .bf16

/-- After a FIRST point. -/
def stFirst (qb : Vec F S1x1024x1024 .bf16) (kb vb : Vec F S1x512x1024 .bf16) : AttnSt F :=
  (k1_pay2 (k1_pay10 (k1_pay7 qb) kb k1_pay4),
   k1_pay13 (k1_pay7 qb) kb k1_pay4 k1_pay4 k1_pay5,
   k1_pay1 (k1_pay8 vb) (k1_pay14 (k1_pay7 qb) kb k1_pay4 k1_pay4 k1_pay6) (k1_pay15 (k1_pay7 qb) kb k1_pay4) (constant S1024x1024 .f32 0x00000000#32),
   k1_pay7 qb)

/-- After a later point, from the state the point before left. -/
def stNext (kb vb : Vec F S1x512x1024 .bf16) (s : AttnSt F) : AttnSt F :=
  (k1_pay2 (k1_pay10 s.2.2.2 kb s.1),
   k1_pay13 s.2.2.2 kb s.1 s.1 s.2.1,
   k1_pay1 (k1_pay8 vb) (k1_pay14 s.2.2.2 kb s.1 s.1 s.2.2.1) (k1_pay15 s.2.2.2 kb s.1) (constant S1024x1024 .f32 0x00000000#32),
   s.2.2.2)

/-- The output block a LAST point stores, from the state it has just computed. -/
def outLast (s : AttnSt F) : Vec F S1x1024x1024 .f32 := k1_pay3 s.2.2.1 s.2.1

end Cert.KernelIdeal.Hand

end
-- ==== Proof.KernelIdeal.AttnState.lean ====
/-
  The attention region's scratch state after each grid point, as the composition of state steps: at a FIRST point the
  state built from the point's three blocks; at any later point of the same query block the step from the point's key and
  value blocks over the state the point before left; and at a LAST point the output block is read off that point's own state.
-/
import proofs.«170116_j5909874999592_2_alg».proof.Proof.KernelIdeal.AttnPieces
import proofs.«170116_j5909874999592_2_alg».proof.Proof.KernelIdeal.AttnSteps

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The scratch state after position `n`: the tuple without its output component. -/
def scrAt (c : Dev nD) (n : ℕ) (hn : n < cfg1.N) : AttnSt F := (outsAt1 V c n hn).2

/-- After a FIRST point: the state built from its blocks. -/
theorem scrAt_first (c : Dev nD) (t : Fin cfg1.N) (h0 : t.val % 4 = 0) :
    scrAt V c t.val t.isLt = stFirst (iblk1 V c 0 t) (iblk1 V c 1 t) (iblk1 V c 2 t) := by
  have h1 : ¬t.val % 4 = 3 := by omega
  unfold scrAt
  rw [outsAt1_A V c t h0 h1]
  dsimp only
  rw [sout1_A_0_eq, sout1_A_1_eq, sout1_A_2_eq, sout1_A_3_eq]
  rfl

/-- After a later point: the step from its key and value blocks over the state the point before left. -/
theorem scrAt_next (c : Dev nD) (t : Fin cfg1.N) (h0 : ¬t.val % 4 = 0) :
    scrAt V c t.val t.isLt = stNext (iblk1 V c 1 t) (iblk1 V c 2 t) (scrAt V c (t.val - 1) (Nat.lt_of_le_of_lt (Nat.sub_le _ _) t.isLt)) := by
  unfold scrAt
  by_cases h1 : t.val % 4 = 3
  · rw [outsAt1_C V c t h0 h1]
    dsimp only
    rw [sout1_C_0_eq, sout1_C_1_eq, sout1_C_2_eq]
    rfl
  · rw [outsAt1_B V c t h0 h1]
    dsimp only
    rw [sout1_B_0_eq, sout1_B_1_eq, sout1_B_2_eq]
    rfl

/-- At a LAST point the output block is read off the point's own state. -/
theorem out_last (c : Dev nD) (t : Fin cfg1.N) (h1 : t.val % 4 = 3) :
    (outsAt1 V c t.val t.isLt).1 = outLast (scrAt V c t.val t.isLt) := by
  have h0 : ¬t.val % 4 = 0 := by omega
  unfold scrAt
  rw [outsAt1_C V c t h0 h1]
  dsimp only
  rw [out1_C_3_eq, sout1_C_1_eq, sout1_C_2_eq]
  rfl

end Cert.KernelIdeal.Hand

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.LibDotRows.lean ====
/-
  A rows-by-rows product read at an index.

  For dimension numbers that contract the second axis of both operands (an `M × K` array against an `N × K` array:
  the product with the second operand's transpose), the sum over the contraction index that the matrix unit and a
  host `dot_general` denote on the extended reals is `Σ_k l (a, k) · r (b, k)`.
-/
import Idealize.ShloMosaic.PureOps.Ideal.Laws
import Idealize.ShloMosaic.Lib.ValueIdx

noncomputable section

open scoped BigOperators

namespace Idealize.ShloMosaic.RowsDot

open Idealize.ShloMosaic Idealize.ShloMosaic.ValueIdx

variable {M K N : ℕ}

/-- The contraction sum of a product with the transpose at output index `(a, b)` is the sum over `k : Fin K` of
    `l (a, k) · r (b, k)`. The dimension numbers are given by their six lists, as a printed record states them. -/
theorem sum_eq (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (a : Fin M) (b : Fin N) :
    ∑ k : D.contr.Idx, l (D.lhsIdx (ix2 a b) k) * r (D.rhsIdx (ix2 a b) k) = ∑ k : Fin K, l (ix2 a k) * r (ix2 b k) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![N, K]⟩) (so := ⟨2, ![M, N]⟩) [1] [1] [0] [0] [] [] wf).contr.rank = 1 := rfl
  have hs : (DotDims.mk (sl := ⟨2, ![M, K]⟩) (sr := ⟨2, ![N, K]⟩) (so := ⟨2, ![M, N]⟩) [1] [1] [0] [0] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![N, K]⟩) (so := ⟨2, ![M, N]⟩) [1] [1] [0] [0] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![N, K]⟩) (so := ⟨2, ![M, N]⟩) [1] [1] [0] [0] [] [] wf).rhsIdx (ix2 a b) ((contrEquiv1 _ K hr hs).symm k) = ix2 b k := by
    funext d
    match d with
    | ⟨0, _⟩ => rfl
    | ⟨1, _⟩ =>
      refine Fin.ext ?_
      exact (DotDims.rhsIdx_val_of_single _ (cr := 1) rfl (ix2 a b) _).trans (contrEquiv1_symm_val _ K hr hs k)
  rw [el, er]

end Idealize.ShloMosaic.RowsDot

end
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.KernelIdeal.AttnPayload.lean ====
/-
  The attention kernel's pure values, read at an index over the extended reals.

  One visit of the kernel to a block of 512 key and value rows updates, for each of the 1024 query rows `r` of its
  query block, a running maximum, a running sum of exponentials and a running weighted sum of value rows. With
  `S r j` the inner product of (scaled) query row `r` with key row `j` of the block, and `M r` the larger of the old
  maximum and the block's largest score:
    new maximum      = M r,
    new sum          = exp (old maximum - M r) · old sum + Σ_j exp (S r j - M r),
    new accumulator  = exp (old maximum - M r) · old accumulator (r, h) + Σ_j exp (S r j - M r) · value (j, h).
  The first visit resets the three to a large negative real, 0 and 0 and stores the queries times 1/32; the last
  visit stores accumulator / sum. Rounding to the narrow format, widening back, and unit axes change no entry over
  the extended reals; a lane maximum from `-∞` is the supremum over the lane, a lane sum from 0 is the sum.
-/
import proofs.«170116_j5909874999592_2_alg».proof.Proof.Gen.KernelIdeal.Skeleton
import proofs.«170116_j5909874999592_2_alg».proof.Proof.LibDot
import proofs.«170116_j5909874999592_2_alg».proof.Proof.LibDotRows
import proofs.«170116_j5909874999592_2_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## Lane reductions and the constant words -/

/-- Folding `max` from `⊥` over a finite set is the supremum over it. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word the lane maximum starts from is `-∞`, the unit of `max`. -/
theorem negInf_word : Ideal.ofBits .f32 0xFF800000#32 = ⊥ := by simp [Ideal.ofBits, Ideal.ieee]

/-- The index a lane reduction of a `[1024, 512]` array reads at row `r`, lane `j`. -/
theorem lift_row (r : Fin 1024) (j : Fin 512) :
    reduces_S1024x512_S1024.lift (ix1 r) j = ix2 r j := by
  funext a
  match a with
  | ⟨0, _⟩ => exact Fin.ext rfl
  | ⟨1, _⟩ => exact Fin.ext rfl

/-- A lane maximum of a `[1024, 512]` array from `-∞`, at row `r`: the supremum over the lane. -/
theorem rowMax_apply (src : FVec Ideal S1024x512 .f32) (r : Fin 1024) :
    multiReduction (F := Ideal) .maximumf [1] S1024 src 0xFF800000#32 reduces_S1024x512_S1024 (.inl rfl) rfl (ix1 r)
      = Finset.univ.sup fun j : Fin 512 => src (ix2 r j) := by
  refine (Ideal.multiReduction_maximumf_single src _ reduces_S1024x512_S1024 _ _ (ix1 r)).trans ?_
  show (Finset.univ : Finset (Fin 512)).fold max (Ideal.ofBits .f32 0xFF800000#32)
      (fun j => src (reduces_S1024x512_S1024.lift (ix1 r) j)) = _
  rw [negInf_word]
  refine (fold_max_bot_eq_sup (ι := Fin 512) Finset.univ _).trans ?_
  exact congrArg _ (funext fun j => congrArg src (lift_row r j))

/-- A lane sum of a `[1024, 512]` array from zero, at row `r`: the sum over the lane. -/
theorem rowSum_apply (src : FVec Ideal S1024x512 .f32) (r : Fin 1024) :
    multiReduction (F := Ideal) .add [1] S1024 src 0x00000000#32 reduces_S1024x512_S1024 (.inl rfl) rfl (ix1 r)
      = ∑ j : Fin 512, src (ix2 r j) := by
  refine (Ideal.multiReduction_add_single src _ reduces_S1024x512_S1024 _ _ (ix1 r)).trans ?_
  show ∑ j : Fin 512, src (reduces_S1024x512_S1024.lift (ix1 r) j) = _
  exact Finset.sum_congr rfl fun j _ => congrArg src (lift_row r j)

/-- The scale the queries are multiplied by: sign 0, exponent 122, fraction 0, that is `2⁻⁵ = 1/32`. -/
theorem scale_word : Ideal.ofBits .f32 0x3D000000#32 = ((1 / 32 : ℝ) : EReal) := by
  simp [Ideal.ofBits, Ideal.ieee]
  rw [← EReal.coe_mul]
  exact congrArg _ (by norm_num)

/-- The word the running maximum is reset to is a (large negative) real number, not an infinity. -/
theorem reset_word_real : ∃ M0 : ℝ, Ideal.ofBits .f32 0xFF333332#32 = (M0 : EReal) := by
  simp [Ideal.ofBits, Ideal.ieee]
  exact ⟨-(11744050 * 2 ^ 104), by norm_cast⟩

/-- The score of query row `r` of the block against key row `j` of the block: their inner product over the head axis. -/
def blockScore (qs : Vec Ideal S1024x1024 .bf16) (kb : Vec Ideal S1x512x1024 .bf16) (r : Fin 1024) (j : Fin 512) : EReal :=
  ∑ h : Fin 1024, qs (ix2 r h) * kb (ix3 (0 : Fin 1) j h)

/-- The running maximum of row `r` after the block: the larger of the old one and the block's largest score. -/
def newMax (qs : Vec Ideal S1024x1024 .bf16) (kb : Vec Ideal S1x512x1024 .bf16) (m : Vec Ideal S1024x1 .f32) (r : Fin 1024) : EReal :=
  max (m (ix2 r (0 : Fin 1))) (Finset.univ.sup fun j : Fin 512 => blockScore qs kb r j)

/-! ## The scores and the running maximum -/

/-- The block of scores: queries against keys, contracting the head axis of both, into zero. -/
theorem k1_pay9_apply (qs : Vec Ideal S1024x1024 .bf16) (kb : Vec Ideal S1x512x1024 .bf16) (r : Fin 1024) (j : Fin 512) :
    k1_pay9 (F := Ideal) qs kb (ix2 r j) = blockScore qs kb r j := by
  dsimp only [k1_pay9]
  unfold blockScore
  refine (Ideal.matmul_constant_zero_apply _ none _ _ _).trans ?_
  refine (RowsDot.sum_eq _ rfl rfl rfl rfl rfl rfl _ _ r j).trans ?_
  refine Finset.sum_congr rfl fun h _ => ?_
  exact congrArg (qs (ix2 r h) * ·) (shapeCast_1ab_ab_apply kb _ j h)

/-- The new running maximum. -/
theorem k1_pay10_apply (qs : Vec Ideal S1024x1024 .bf16) (kb : Vec Ideal S1x512x1024 .bf16) (m : Vec Ideal S1024x1 .f32)
    (r : Fin 1024) : k1_pay10 (F := Ideal) qs kb m (ix2 r (0 : Fin 1)) = newMax qs kb m r := by
  dsimp only [k1_pay10]
  unfold newMax
  refine (maximumf_apply _ _ _).trans ?_
  refine congrArg (max (m (ix2 r (0 : Fin 1))) ·) ?_
  refine (Cert.LibColumn.shapeCast_a_a1_apply _ _ r (0 : Fin 1)).trans ?_
  refine (rowMax_apply _ r).trans ?_
  exact congrArg _ (funext fun j => k1_pay9_apply qs kb r j)

/-- Storing the maximum casts it to its own shape: nothing changes. -/
theorem k1_pay2_eq (v : FVec Ideal S1024x1 .f32) : k1_pay2 (F := Ideal) v = v := by
  dsimp only [k1_pay2]
  exact shapeCast_self v _

/-- The factor that rescales what was accumulated under the old maximum. -/
theorem k1_pay11_apply (qs : Vec Ideal S1024x1024 .bf16) (kb : Vec Ideal S1x512x1024 .bf16) (m m' : Vec Ideal S1024x1 .f32)
    (r : Fin 1024) :
    k1_pay11 (F := Ideal) qs kb m m' (ix2 r (0 : Fin 1)) = Ideal.exp (m' (ix2 r (0 : Fin 1)) - newMax qs kb m r) := by
  dsimp only [k1_pay11]
  show Ideal.exp (m' (ix2 r (0 : Fin 1)) - k1_pay10 (F := Ideal) qs kb m (ix2 r (0 : Fin 1))) = _
  rw [k1_pay10_apply]

/-- The exponential of a score shifted by the new maximum. -/
theorem k1_pay12_apply (qs : Vec Ideal S1024x1024 .bf16) (kb : Vec Ideal S1x512x1024 .bf16) (m : Vec Ideal S1024x1 .f32)
    (r : Fin 1024) (j : Fin 512) :
    k1_pay12 (F := Ideal) qs kb m (ix2 r j) = Ideal.exp (blockScore qs kb r j - newMax qs kb m r) := by
  dsimp only [k1_pay12]
  show Ideal.exp (k1_pay9 (F := Ideal) qs kb (ix2 r j)
      - broadcastTo S1024x512 (k1_pay10 (F := Ideal) qs kb m) broadcasts_S1024x1_S1024x512 (ix2 r j)) = _
  rw [k1_pay9_apply, Cert.LibColumn.broadcastTo_a1_ab_apply _ _ r j, k1_pay10_apply]

/-! ## The running sum, the accumulator and the output -/

/-- The new running sum of exponentials. -/
theorem k1_pay13_apply (qs : Vec Ideal S1024x1024 .bf16) (kb : Vec Ideal S1x512x1024 .bf16) (m m' l : Vec Ideal S1024x1 .f32)
    (r : Fin 1024) :
    k1_pay13 (F := Ideal) qs kb m m' l (ix2 r (0 : Fin 1))
      = Ideal.exp (m' (ix2 r (0 : Fin 1)) - newMax qs kb m r) * l (ix2 r (0 : Fin 1))
        + ∑ j : Fin 512, Ideal.exp (blockScore qs kb r j - newMax qs kb m r) := by
  dsimp only [k1_pay13]
  refine (congrFun (shapeCast_self _ _) _).trans ?_
  refine (addf_apply _ _ _).trans ?_
  refine congrArg₂ (· + ·) ?_ ?_
  · refine (mulf_apply _ _ _).trans ?_
    exact congrArg (· * l (ix2 r (0 : Fin 1))) (k1_pay11_apply qs kb m m' r)
  · refine (Cert.LibColumn.shapeCast_a_a1_apply _ _ r (0 : Fin 1)).trans ?_
    refine (rowSum_apply _ r).trans ?_
    exact Finset.sum_congr rfl fun j _ => k1_pay12_apply qs kb m r j

/-- The new accumulator: the rescaled old one plus the exponentials against the value block, into zero. -/
theorem k1_pay1_apply (qs : Vec Ideal S1024x1024 .bf16) (kb vb : Vec Ideal S1x512x1024 .bf16) (m m' : Vec Ideal S1024x1 .f32)
    (acc : Vec Ideal S1024x1024 .f32) (r h : Fin 1024) :
    k1_pay1 (F := Ideal) (k1_pay8 vb) (k1_pay14 qs kb m m' acc) (k1_pay15 qs kb m) (constant (F := Ideal) S1024x1024 .f32 0x00000000#32) (ix2 r h)
      = Ideal.exp (m' (ix2 r (0 : Fin 1)) - newMax qs kb m r) * acc (ix2 r h)
        + ∑ j : Fin 512, Ideal.exp (blockScore qs kb r j - newMax qs kb m r) * vb (ix3 (0 : Fin 1) j h) := by
  dsimp only [k1_pay1]
  refine (congrFun (shapeCast_self _ _) _).trans ?_
  refine (addf_apply _ _ _).trans ?_
  refine congrArg₂ (· + ·) ?_ ?_
  · dsimp only [k1_pay14]
    refine (mulf_apply _ _ _).trans ?_
    refine congrArg (· * acc (ix2 r h)) ?_
    exact (Cert.LibColumn.broadcastTo_a1_ab_apply _ _ r h).trans (k1_pay11_apply qs kb m m' r)
  · refine (Ideal.matmul_constant_zero_apply _ none _ _ _).trans ?_
    refine (PlainDot.sum_eq _ rfl rfl rfl rfl rfl rfl _ _ r h).trans ?_
    refine Finset.sum_congr rfl fun j _ => ?_
    refine congrArg₂ (· * ·) ?_ ?_
    · dsimp only [k1_pay15]
      exact (truncf_apply (φ := .f32) (ψ := .bf16) _ bitsLt_bf16_f32 _).trans (k1_pay12_apply qs kb m r j)
    · dsimp only [k1_pay8]
      exact shapeCast_1ab_ab_apply vb _ j h

/-- The normalised output of the last visit. -/
theorem k1_pay3_apply (acc : Vec Ideal S1024x1024 .f32) (l : Vec Ideal S1024x1 .f32) (r h : Fin 1024) :
    k1_pay3 (F := Ideal) acc l (ix3 (0 : Fin 1) r h) = Ideal.div (acc (ix2 r h)) (l (ix2 r (0 : Fin 1))) := by
  dsimp only [k1_pay3]
  refine (shapeCast_ab_1ab_apply _ _ (0 : Fin 1) r h).trans ?_
  refine (divf_apply _ _ _).trans ?_
  exact congrArg (Ideal.div (acc (ix2 r h))) (Cert.LibColumn.broadcastTo_a1_ab_apply _ _ r h)

/-! ## The first visit: scaled queries and the resets -/

/-- The scaled queries. -/
theorem k1_pay7_apply (qb : Vec Ideal S1x1024x1024 .bf16) (r h : Fin 1024) :
    k1_pay7 (F := Ideal) qb (ix2 r h) = qb (ix3 (0 : Fin 1) r h) * Ideal.ofBits .f32 0x3D000000#32 := by
  dsimp only [k1_pay7]
  refine (congrFun (shapeCast_self _ _) _).trans ?_
  refine (truncf_apply (φ := .f32) (ψ := .bf16) _ bitsLt_bf16_f32 _).trans ?_
  refine (mulf_apply _ _ _).trans ?_
  refine congrArg₂ (· * ·) ?_ rfl
  exact (extf_apply (φ := .bf16) (ψ := .f32) _ bitsLt_bf16_f32 _).trans (shapeCast_1ab_ab_apply qb _ r h)

/-- The running maximum's reset value. -/
theorem k1_pay4_apply (r : Fin 1024) : k1_pay4 (F := Ideal) (ix2 r (0 : Fin 1)) = Ideal.ofBits .f32 0xFF333332#32 := by
  dsimp only [k1_pay4]
  exact congrFun (shapeCast_self _ _) _

/-- The running sum's reset value. -/
theorem k1_pay5_apply (r : Fin 1024) : k1_pay5 (F := Ideal) (ix2 r (0 : Fin 1)) = 0 := by
  dsimp only [k1_pay5]
  exact (congrFun (shapeCast_self _ _) _).trans Ideal.ofBits_zero_f32

/-- The accumulator's reset value. -/
theorem k1_pay6_apply (r h : Fin 1024) : k1_pay6 (F := Ideal) (ix2 r h) = 0 := by
  dsimp only [k1_pay6]
  exact (congrFun (shapeCast_self _ _) _).trans Ideal.ofBits_zero_f32

end Cert.KernelIdeal.Hand

end
-- ==== Proof.Spec.lean ====
/-
  What both programs compute, as one function of the seven argument arrays over the extended reals:
  single-head self-attention. Three dense projections of the input rows (queries, keys, values); the score of a
  query row against a key row is their inner product over the head axis times 1/32 (the head axis has 1024 = 32²
  entries); each query row's scores are turned into weights by the softmax along the key axis, written with the
  shift by the row's largest score that both programs apply; the result row is the weighted sum of the value rows.
  Everything is stated over plain index types of literal sizes, so neither program is imported here.
-/
import Idealize.ShloMosaic.PureOps.Ideal
import Idealize.ShloMosaic.Lib.ValueIdx

noncomputable section

namespace Cert.Attn

open Idealize.ShloMosaic

/-- A dense projection: input row `s` of batch `n` against column `h` of the weight matrix, plus the bias entry. -/
def proj (x : Fin 8 → Fin 2048 → Fin 1024 → EReal) (W : Fin 1024 → Fin 1024 → EReal) (b : Fin 1024 → EReal) :
    Fin 8 → Fin 2048 → Fin 1024 → EReal :=
  fun n s h => (∑ d : Fin 1024, x n s d * W d h) + b h

/-- The scaled score of query row `i` against key row `j`: the inner product over the head axis, times 1/32. -/
def score (q k : Fin 8 → Fin 2048 → Fin 1024 → EReal) : Fin 8 → Fin 2048 → Fin 2048 → EReal :=
  fun n i j => (∑ h : Fin 1024, q n i h * k n j h) * ((1 / 32 : ℝ) : EReal)

/-- The largest score of a query row: the supremum over the key axis (`⊥` is the unit of `max`). -/
def rowMax (s : Fin 8 → Fin 2048 → Fin 2048 → EReal) : Fin 8 → Fin 2048 → EReal :=
  fun n i => Finset.univ.sup (s n i)

/-- The softmax weight of key row `j` for query row `i`, with the shift by the row's largest score. -/
def weight (s : Fin 8 → Fin 2048 → Fin 2048 → EReal) : Fin 8 → Fin 2048 → Fin 2048 → EReal :=
  fun n i j => Ideal.div (Ideal.exp (s n i j - rowMax s n i)) (∑ j' : Fin 2048, Ideal.exp (s n i j' - rowMax s n i))

/-- The weighted sum of the value rows. -/
def attend (s : Fin 8 → Fin 2048 → Fin 2048 → EReal) (v : Fin 8 → Fin 2048 → Fin 1024 → EReal) :
    Fin 8 → Fin 2048 → Fin 1024 → EReal :=
  fun n i h => ∑ j : Fin 2048, weight s n i j * v n j h

/-- Self-attention of the input rows under the three projections. -/
def attention (x : Fin 8 → Fin 2048 → Fin 1024 → EReal)
    (Wq : Fin 1024 → Fin 1024 → EReal) (bq : Fin 1024 → EReal)
    (Wk : Fin 1024 → Fin 1024 → EReal) (bk : Fin 1024 → EReal)
    (Wv : Fin 1024 → Fin 1024 → EReal) (bv : Fin 1024 → EReal) : Fin 8 → Fin 2048 → Fin 1024 → EReal :=
  attend (score (proj x Wq bq) (proj x Wk bk)) (proj x Wv bv)

end Cert.Attn

end
-- ==== Proof.LibOnlineSoftmax.lean ====
/-
  The online-softmax law, as a general statement about extended reals.

  A query row has finitely many keys, split into `T` blocks that all range over the same finite index type `κ`.
  A one-pass softmax keeps a running state `(m, l, acc)`: the largest score met so far, the sum of the
  exponentials of the scores shifted by `m`, and the sum of those exponentials times the values. When a new
  block raises the maximum from `m` to `m'`, the two sums are rescaled by `exp (m - m')` before the block's
  own terms are added. After the last block the quotient `acc / l` is the softmax-weighted sum of the values,
  written with the shift by the row's largest score:
      acc / l = ∑ t j, exp (s t j - mx) / (∑ t' j', exp (s t' j' - mx)) * v t j .
  The reason: every quantity stays a real number; after `k` blocks `l = ∑ exp (s - m)` and
  `acc = ∑ exp (s - m) * v` over the keys seen (because `exp (m - m') * exp (s - m) = exp (s - m')`), and at the
  end numerator and denominator differ from the shifted-by-`mx` sums by the common positive factor
  `exp (mx - m)`, which cancels.
-/
import Mathlib
import Idealize.ShloMosaic.PureOps.Ideal

noncomputable section

namespace Cert.OnlineSoftmax

open Idealize.ShloMosaic

/-- The coercion of a finite sum of reals into the extended reals is the sum of the coercions. -/
theorem coe_sum {ι : Type} (S : Finset ι) (f : ι → ℝ) :
    ((∑ i ∈ S, f i : ℝ) : EReal) = ∑ i ∈ S, ((f i : ℝ) : EReal) := by
  classical
  induction S using Finset.induction_on with
  | empty => simp
  | insert a S ha ih => rw [Finset.sum_insert ha, Finset.sum_insert ha, EReal.coe_add, ih]

/-- The coercion into the extended reals commutes with the maximum of two reals. -/
theorem coe_max (x y : ℝ) : ((max x y : ℝ) : EReal) = max (x : EReal) (y : EReal) :=
  EReal.coe_strictMono.monotone.map_max

/-- The supremum, in the extended reals, of finitely many reals indexed by a nonempty type is a real:
    the coercion of their largest. -/
theorem sup_coe {ι : Type} [Fintype ι] [Nonempty ι] (f : ι → ℝ) :
    (Finset.univ.sup fun i => ((f i : ℝ) : EReal))
      = ((Finset.univ.sup' Finset.univ_nonempty f : ℝ) : EReal) := by
  rw [← Finset.sup'_eq_sup Finset.univ_nonempty]
  exact (Finset.comp_sup'_eq_sup'_comp Finset.univ_nonempty (fun x : ℝ => (x : EReal))
    (fun x y => coe_max x y)).symm

variable {κ : Type} [Fintype κ]

/-- One block's update of the running state `(m, l, acc)`: the new maximum `m'`, the rescaling factor
    `a = exp (m - m')`, and the two rescaled sums with the block's own terms added. -/
def step (sb vb : κ → ℝ) (st : EReal × EReal × EReal) : EReal × EReal × EReal :=
  let m' := max st.1 (Finset.univ.sup fun j => ((sb j : ℝ) : EReal))
  let a := Ideal.exp (st.1 - m')
  (m',
   a * st.2.1 + ∑ j, Ideal.exp (((sb j : ℝ) : EReal) - m'),
   a * st.2.2 + ∑ j, Ideal.exp (((sb j : ℝ) : EReal) - m') * ((vb j : ℝ) : EReal))

/-- The running state after the first `k` of the `T` blocks, started at `(M0, 0, 0)`
    (past the last block the state no longer changes). -/
def run {T : ℕ} (M0 : ℝ) (s v : Fin T → κ → ℝ) : ℕ → EReal × EReal × EReal
  | 0 => ((M0 : EReal), 0, 0)
  | k + 1 => if h : k < T then step (s ⟨k, h⟩) (v ⟨k, h⟩) (run M0 s v k) else run M0 s v k

/-- The start of the recurrence. -/
@[simp] theorem run_zero {T : ℕ} (M0 : ℝ) (s v : Fin T → κ → ℝ) :
    run M0 s v 0 = ((M0 : EReal), 0, 0) := rfl

/-- One more block: the state after `k + 1` blocks is the update of the state after `k` by block `k`. -/
theorem run_succ {T : ℕ} (M0 : ℝ) (s v : Fin T → κ → ℝ) (k : ℕ) (h : k < T) :
    run M0 s v (k + 1) = step (s ⟨k, h⟩) (v ⟨k, h⟩) (run M0 s v k) := by
  simp only [run, dif_pos h]

/-- The four lines of one update, read off the components. -/
theorem step_eq (sb vb : κ → ℝ) (m l acc : EReal) :
    step sb vb (m, l, acc) =
      (max m (Finset.univ.sup fun j => ((sb j : ℝ) : EReal)),
       Ideal.exp (m - max m (Finset.univ.sup fun j => ((sb j : ℝ) : EReal))) * l
         + ∑ j, Ideal.exp (((sb j : ℝ) : EReal) - max m (Finset.univ.sup fun j => ((sb j : ℝ) : EReal))),
       Ideal.exp (m - max m (Finset.univ.sup fun j => ((sb j : ℝ) : EReal))) * acc
         + ∑ j, Ideal.exp (((sb j : ℝ) : EReal) - max m (Finset.univ.sup fun j => ((sb j : ℝ) : EReal)))
             * ((vb j : ℝ) : EReal)) := rfl

/-- On a state of three reals the update is again three reals, given by the same formulas over `ℝ`. -/
theorem step_coe [Nonempty κ] (sb vb : κ → ℝ) (m l acc : ℝ) :
    step sb vb ((m : EReal), (l : EReal), (acc : EReal)) =
      (((max m (Finset.univ.sup' Finset.univ_nonempty sb) : ℝ) : EReal),
       ((Real.exp (m - max m (Finset.univ.sup' Finset.univ_nonempty sb)) * l
          + ∑ j, Real.exp (sb j - max m (Finset.univ.sup' Finset.univ_nonempty sb)) : ℝ) : EReal),
       ((Real.exp (m - max m (Finset.univ.sup' Finset.univ_nonempty sb)) * acc
          + ∑ j, Real.exp (sb j - max m (Finset.univ.sup' Finset.univ_nonempty sb)) * vb j : ℝ) : EReal)) := by
  rw [step_eq, sup_coe, ← coe_max]
  simp only [← EReal.coe_sub, Ideal.exp_coe, ← EReal.coe_mul, ← coe_sum, ← EReal.coe_add]

/-! ### Sums and products of coerced reals are coerced reals -/

/-- The product of two coerced reals is the coercion of the product. -/
theorem real_mul_real (x c : ℝ) : ((x : ℝ) : EReal) * ((c : ℝ) : EReal) = ((x * c : ℝ) : EReal) :=
  (EReal.coe_mul x c).symm

/-- A finite sum of products of coerced reals is the coercion of the real sum of products. -/
theorem sum_coe_mul_coe {ι : Type} (S : Finset ι) (a b : ι → ℝ) :
    (∑ k ∈ S, ((a k : ℝ) : EReal) * ((b k : ℝ) : EReal)) = ((∑ k ∈ S, a k * b k : ℝ) : EReal) := by
  rw [coe_sum]
  exact Finset.sum_congr rfl fun k _ => real_mul_real (a k) (b k)

/-- A finite sum of products of coerced reals plus a coerced real is a coerced real (a dense
    projection with a bias entry). -/
theorem sum_coe_mul_coe_add {ι : Type} (S : Finset ι) (a b : ι → ℝ) (c : ℝ) :
    (∑ k ∈ S, ((a k : ℝ) : EReal) * ((b k : ℝ) : EReal)) + ((c : ℝ) : EReal)
      = ((∑ k ∈ S, a k * b k + c : ℝ) : EReal) := by
  rw [sum_coe_mul_coe, ← EReal.coe_add]

/-- A finite sum of products of coerced reals times a coerced real is a coerced real (a scaled
    inner product). -/
theorem sum_coe_mul_coe_mul {ι : Type} (S : Finset ι) (a b : ι → ℝ) (c : ℝ) :
    (∑ k ∈ S, ((a k : ℝ) : EReal) * ((b k : ℝ) : EReal)) * ((c : ℝ) : EReal)
      = (((∑ k ∈ S, a k * b k) * c : ℝ) : EReal) := by
  rw [sum_coe_mul_coe, ← EReal.coe_mul]

/-- The blocks before block `k + 1` are block `k` and the blocks before it. -/
theorem seen_succ {T : ℕ} (k : ℕ) (h : k < T) :
    (Finset.univ.filter fun t : Fin T => t.val < k + 1)
      = insert (⟨k, h⟩ : Fin T) (Finset.univ.filter fun t : Fin T => t.val < k) := by
  ext t
  simp only [Finset.mem_filter, Finset.mem_univ, true_and, Finset.mem_insert, Fin.ext_iff]
  omega

/-- Block `k` is not among the blocks before it. -/
theorem not_mem_seen {T : ℕ} (k : ℕ) (h : k < T) :
    (⟨k, h⟩ : Fin T) ∉ Finset.univ.filter fun t : Fin T => t.val < k := by
  simp only [Finset.mem_filter, Finset.mem_univ, true_and, lt_self_iff_false, not_false_eq_true]

/-- The invariant of the recurrence: after `k` blocks the state is three reals, the running maximum `m`
    and the two sums over the keys of the blocks seen so far, of `exp (s - m)` and of `exp (s - m) * v`.
    It is stated for any sequence of states that starts at `(M0, 0, 0)` and follows the update. -/
theorem state_real [Nonempty κ] {T : ℕ} (M0 : ℝ) (s v : Fin T → κ → ℝ)
    (st : ℕ → EReal × EReal × EReal) (h0 : st 0 = ((M0 : EReal), 0, 0))
    (hstep : ∀ k (h : k < T), st (k + 1) = step (s ⟨k, h⟩) (v ⟨k, h⟩) (st k)) (k : ℕ) (hk : k ≤ T) :
    ∃ m : ℝ, st k = ((m : EReal),
      ((∑ t ∈ Finset.univ.filter (fun t : Fin T => t.val < k), ∑ j, Real.exp (s t j - m) : ℝ) : EReal),
      ((∑ t ∈ Finset.univ.filter (fun t : Fin T => t.val < k), ∑ j, Real.exp (s t j - m) * v t j : ℝ)
        : EReal)) := by
  induction k with
  | zero =>
    refine ⟨M0, ?_⟩
    simp only [h0, Nat.not_lt_zero, Finset.filter_false, Finset.sum_empty, EReal.coe_zero]
  | succ k ih =>
    have h : k < T := hk
    obtain ⟨m, hm⟩ := ih (Nat.le_of_succ_le hk)
    refine ⟨max m (Finset.univ.sup' Finset.univ_nonempty (s ⟨k, h⟩)), ?_⟩
    rw [hstep k h, hm, step_coe, seen_succ k h, Finset.sum_insert (not_mem_seen k h),
      Finset.sum_insert (not_mem_seen k h)]
    generalize max m (Finset.univ.sup' Finset.univ_nonempty (s ⟨k, h⟩)) = m'
    have e : ∀ x : ℝ, Real.exp (m - m') * Real.exp (x - m) = Real.exp (x - m') := by
      intro x
      rw [← Real.exp_add]
      congr 1
      ring
    have e1 : Real.exp (m - m')
          * (∑ t ∈ Finset.univ.filter (fun t : Fin T => t.val < k), ∑ j, Real.exp (s t j - m))
        = ∑ t ∈ Finset.univ.filter (fun t : Fin T => t.val < k), ∑ j, Real.exp (s t j - m') := by
      rw [Finset.mul_sum]
      refine Finset.sum_congr rfl fun t _ => ?_
      rw [Finset.mul_sum]
      exact Finset.sum_congr rfl fun j _ => e _
    have e2 : Real.exp (m - m')
          * (∑ t ∈ Finset.univ.filter (fun t : Fin T => t.val < k), ∑ j, Real.exp (s t j - m) * v t j)
        = ∑ t ∈ Finset.univ.filter (fun t : Fin T => t.val < k), ∑ j, Real.exp (s t j - m') * v t j := by
      rw [Finset.mul_sum]
      refine Finset.sum_congr rfl fun t _ => ?_
      rw [Finset.mul_sum]
      refine Finset.sum_congr rfl fun j _ => ?_
      rw [← mul_assoc, e]
    rw [e1, e2, add_comm (∑ j, Real.exp (s ⟨k, h⟩ j - m')), add_comm (∑ j, Real.exp (s ⟨k, h⟩ j - m') * v ⟨k, h⟩ j)]

/-- The online-softmax law, for any sequence of states that starts at `(M0, 0, 0)` and follows the update
    through the `T` blocks: with at least one key, the final quotient `acc / l` is the sum over all keys of
    the softmax weight (shifted by the supremum of all scores) times the value. -/
theorem online_softmax_of_rec [Nonempty κ] {T : ℕ} (hT : 0 < T) (M0 : ℝ) (s v : Fin T → κ → ℝ)
    (st : ℕ → EReal × EReal × EReal) (h0 : st 0 = ((M0 : EReal), 0, 0))
    (hstep : ∀ k (h : k < T), st (k + 1) = step (s ⟨k, h⟩) (v ⟨k, h⟩) (st k)) :
    Ideal.div (st T).2.2 (st T).2.1 =
      ∑ t, ∑ j,
        Ideal.div
          (Ideal.exp (((s t j : ℝ) : EReal)
            - Finset.univ.sup fun t' => Finset.univ.sup fun j' => ((s t' j' : ℝ) : EReal)))
          (∑ t'', ∑ j'', Ideal.exp (((s t'' j'' : ℝ) : EReal)
            - Finset.univ.sup fun t' => Finset.univ.sup fun j' => ((s t' j' : ℝ) : EReal)))
        * ((v t j : ℝ) : EReal) := by
  haveI : Nonempty (Fin T) := ⟨⟨0, hT⟩⟩
  obtain ⟨m, hm⟩ := state_real M0 s v st h0 hstep T le_rfl
  have hall : (Finset.univ.filter fun t : Fin T => t.val < T) = Finset.univ :=
    Finset.filter_true_of_mem fun t _ => t.isLt
  rw [hall] at hm
  have hR : (Finset.univ.sup fun t' => Finset.univ.sup fun j' => ((s t' j' : ℝ) : EReal))
      = ((Finset.univ.sup' Finset.univ_nonempty fun t' => Finset.univ.sup' Finset.univ_nonempty (s t') : ℝ)
          : EReal) := by
    simp only [sup_coe]
  rw [hR, hm]
  generalize (Finset.univ.sup' Finset.univ_nonempty fun t' => Finset.univ.sup' Finset.univ_nonempty (s t')) = R
  have hLpos : ∀ c : ℝ, 0 < ∑ t, ∑ j, Real.exp (s t j - c) := fun c =>
    Finset.sum_pos (fun t _ => Finset.sum_pos (fun j _ => Real.exp_pos _) Finset.univ_nonempty)
      Finset.univ_nonempty
  simp only [← EReal.coe_sub, Ideal.exp_coe, ← coe_sum]
  rw [Ideal.div_coe (hLpos m).ne']
  simp only [Ideal.div_coe (hLpos R).ne', ← EReal.coe_mul, ← coe_sum]
  congr 1
  have e : ∀ x : ℝ, Real.exp (x - m) = Real.exp (R - m) * Real.exp (x - R) := by
    intro x
    rw [← Real.exp_add]
    congr 1
    ring
  have hL : (∑ t, ∑ j, Real.exp (s t j - m)) = Real.exp (R - m) * ∑ t, ∑ j, Real.exp (s t j - R) := by
    rw [Finset.mul_sum]
    refine Finset.sum_congr rfl fun t _ => ?_
    rw [Finset.mul_sum]
    exact Finset.sum_congr rfl fun j _ => e _
  have hA : (∑ t, ∑ j, Real.exp (s t j - m) * v t j)
      = Real.exp (R - m) * ∑ t, ∑ j, Real.exp (s t j - R) * v t j := by
    rw [Finset.mul_sum]
    refine Finset.sum_congr rfl fun t _ => ?_
    rw [Finset.mul_sum]
    refine Finset.sum_congr rfl fun j _ => ?_
    rw [e, mul_assoc]
  have hW : (∑ t, ∑ j, Real.exp (s t j - R) * (1 / ∑ t'', ∑ j'', Real.exp (s t'' j'' - R)) * v t j)
      = (∑ t, ∑ j, Real.exp (s t j - R) * v t j) * (1 / ∑ t'', ∑ j'', Real.exp (s t'' j'' - R)) := by
    rw [Finset.sum_mul]
    refine Finset.sum_congr rfl fun t _ => ?_
    rw [Finset.sum_mul]
    refine Finset.sum_congr rfl fun j _ => ?_
    ring
  rw [hL, hA, hW]
  have hc : Real.exp (R - m) ≠ 0 := (Real.exp_pos _).ne'
  have hl : (∑ t, ∑ j, Real.exp (s t j - R)) ≠ 0 := (hLpos R).ne'
  field_simp

/-- The online-softmax law for the recurrence `run`: after all `T` blocks, with at least one key,
    `acc / l` is the sum over all keys of the softmax weight (shifted by the supremum of all scores)
    times the value. -/
theorem online_softmax [Nonempty κ] {T : ℕ} (hT : 0 < T) (M0 : ℝ) (s v : Fin T → κ → ℝ) :
    Ideal.div (run M0 s v T).2.2 (run M0 s v T).2.1 =
      ∑ t, ∑ j,
        Ideal.div
          (Ideal.exp (((s t j : ℝ) : EReal)
            - Finset.univ.sup fun t' => Finset.univ.sup fun j' => ((s t' j' : ℝ) : EReal)))
          (∑ t'', ∑ j'', Ideal.exp (((s t'' j'' : ℝ) : EReal)
            - Finset.univ.sup fun t' => Finset.univ.sup fun j' => ((s t' j' : ℝ) : EReal)))
        * ((v t j : ℝ) : EReal) :=
  online_softmax_of_rec hT M0 s v (run M0 s v) rfl (fun k h => run_succ M0 s v k h)

/-! ### The key axis flattened

  The same law when the row's `T * B` keys are numbered consecutively, block `t` holding the positions
  `t * B + j` for `j < B`. -/

/-- Position `j` of block `t` in a row of `T * B` keys: the key number `t * B + j`. -/
def flat {T B : ℕ} (t : Fin T) (j : Fin B) : Fin (T * B) :=
  ⟨t.val * B + j.val, by
    calc t.val * B + j.val < t.val * B + B := Nat.add_lt_add_left j.isLt _
      _ = (t.val + 1) * B := (Nat.succ_mul _ _).symm
      _ ≤ T * B := Nat.mul_le_mul_right B t.isLt⟩

/-- The key number of position `j` of block `t`. -/
@[simp] theorem flat_val {T B : ℕ} (t : Fin T) (j : Fin B) : (flat t j).val = t.val * B + j.val := rfl

/-- Any spelling of the key number `t * B + j` with its bound is `flat t j`. -/
theorem flat_mk {T B : ℕ} (t : Fin T) (j : Fin B) (h : t.val * B + j.val < T * B) :
    (⟨t.val * B + j.val, h⟩ : Fin (T * B)) = flat t j := rfl

/-- Block and position, as a pair, is the standard numbering of `Fin T × Fin B` by `Fin (T * B)`. -/
theorem flat_eq {T B : ℕ} (x : Fin T × Fin B) : flat x.1 x.2 = finProdFinEquiv x := by
  apply Fin.ext
  simp only [flat_val, finProdFinEquiv_apply_val]
  rw [Nat.add_comm, Nat.mul_comm]

/-- A sum over the blocks and the positions in a block is the sum over all keys. -/
theorem sum_flat {M : Type} [AddCommMonoid M] {T B : ℕ} (f : Fin (T * B) → M) :
    (∑ t : Fin T, ∑ j : Fin B, f (flat t j)) = ∑ i, f i := by
  rw [← Fintype.sum_prod_type (f := fun x : Fin T × Fin B => f (flat x.1 x.2))]
  exact Fintype.sum_equiv finProdFinEquiv _ _ fun x => by rw [flat_eq]

/-- A supremum over the blocks of the suprema over the positions is the supremum over all keys. -/
theorem sup_flat {T B : ℕ} (f : Fin (T * B) → EReal) :
    (Finset.univ.sup fun t : Fin T => Finset.univ.sup fun j : Fin B => f (flat t j)) = Finset.univ.sup f := by
  apply le_antisymm
  · exact Finset.sup_le fun t _ => Finset.sup_le fun j _ => Finset.le_sup (Finset.mem_univ _)
  · refine Finset.sup_le fun i _ => ?_
    obtain ⟨x, rfl⟩ := finProdFinEquiv.surjective i
    rw [← flat_eq]
    exact le_trans (Finset.le_sup (f := fun j : Fin B => f (flat x.1 j)) (Finset.mem_univ x.2))
      (Finset.le_sup (f := fun t : Fin T => Finset.univ.sup fun j : Fin B => f (flat t j)) (Finset.mem_univ x.1))

/-- The online-softmax law with the key axis flattened, for any sequence of states that starts at
    `(M0, 0, 0)` and whose block `t` reads the keys `t * B + j`: the final quotient `acc / l` is the sum over
    all `T * B` keys of the softmax weight (shifted by the supremum of all scores) times the value. -/
theorem online_softmax_flat_of_rec {T B : ℕ} (hT : 0 < T) (hB : 0 < B) (M0 : ℝ) (s v : Fin (T * B) → ℝ)
    (st : ℕ → EReal × EReal × EReal) (h0 : st 0 = ((M0 : EReal), 0, 0))
    (hstep : ∀ k (h : k < T), st (k + 1)
      = step (fun j : Fin B => s (flat ⟨k, h⟩ j)) (fun j : Fin B => v (flat ⟨k, h⟩ j)) (st k)) :
    Ideal.div (st T).2.2 (st T).2.1 =
      ∑ i,
        Ideal.div
          (Ideal.exp (((s i : ℝ) : EReal) - Finset.univ.sup fun i' => ((s i' : ℝ) : EReal)))
          (∑ i'', Ideal.exp (((s i'' : ℝ) : EReal) - Finset.univ.sup fun i' => ((s i' : ℝ) : EReal)))
        * ((v i : ℝ) : EReal) := by
  haveI : Nonempty (Fin B) := ⟨⟨0, hB⟩⟩
  rw [online_softmax_of_rec hT M0 (fun t j => s (flat t j)) (fun t j => v (flat t j)) st h0 hstep]
  rw [sup_flat (fun i => ((s i : ℝ) : EReal)),
    sum_flat (fun i => Ideal.exp (((s i : ℝ) : EReal) - Finset.univ.sup fun i' => ((s i' : ℝ) : EReal)))]
  exact sum_flat (fun i =>
    Ideal.div
      (Ideal.exp (((s i : ℝ) : EReal) - Finset.univ.sup fun i' => ((s i' : ℝ) : EReal)))
      (∑ i'', Ideal.exp (((s i'' : ℝ) : EReal) - Finset.univ.sup fun i' => ((s i' : ℝ) : EReal)))
    * ((v i : ℝ) : EReal))

/-- The online-softmax law with the key axis flattened, for the recurrence `run` over the blocks
    `fun t j => s (flat t j)`. -/
theorem online_softmax_flat {T B : ℕ} (hT : 0 < T) (hB : 0 < B) (M0 : ℝ) (s v : Fin (T * B) → ℝ) :
    Ideal.div (run M0 (fun t j => s (flat t j)) (fun t j => v (flat t j)) T).2.2
        (run M0 (fun t j => s (flat t j)) (fun t j => v (flat t j)) T).2.1 =
      ∑ i,
        Ideal.div
          (Ideal.exp (((s i : ℝ) : EReal) - Finset.univ.sup fun i' => ((s i' : ℝ) : EReal)))
          (∑ i'', Ideal.exp (((s i'' : ℝ) : EReal) - Finset.univ.sup fun i' => ((s i' : ℝ) : EReal)))
        * ((v i : ℝ) : EReal) :=
  online_softmax_flat_of_rec hT hB M0 s v _ rfl
    (fun k h => run_succ M0 (fun t j => s (flat t j)) (fun t j => v (flat t j)) k h)

end Cert.OnlineSoftmax

end
-- ==== Proof.AttnBridge.lean ====
/-
  Single-head self-attention over real data, and the one-pass (online) softmax of one query row.

  When the three projected arrays hold real numbers, the projections, the scaled scores and therefore the
  whole attention of the shared specification are real-valued. A query row's 2048 keys are read in 4 blocks
  of 512; the one-pass softmax that rescales its running sums whenever the running maximum grows then ends
  with the quotient `acc / l` equal to the specification's weighted sum of the value rows. The kernel scales
  the query entries by 1/32 before the inner product, the specification scales the inner product: the same
  real number, since `∑ (q * c) * k = (∑ q * k) * c`.
-/
import proofs.«170116_j5909874999592_2_alg».proof.Proof.Spec
import proofs.«170116_j5909874999592_2_alg».proof.Proof.LibOnlineSoftmax

noncomputable section

namespace Cert.Attn

open Idealize.ShloMosaic Cert.OnlineSoftmax

/-- A dense projection of real data is real: the real sum of products plus the bias entry. -/
theorem proj_real (x : Fin 8 → Fin 2048 → Fin 1024 → ℝ) (W : Fin 1024 → Fin 1024 → ℝ) (b : Fin 1024 → ℝ) :
    proj (fun n s d => ((x n s d : ℝ) : EReal)) (fun d h => ((W d h : ℝ) : EReal)) (fun h => ((b h : ℝ) : EReal))
      = fun n s h => ((∑ d, x n s d * W d h + b h : ℝ) : EReal) := by
  funext n s h
  exact sum_coe_mul_coe_add Finset.univ (fun d => x n s d) (fun d => W d h) (b h)

/-- The scaled scores of real queries and keys are real: the real inner product times 1/32. -/
theorem score_real (q k : Fin 8 → Fin 2048 → Fin 1024 → ℝ) :
    score (fun n s d => ((q n s d : ℝ) : EReal)) (fun n s d => ((k n s d : ℝ) : EReal))
      = fun n i j => (((∑ h, q n i h * k n j h) * (1 / 32) : ℝ) : EReal) := by
  funext n i j
  exact sum_coe_mul_coe_mul Finset.univ (fun h => q n i h) (fun h => k n j h) (1 / 32)

/-- Scaling the query entries before the inner product is scaling the inner product. -/
theorem scaled_query_inner {ι : Type} (S : Finset ι) (a b : ι → ℝ) (c : ℝ) :
    (∑ h ∈ S, (a h * c) * b h) = (∑ h ∈ S, a h * b h) * c := by
  rw [Finset.sum_mul]
  exact Finset.sum_congr rfl fun h _ => mul_right_comm _ _ _

/-- The row law. For real queries, keys and values, a query row `i` of batch `n` and a head column `h`:
    a state sequence that starts at `(M0, 0, 0)` and is updated by the four blocks of 512 keys, block `kv`
    reading the keys `kv * 512 + j` with the score `∑ h', (q n i h' * (1/32)) * k n (kv * 512 + j) h'` and
    the value `v n (kv * 512 + j) h`, ends with `acc / l` equal to the specification's attention entry. -/
theorem row_law (q k v : Fin 8 → Fin 2048 → Fin 1024 → ℝ) (n : Fin 8) (i : Fin 2048) (h : Fin 1024) (M0 : ℝ)
    (st : ℕ → EReal × EReal × EReal) (h0 : st 0 = ((M0 : EReal), 0, 0))
    (hstep : ∀ (kv : ℕ) (hk : kv < 4), st (kv + 1) = OnlineSoftmax.step
        (fun j : Fin 512 =>
          ∑ h' : Fin 1024, (q n i h' * (1 / 32)) * k n ⟨kv * 512 + j.val, by omega⟩ h')
        (fun j : Fin 512 => v n ⟨kv * 512 + j.val, by omega⟩ h) (st kv)) :
    Ideal.div (st 4).2.2 (st 4).2.1
      = attend (score (fun n s d => ((q n s d : ℝ) : EReal)) (fun n s d => ((k n s d : ℝ) : EReal)))
          (fun n s d => ((v n s d : ℝ) : EReal)) n i h := by
  have key := online_softmax_flat_of_rec (T := 4) (B := 512) (by norm_num) (by norm_num) M0
    (fun J : Fin 2048 => (∑ h', q n i h' * k n J h') * (1 / 32)) (fun J : Fin 2048 => v n J h) st h0
    (fun kv hk => by
      rw [hstep kv hk]
      congr 1
      funext j
      exact scaled_query_inner Finset.univ (fun h' => q n i h') (fun h' => k n (flat ⟨kv, hk⟩ j) h') (1 / 32))
  rw [score_real]
  exact key

end Cert.Attn

end
-- ==== Proof.KernelIdeal.AttnRows.lean ====
/-
  The attention kernel's arithmetic on one query block, row by row.

  The kernel keeps, for the 1024 query rows of a block, the running maximum `m`, the running sum `l` and the
  running weighted sum `acc` of the one-pass softmax, and visits the four key/value blocks of 512 rows in
  turn. Here the four updates of one row `r` and one head column `h`, read through the payload functions
  at an index, are recognised as the four steps of the online-softmax recurrence on the real scores
  `∑ h', (q r h' * (1/32)) * k j h'` and the real values `v j h`. The last point's quotient `acc / l` is
  then the specification's attention entry, by the row law.
-/
import proofs.«170116_j5909874999592_2_alg».proof.Proof.KernelIdeal.AttnPayload
import proofs.«170116_j5909874999592_2_alg».proof.Proof.KernelIdeal.AttnSteps
import proofs.«170116_j5909874999592_2_alg».proof.Proof.AttnBridge

noncomputable section
namespace Cert.KernelIdeal.Hand

open Idealize.ShloMosaic Cert.KernelIdeal Cert.KernelIdeal.Gen ValueIdx Cert.OnlineSoftmax

/-- The three scratch arrays `(m, l, acc)` after the first `t` grid points of one query block. The first
    point writes the seeds and then does the first update, so the seeds are the state before any update;
    point `t` updates by its key block `kb t` and its value block `vb t`, against the scaled query block `qs`. -/
def scratch (qs : Vec Ideal S1024x1024 .bf16) (kb vb : ℕ → Vec Ideal S1x512x1024 .bf16) :
    ℕ → Vec Ideal S1024x1 .f32 × Vec Ideal S1024x1 .f32 × Vec Ideal S1024x1024 .f32
  | 0 => (k1_pay4 (F := Ideal), k1_pay5 (F := Ideal), k1_pay6 (F := Ideal))
  | t + 1 =>
    (k1_pay2 (F := Ideal) (k1_pay10 qs (kb t) (scratch qs kb vb t).1),
     k1_pay13 (F := Ideal) qs (kb t) (scratch qs kb vb t).1 (scratch qs kb vb t).1 (scratch qs kb vb t).2.1,
     k1_pay1 (F := Ideal) (k1_pay8 (vb t))
       (k1_pay14 qs (kb t) (scratch qs kb vb t).1 (scratch qs kb vb t).1 (scratch qs kb vb t).2.2)
       (k1_pay15 qs (kb t) (scratch qs kb vb t).1) (constant (F := Ideal) S1024x1024 .f32 0x00000000#32))

/-- The seeds: the state before any update. -/
theorem scratch_zero (qs : Vec Ideal S1024x1024 .bf16) (kb vb : ℕ → Vec Ideal S1x512x1024 .bf16) :
    scratch qs kb vb 0 = (k1_pay4 (F := Ideal), k1_pay5 (F := Ideal), k1_pay6 (F := Ideal)) := rfl

/-- One more grid point: the three payloads it stores, over the state before it. -/
theorem scratch_succ (qs : Vec Ideal S1024x1024 .bf16) (kb vb : ℕ → Vec Ideal S1x512x1024 .bf16) (t : ℕ) :
    scratch qs kb vb (t + 1) =
      (k1_pay2 (F := Ideal) (k1_pay10 qs (kb t) (scratch qs kb vb t).1),
       k1_pay13 (F := Ideal) qs (kb t) (scratch qs kb vb t).1 (scratch qs kb vb t).1 (scratch qs kb vb t).2.1,
       k1_pay1 (F := Ideal) (k1_pay8 (vb t))
         (k1_pay14 qs (kb t) (scratch qs kb vb t).1 (scratch qs kb vb t).1 (scratch qs kb vb t).2.2)
         (k1_pay15 qs (kb t) (scratch qs kb vb t).1) (constant (F := Ideal) S1024x1024 .f32 0x00000000#32)) := rfl

/-- The output block the last of the four points stores: its own new `acc` over its own new `l`. -/
def output (qb : Vec Ideal S1x1024x1024 .bf16) (kb vb : ℕ → Vec Ideal S1x512x1024 .bf16) :
    Vec Ideal S1x1024x1024 .f32 :=
  k1_pay3 (F := Ideal) (scratch (k1_pay7 qb) kb vb 4).2.2 (scratch (k1_pay7 qb) kb vb 4).2.1

/-- With real query and key entries the block score is real: the inner product of the query row scaled by
    1/32 with the key row. -/
theorem blockScore_real (qb : Vec Ideal S1x1024x1024 .bf16) (kb : Vec Ideal S1x512x1024 .bf16)
    (Q : Fin 1024 → Fin 1024 → ℝ) (K : Fin 512 → Fin 1024 → ℝ)
    (hq : ∀ r h', qb (ix3 (0 : Fin 1) r h') = ((Q r h' : ℝ) : EReal))
    (hk : ∀ j h', kb (ix3 (0 : Fin 1) j h') = ((K j h' : ℝ) : EReal)) (r : Fin 1024) (j : Fin 512) :
    blockScore (k1_pay7 qb) kb r j = ((∑ h' : Fin 1024, (Q r h' * (1 / 32)) * K j h' : ℝ) : EReal) := by
  unfold blockScore
  simp only [k1_pay7_apply, scale_word, hq, hk, ← EReal.coe_mul]
  rw [← coe_sum]

/-- One grid point is one step of the online-softmax recurrence, for each row and head column. -/
theorem scratch_step (qb : Vec Ideal S1x1024x1024 .bf16) (kb vb : ℕ → Vec Ideal S1x512x1024 .bf16)
    (Q : Fin 1024 → Fin 1024 → ℝ) (K Vv : Fin 512 → Fin 1024 → ℝ) (t : ℕ)
    (hq : ∀ r h', qb (ix3 (0 : Fin 1) r h') = ((Q r h' : ℝ) : EReal))
    (hk : ∀ j h', kb t (ix3 (0 : Fin 1) j h') = ((K j h' : ℝ) : EReal))
    (hv : ∀ j h, vb t (ix3 (0 : Fin 1) j h) = ((Vv j h : ℝ) : EReal)) (r h : Fin 1024) :
    (((scratch (k1_pay7 qb) kb vb (t + 1)).1 (ix2 r (0 : Fin 1)) : EReal),
     ((scratch (k1_pay7 qb) kb vb (t + 1)).2.1 (ix2 r (0 : Fin 1)) : EReal),
     ((scratch (k1_pay7 qb) kb vb (t + 1)).2.2 (ix2 r h) : EReal))
      = step (fun j : Fin 512 => ∑ h' : Fin 1024, (Q r h' * (1 / 32)) * K j h') (fun j : Fin 512 => Vv j h)
          (((scratch (k1_pay7 qb) kb vb t).1 (ix2 r (0 : Fin 1)) : EReal),
           ((scratch (k1_pay7 qb) kb vb t).2.1 (ix2 r (0 : Fin 1)) : EReal),
           ((scratch (k1_pay7 qb) kb vb t).2.2 (ix2 r h) : EReal)) := by
  rw [step_eq, scratch_succ]
  simp only [k1_pay2_eq, k1_pay10_apply, k1_pay13_apply, k1_pay1_apply, newMax,
    blockScore_real qb (kb t) Q K hq hk, hv]

/-- The attention kernel's output block, entry by entry: when the query block and the four key and value
    blocks hold the real queries, keys and values of batch `n` (query rows `qi * 1024 + r`, key rows
    `kv * 512 + j`), the entry at row `r`, column `h` is the specification's attention entry. -/
theorem attn_rows (q k v : Fin 8 → Fin 2048 → Fin 1024 → ℝ) (n : Fin 8) (qi : Fin 2)
    (qb : Vec Ideal S1x1024x1024 .bf16) (kb vb : ℕ → Vec Ideal S1x512x1024 .bf16)
    (hq : ∀ (r h' : Fin 1024), qb (ix3 (0 : Fin 1) r h')
      = ((q n ⟨qi.val * 1024 + r.val, by omega⟩ h' : ℝ) : EReal))
    (hk : ∀ (kv : ℕ) (hkv : kv < 4) (j : Fin 512) (h' : Fin 1024), kb kv (ix3 (0 : Fin 1) j h')
      = ((k n ⟨kv * 512 + j.val, by omega⟩ h' : ℝ) : EReal))
    (hv : ∀ (kv : ℕ) (hkv : kv < 4) (j : Fin 512) (h : Fin 1024), vb kv (ix3 (0 : Fin 1) j h)
      = ((v n ⟨kv * 512 + j.val, by omega⟩ h : ℝ) : EReal))
    (r h : Fin 1024) :
    output qb kb vb (ix3 (0 : Fin 1) r h)
      = Cert.Attn.attend
          (Cert.Attn.score (fun n s d => ((q n s d : ℝ) : EReal)) (fun n s d => ((k n s d : ℝ) : EReal)))
          (fun n s d => ((v n s d : ℝ) : EReal)) n ⟨qi.val * 1024 + r.val, by omega⟩ h := by
  obtain ⟨M0, hM0⟩ := reset_word_real
  unfold output
  rw [k1_pay3_apply]
  refine Cert.Attn.row_law q k v n ⟨qi.val * 1024 + r.val, by omega⟩ h M0
    (fun t => (((scratch (k1_pay7 qb) kb vb t).1 (ix2 r (0 : Fin 1)) : EReal),
      ((scratch (k1_pay7 qb) kb vb t).2.1 (ix2 r (0 : Fin 1)) : EReal),
      ((scratch (k1_pay7 qb) kb vb t).2.2 (ix2 r h) : EReal))) ?_ ?_
  · simp only [scratch_zero, k1_pay4_apply, hM0, k1_pay5_apply, k1_pay6_apply]
  · intro kv hkv
    exact scratch_step qb kb vb (fun r h' => q n ⟨qi.val * 1024 + r.val, by omega⟩ h')
      (fun j h' => k n ⟨kv * 512 + j.val, by omega⟩ h') (fun j h => v n ⟨kv * 512 + j.val, by omega⟩ h) kv
      hq (hk kv hkv) (hv kv hkv) r h

/-- The four blocks of a query block's pass, as a family indexed by the point number. -/
def blocks4 (b0 b1 b2 b3 : Vec Ideal S1x512x1024 .bf16) : ℕ → Vec Ideal S1x512x1024 .bf16
  | 0 => b0
  | 1 => b1
  | 2 => b2
  | _ => b3

/-- The composition of a first point, two later points and the last point is the output of the four-step
    scratch recurrence. -/
theorem outLast_eq_output (qb : Vec Ideal S1x1024x1024 .bf16)
    (kb0 kb1 kb2 kb3 vb0 vb1 vb2 vb3 : Vec Ideal S1x512x1024 .bf16) :
    outLast (F := Ideal) (stNext kb3 vb3 (stNext kb2 vb2 (stNext kb1 vb1 (stFirst qb kb0 vb0))))
      = output qb (blocks4 kb0 kb1 kb2 kb3) (blocks4 vb0 vb1 vb2 vb3) := rfl

/-- The attention kernel's output block over the point-to-point state: a first point, two later points and
    the last point over the real queries, keys and values of batch `n` (query rows `qi * 1024 + r`, key
    block `K` holding the key rows `K * 512 + j`) leave at row `r`, column `h` the specification's
    attention entry. -/
theorem attn_rows_steps (q k v : Fin 8 → Fin 2048 → Fin 1024 → ℝ) (n : Fin 8) (qi : Fin 2)
    (qb : Vec Ideal S1x1024x1024 .bf16) (kb0 kb1 kb2 kb3 vb0 vb1 vb2 vb3 : Vec Ideal S1x512x1024 .bf16)
    (hq : ∀ (r h' : Fin 1024), qb (ix3 (0 : Fin 1) r h')
      = ((q n ⟨qi.val * 1024 + r.val, by omega⟩ h' : ℝ) : EReal))
    (hk0 : ∀ (j : Fin 512) (h' : Fin 1024), kb0 (ix3 (0 : Fin 1) j h') = ((k n ⟨0 * 512 + j.val, by omega⟩ h' : ℝ) : EReal))
    (hk1 : ∀ (j : Fin 512) (h' : Fin 1024), kb1 (ix3 (0 : Fin 1) j h') = ((k n ⟨1 * 512 + j.val, by omega⟩ h' : ℝ) : EReal))
    (hk2 : ∀ (j : Fin 512) (h' : Fin 1024), kb2 (ix3 (0 : Fin 1) j h') = ((k n ⟨2 * 512 + j.val, by omega⟩ h' : ℝ) : EReal))
    (hk3 : ∀ (j : Fin 512) (h' : Fin 1024), kb3 (ix3 (0 : Fin 1) j h') = ((k n ⟨3 * 512 + j.val, by omega⟩ h' : ℝ) : EReal))
    (hv0 : ∀ (j : Fin 512) (h : Fin 1024), vb0 (ix3 (0 : Fin 1) j h) = ((v n ⟨0 * 512 + j.val, by omega⟩ h : ℝ) : EReal))
    (hv1 : ∀ (j : Fin 512) (h : Fin 1024), vb1 (ix3 (0 : Fin 1) j h) = ((v n ⟨1 * 512 + j.val, by omega⟩ h : ℝ) : EReal))
    (hv2 : ∀ (j : Fin 512) (h : Fin 1024), vb2 (ix3 (0 : Fin 1) j h) = ((v n ⟨2 * 512 + j.val, by omega⟩ h : ℝ) : EReal))
    (hv3 : ∀ (j : Fin 512) (h : Fin 1024), vb3 (ix3 (0 : Fin 1) j h) = ((v n ⟨3 * 512 + j.val, by omega⟩ h : ℝ) : EReal))
    (r h : Fin 1024) :
    outLast (F := Ideal) (stNext kb3 vb3 (stNext kb2 vb2 (stNext kb1 vb1 (stFirst qb kb0 vb0))))
        (ix3 (0 : Fin 1) r h)
      = Cert.Attn.attend
          (Cert.Attn.score (fun n s d => ((q n s d : ℝ) : EReal)) (fun n s d => ((k n s d : ℝ) : EReal)))
          (fun n s d => ((v n s d : ℝ) : EReal)) n ⟨qi.val * 1024 + r.val, by omega⟩ h := by
  rw [outLast_eq_output]
  refine attn_rows q k v n qi qb _ _ hq ?_ ?_ r h
  · intro kv hkv j h'
    match kv, hkv with
    | 0, _ => exact hk0 j h'
    | 1, _ => exact hk1 j h'
    | 2, _ => exact hk2 j h'
    | 3, _ => exact hk3 j h'
  · intro kv hkv j h'
    match kv, hkv with
    | 0, _ => exact hv0 j h'
    | 1, _ => exact hv1 j h'
    | 2, _ => exact hv2 j h'
    | 3, _ => exact hv3 j h'

end Cert.KernelIdeal.Hand

end
-- ==== Proof.KernelIdeal.AttnValue.lean ====
/-
  The attention region's result array. Only a LAST point (key block 3) writes its output block back, and the blocks of the
  LAST points tile the array: row `i` of batch `n` lies in the block of the point (n, i / 1024, 3). A LAST point's block is
  read off its own scratch state, which is the state built at the query block's FIRST point and stepped three times; when
  the projected queries, keys and values are real numbers, each entry of that block is the softmax-weighted sum of the value
  rows — the specification — by the online-softmax law applied row by row.
-/
import proofs.«170116_j5909874999592_2_alg».proof.Proof.KernelIdeal.AttnState
import proofs.«170116_j5909874999592_2_alg».proof.Proof.KernelIdeal.AttnRows
import proofs.«170116_j5909874999592_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.ValueIdx

/-! ## The index maps, decided over the grid -/

theorem idx1_0 : ∀ t : Fin cfg1.N, win1_0.index t (0 : Fin 3) = t.val / 8 ∧ win1_0.index t (1 : Fin 3) = t.val / 4 % 2 ∧ win1_0.index t (2 : Fin 3) = 0 :=
  (by decide +kernel : ∀ t : Fin grid1.N, _)
theorem idx1_1 : ∀ t : Fin cfg1.N, win1_1.index t (0 : Fin 3) = t.val / 8 ∧ win1_1.index t (1 : Fin 3) = t.val % 4 ∧ win1_1.index t (2 : Fin 3) = 0 :=
  (by decide +kernel : ∀ t : Fin grid1.N, _)
theorem idx1_2 : ∀ t : Fin cfg1.N, win1_2.index t (0 : Fin 3) = t.val / 8 ∧ win1_2.index t (1 : Fin 3) = t.val % 4 ∧ win1_2.index t (2 : Fin 3) = 0 :=
  (by decide +kernel : ∀ t : Fin grid1.N, _)
theorem idx1_3 : ∀ t : Fin cfg1.N, win1_3.index t (0 : Fin 3) = t.val / 8 ∧ win1_3.index t (1 : Fin 3) = t.val / 4 % 2 ∧ win1_3.index t (2 : Fin 3) = 0 :=
  (by decide +kernel : ∀ t : Fin grid1.N, _)

/-! ## The input blocks, entry by entry -/

section Blocks

variable {F : FTy → Type} [FloatOps F]
variable (V : (c : Dev nD) → (b : Ref sig .tc) → Buf (Elt F) ((c : Thread nD τ).loc b))

/-- An entry of the query block at point `t` is the entry of the query array in batch t / 8, query block (t / 4) mod 2. -/
theorem iblk1_0_apply (c : Dev nD) (t : Fin cfg1.N) (y : S1x1024x1024.Idx) (k : S8x2048x1024.Idx)
    (hk0 : (k 0).val = t.val / 8) (hk1 : (k 1).val = t.val / 4 % 2 * 1024 + (y 1).val) (hk2 : (k 2).val = (y 2).val) :
    (iblk1 V c 0 t : Vec F S1x1024x1024 .bf16) y = (V c main_v6_0 : S8x2048x1024.Idx → Elt F .bf16) k := by
  obtain ⟨e0, e1, e2⟩ := idx1_0 t
  unfold iblk1
  rw [View.read_apply]
  show V c main_v6_0 _ = V c main_v6_0 _
  refine congrArg _ ?_
  funext a
  apply Fin.ext
  match a with
  | ⟨0, _⟩ => show win1_0.index t 0 * 1 + 1 * (y 0).val = (k 0).val; have : (y 0).val < 1 := (y 0).isLt; rw [e0, hk0]; omega
  | ⟨1, _⟩ => show win1_0.index t 1 * 1024 + 1 * (y 1).val = (k 1).val; rw [e1, hk1]; omega
  | ⟨2, _⟩ => show win1_0.index t 2 * 1024 + 1 * (y 2).val = (k 2).val; rw [e2, hk2]; omega

/-- An entry of the key block at point `t` is the entry of the key array in batch t / 8, key block t mod 4. -/
theorem iblk1_1_apply (c : Dev nD) (t : Fin cfg1.N) (y : S1x512x1024.Idx) (k : S8x2048x1024.Idx)
    (hk0 : (k 0).val = t.val / 8) (hk1 : (k 1).val = t.val % 4 * 512 + (y 1).val) (hk2 : (k 2).val = (y 2).val) :
    (iblk1 V c 1 t : Vec F S1x512x1024 .bf16) y = (V c main_v6_1 : S8x2048x1024.Idx → Elt F .bf16) k := by
  obtain ⟨e0, e1, e2⟩ := idx1_1 t
  unfold iblk1
  rw [View.read_apply]
  show V c main_v6_1 _ = V c main_v6_1 _
  refine congrArg _ ?_
  funext a
  apply Fin.ext
  match a with
  | ⟨0, _⟩ => show win1_1.index t 0 * 1 + 1 * (y 0).val = (k 0).val; have : (y 0).val < 1 := (y 0).isLt; rw [e0, hk0]; omega
  | ⟨1, _⟩ => show win1_1.index t 1 * 512 + 1 * (y 1).val = (k 1).val; rw [e1, hk1]; omega
  | ⟨2, _⟩ => show win1_1.index t 2 * 1024 + 1 * (y 2).val = (k 2).val; rw [e2, hk2]; omega

/-- An entry of the value block at point `t` is the entry of the value array in batch t / 8, key block t mod 4. -/
theorem iblk1_2_apply (c : Dev nD) (t : Fin cfg1.N) (y : S1x512x1024.Idx) (k : S8x2048x1024.Idx)
    (hk0 : (k 0).val = t.val / 8) (hk1 : (k 1).val = t.val % 4 * 512 + (y 1).val) (hk2 : (k 2).val = (y 2).val) :
    (iblk1 V c 2 t : Vec F S1x512x1024 .bf16) y = (V c main_v6_2 : S8x2048x1024.Idx → Elt F .bf16) k := by
  obtain ⟨e0, e1, e2⟩ := idx1_2 t
  unfold iblk1
  rw [View.read_apply]
  show V c main_v6_2 _ = V c main_v6_2 _
  refine congrArg _ ?_
  funext a
  apply Fin.ext
  match a with
  | ⟨0, _⟩ => show win1_2.index t 0 * 1 + 1 * (y 0).val = (k 0).val; have : (y 0).val < 1 := (y 0).isLt; rw [e0, hk0]; omega
  | ⟨1, _⟩ => show win1_2.index t 1 * 512 + 1 * (y 1).val = (k 1).val; rw [e1, hk1]; omega
  | ⟨2, _⟩ => show win1_2.index t 2 * 1024 + 1 * (y 2).val = (k 2).val; rw [e2, hk2]; omega

/-- An index of the result array is in point `t`'s output block iff each coordinate is in the block's range on its axis. -/
theorem mem_blk1_3 (t : Fin cfg1.N) (i : S8x2048x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v7).slice (win1_3.rect t)).set ↔ _
  rw [View.set_slice_whole, Rect.mem_set_unit]
  exact Iff.rfl

/-- A LAST point's output block is read off the state built at its query block's FIRST point and stepped three times. -/
theorem after_last (c : Dev nD) (t : Fin cfg1.N) (h1 : t.val % 4 = 3) :
    (dat1 V c).after 3 t = outLast
      (stNext (iblk1 V c 1 t) (iblk1 V c 2 t)
      (stNext (iblk1 V c 1 ⟨t.val - 1, (show t.val - 1 < cfg1.N from by have := t.isLt; omega)⟩) (iblk1 V c 2 ⟨t.val - 1, (show t.val - 1 < cfg1.N from by have := t.isLt; omega)⟩)
      (stNext (iblk1 V c 1 ⟨t.val - 1 - 1, (show t.val - 1 - 1 < cfg1.N from by have := t.isLt; omega)⟩) (iblk1 V c 2 ⟨t.val - 1 - 1, (show t.val - 1 - 1 < cfg1.N from by have := t.isLt; omega)⟩)
      (stFirst (iblk1 V c 0 ⟨t.val - 1 - 1 - 1, (show t.val - 1 - 1 - 1 < cfg1.N from by have := t.isLt; omega)⟩) (iblk1 V c 1 ⟨t.val - 1 - 1 - 1, (show t.val - 1 - 1 - 1 < cfg1.N from by have := t.isLt; omega)⟩) (iblk1 V c 2 ⟨t.val - 1 - 1 - 1, (show t.val - 1 - 1 - 1 < cfg1.N from by have := t.isLt; omega)⟩))))) := by
  have e3 := scrAt_next V c t (by omega)
  have e2 : scrAt V c (t.val - 1) (show t.val - 1 < cfg1.N from by have := t.isLt; omega) = _ := scrAt_next V c ⟨t.val - 1, (show t.val - 1 < cfg1.N from by have := t.isLt; omega)⟩ (by show ¬(t.val - 1) % 4 = 0; omega)
  have e1 : scrAt V c (t.val - 1 - 1) (show t.val - 1 - 1 < cfg1.N from by have := t.isLt; omega) = _ := scrAt_next V c ⟨t.val - 1 - 1, (show t.val - 1 - 1 < cfg1.N from by have := t.isLt; omega)⟩ (by show ¬(t.val - 1 - 1) % 4 = 0; omega)
  have e0 : scrAt V c (t.val - 1 - 1 - 1) (show t.val - 1 - 1 - 1 < cfg1.N from by have := t.isLt; omega) = _ := scrAt_first V c ⟨t.val - 1 - 1 - 1, (show t.val - 1 - 1 - 1 < cfg1.N from by have := t.isLt; omega)⟩ (by show (t.val - 1 - 1 - 1) % 4 = 0; omega)
  rw [after1_3, out_last V c t h1, e3, e2, e1, e0]

end Blocks

/-! ## The result array at the ideal instance -/

/-- Where a LAST point's output block sits in the result array: batch t / 8, rows of query block (t / 4) mod 2. -/
theorem blk1_3_emb (t : Fin cfg1.N) (r h : Fin 1024) (n : Fin 8) (qi : Fin 2) (hnv : n.val = t.val / 8) (hqv : qi.val = t.val / 4 % 2) :
    ((cfg1.win 3).blk t).view.emb (ix3 (0 : Fin 1) r h : S1x1024x1024.Idx)
      = (ix3 n (⟨qi.val * 1024 + r.val, by have := qi.isLt; have := r.isLt; omega⟩ : Fin 2048) h : S8x2048x1024.Idx) := by
  obtain ⟨e0, e1, e2⟩ := idx1_3 t
  funext a
  apply Fin.ext
  match a with
  | ⟨0, _⟩ => show win1_3.index t 0 * 1 + 1 * 0 = n.val; rw [e0, hnv]; omega
  | ⟨1, _⟩ => show win1_3.index t 1 * 1024 + 1 * r.val = qi.val * 1024 + r.val; rw [e1, hqv]; omega
  | ⟨2, _⟩ => show win1_3.index t 2 * 1024 + 1 * h.val = h.val; rw [e2]; omega

section Ideal

variable (V : (c : Dev nD) → (b : Ref sig .tc) → Buf (Elt Ideal) ((c : Thread nD τ).loc b))
variable (q k v : Fin 8 → Fin 2048 → Fin 1024 → ℝ)

/-- The specification's result as an array: attention of the real queries, keys and values, index by index. -/
def Gattn : S8x2048x1024.Idx → EReal := fun i =>
  Cert.Attn.attend (Cert.Attn.score (fun n s d => ((q n s d : ℝ) : EReal)) (fun n s d => ((k n s d : ℝ) : EReal))) (fun n s d => ((v n s d : ℝ) : EReal)) (i 0) (i 1) (i 2)

/-- The specification's array at an index given by its three coordinates. -/
theorem Gattn_ix3 (n : Fin 8) (s : Fin 2048) (h : Fin 1024) :
    Gattn q k v (ix3 n s h : S8x2048x1024.Idx) = Cert.Attn.attend (Cert.Attn.score (fun n s d => ((q n s d : ℝ) : EReal)) (fun n s d => ((k n s d : ℝ) : EReal))) (fun n s d => ((v n s d : ℝ) : EReal)) n s h := rfl

set_option maxHeartbeats 1000000 in
/-- One entry of a LAST point's output block: the specification's entry for that row. The block's state is the one built
    at the query block's FIRST point from the query block and key block 0, and stepped through key blocks 1, 2 and 3. -/
theorem last_entry (c : Dev nD)
    (hq : ∀ n s h, (V c main_v6_0 : S8x2048x1024.Idx → EReal) (ix3 n s h) = ((q n s h : ℝ) : EReal))
    (hk : ∀ n s h, (V c main_v6_1 : S8x2048x1024.Idx → EReal) (ix3 n s h) = ((k n s h : ℝ) : EReal))
    (hv : ∀ n s h, (V c main_v6_2 : S8x2048x1024.Idx → EReal) (ix3 n s h) = ((v n s h : ℝ) : EReal))
    (t : Fin cfg1.N) (h1 : t.val % 4 = 3) (r h : Fin 1024) (n : Fin 8) (qi : Fin 2) (hnv : n.val = t.val / 8) (hqv : qi.val = t.val / 4 % 2) :
    ((dat1 V c).after 3 t : Vec Ideal S1x1024x1024 .f32) (ix3 (0 : Fin 1) r h)
      = Cert.Attn.attend (Cert.Attn.score (fun n s d => ((q n s d : ℝ) : EReal)) (fun n s d => ((k n s d : ℝ) : EReal))) (fun n s d => ((v n s d : ℝ) : EReal)) n (⟨qi.val * 1024 + r.val, by have := qi.isLt; have := r.isLt; omega⟩ : Fin 2048) h := by
  have ht : t.val < 64 := lt_of_lt_of_eq t.isLt (show cfg1.N = 64 from N_1)
  have hQ : ∀ (r h' : Fin 1024), (iblk1 V c 0 ⟨t.val - 1 - 1 - 1, (show t.val - 1 - 1 - 1 < cfg1.N from by have := t.isLt; omega)⟩ : Vec Ideal S1x1024x1024 .bf16) (ix3 (0 : Fin 1) r h')
      = ((q n (⟨qi.val * 1024 + r.val, by have := qi.isLt; have := r.isLt; omega⟩ : Fin 2048) h' : ℝ) : EReal) := fun r h' =>
    (iblk1_0_apply V c ⟨t.val - 1 - 1 - 1, (show t.val - 1 - 1 - 1 < cfg1.N from by have := t.isLt; omega)⟩ (ix3 (0 : Fin 1) r h') (ix3 n (⟨qi.val * 1024 + r.val, by have := qi.isLt; have := r.isLt; omega⟩ : Fin 2048) h')
      (by show n.val = (t.val - 1 - 1 - 1) / 8; omega) (by show qi.val * 1024 + r.val = (t.val - 1 - 1 - 1) / 4 % 2 * 1024 + r.val; omega) rfl).trans (hq _ _ _)
  have hK0 : ∀ (j : Fin 512) (h' : Fin 1024), (iblk1 V c 1 ⟨t.val - 1 - 1 - 1, (show t.val - 1 - 1 - 1 < cfg1.N from by have := t.isLt; omega)⟩ : Vec Ideal S1x512x1024 .bf16) (ix3 (0 : Fin 1) j h')
      = ((k n (⟨0 * 512 + j.val, by have := j.isLt; omega⟩ : Fin 2048) h' : ℝ) : EReal) := fun j h' =>
    (iblk1_1_apply V c ⟨t.val - 1 - 1 - 1, (show t.val - 1 - 1 - 1 < cfg1.N from by have := t.isLt; omega)⟩ (ix3 (0 : Fin 1) j h') (ix3 n (⟨0 * 512 + j.val, by have := j.isLt; omega⟩ : Fin 2048) h')
      (by show n.val = (t.val - 1 - 1 - 1) / 8; omega) (by show 0 * 512 + j.val = (t.val - 1 - 1 - 1) % 4 * 512 + j.val; omega) rfl).trans (hk _ _ _)
  have hV0 : ∀ (j : Fin 512) (h' : Fin 1024), (iblk1 V c 2 ⟨t.val - 1 - 1 - 1, (show t.val - 1 - 1 - 1 < cfg1.N from by have := t.isLt; omega)⟩ : Vec Ideal S1x512x1024 .bf16) (ix3 (0 : Fin 1) j h')
      = ((v n (⟨0 * 512 + j.val, by have := j.isLt; omega⟩ : Fin 2048) h' : ℝ) : EReal) := fun j h' =>
    (iblk1_2_apply V c ⟨t.val - 1 - 1 - 1, (show t.val - 1 - 1 - 1 < cfg1.N from by have := t.isLt; omega)⟩ (ix3 (0 : Fin 1) j h') (ix3 n (⟨0 * 512 + j.val, by have := j.isLt; omega⟩ : Fin 2048) h')
      (by show n.val = (t.val - 1 - 1 - 1) / 8; omega) (by show 0 * 512 + j.val = (t.val - 1 - 1 - 1) % 4 * 512 + j.val; omega) rfl).trans (hv _ _ _)
  have hK1 : ∀ (j : Fin 512) (h' : Fin 1024), (iblk1 V c 1 ⟨t.val - 1 - 1, (show t.val - 1 - 1 < cfg1.N from by have := t.isLt; omega)⟩ : Vec Ideal S1x512x1024 .bf16) (ix3 (0 : Fin 1) j h')
      = ((k n (⟨1 * 512 + j.val, by have := j.isLt; omega⟩ : Fin 2048) h' : ℝ) : EReal) := fun j h' =>
    (iblk1_1_apply V c ⟨t.val - 1 - 1, (show t.val - 1 - 1 < cfg1.N from by have := t.isLt; omega)⟩ (ix3 (0 : Fin 1) j h') (ix3 n (⟨1 * 512 + j.val, by have := j.isLt; omega⟩ : Fin 2048) h')
      (by show n.val = (t.val - 1 - 1) / 8; omega) (by show 1 * 512 + j.val = (t.val - 1 - 1) % 4 * 512 + j.val; omega) rfl).trans (hk _ _ _)
  have hV1 : ∀ (j : Fin 512) (h' : Fin 1024), (iblk1 V c 2 ⟨t.val - 1 - 1, (show t.val - 1 - 1 < cfg1.N from by have := t.isLt; omega)⟩ : Vec Ideal S1x512x1024 .bf16) (ix3 (0 : Fin 1) j h')
      = ((v n (⟨1 * 512 + j.val, by have := j.isLt; omega⟩ : Fin 2048) h' : ℝ) : EReal) := fun j h' =>
    (iblk1_2_apply V c ⟨t.val - 1 - 1, (show t.val - 1 - 1 < cfg1.N from by have := t.isLt; omega)⟩ (ix3 (0 : Fin 1) j h') (ix3 n (⟨1 * 512 + j.val, by have := j.isLt; omega⟩ : Fin 2048) h')
      (by show n.val = (t.val - 1 - 1) / 8; omega) (by show 1 * 512 + j.val = (t.val - 1 - 1) % 4 * 512 + j.val; omega) rfl).trans (hv _ _ _)
  have hK2 : ∀ (j : Fin 512) (h' : Fin 1024), (iblk1 V c 1 ⟨t.val - 1, (show t.val - 1 < cfg1.N from by have := t.isLt; omega)⟩ : Vec Ideal S1x512x1024 .bf16) (ix3 (0 : Fin 1) j h')
      = ((k n (⟨2 * 512 + j.val, by have := j.isLt; omega⟩ : Fin 2048) h' : ℝ) : EReal) := fun j h' =>
    (iblk1_1_apply V c ⟨t.val - 1, (show t.val - 1 < cfg1.N from by have := t.isLt; omega)⟩ (ix3 (0 : Fin 1) j h') (ix3 n (⟨2 * 512 + j.val, by have := j.isLt; omega⟩ : Fin 2048) h')
      (by show n.val = (t.val - 1) / 8; omega) (by show 2 * 512 + j.val = (t.val - 1) % 4 * 512 + j.val; omega) rfl).trans (hk _ _ _)
  have hV2 : ∀ (j : Fin 512) (h' : Fin 1024), (iblk1 V c 2 ⟨t.val - 1, (show t.val - 1 < cfg1.N from by have := t.isLt; omega)⟩ : Vec Ideal S1x512x1024 .bf16) (ix3 (0 : Fin 1) j h')
      = ((v n (⟨2 * 512 + j.val, by have := j.isLt; omega⟩ : Fin 2048) h' : ℝ) : EReal) := fun j h' =>
    (iblk1_2_apply V c ⟨t.val - 1, (show t.val - 1 < cfg1.N from by have := t.isLt; omega)⟩ (ix3 (0 : Fin 1) j h') (ix3 n (⟨2 * 512 + j.val, by have := j.isLt; omega⟩ : Fin 2048) h')
      (by show n.val = (t.val - 1) / 8; omega) (by show 2 * 512 + j.val = (t.val - 1) % 4 * 512 + j.val; omega) rfl).trans (hv _ _ _)
  have hK3 : ∀ (j : Fin 512) (h' : Fin 1024), (iblk1 V c 1 ⟨t.val, (show t.val < cfg1.N from by have := t.isLt; omega)⟩ : Vec Ideal S1x512x1024 .bf16) (ix3 (0 : Fin 1) j h')
      = ((k n (⟨3 * 512 + j.val, by have := j.isLt; omega⟩ : Fin 2048) h' : ℝ) : EReal) := fun j h' =>
    (iblk1_1_apply V c ⟨t.val, (show t.val < cfg1.N from by have := t.isLt; omega)⟩ (ix3 (0 : Fin 1) j h') (ix3 n (⟨3 * 512 + j.val, by have := j.isLt; omega⟩ : Fin 2048) h')
      (by show n.val = (t.val) / 8; omega) (by show 3 * 512 + j.val = (t.val) % 4 * 512 + j.val; omega) rfl).trans (hk _ _ _)
  have hV3 : ∀ (j : Fin 512) (h' : Fin 1024), (iblk1 V c 2 ⟨t.val, (show t.val < cfg1.N from by have := t.isLt; omega)⟩ : Vec Ideal S1x512x1024 .bf16) (ix3 (0 : Fin 1) j h')
      = ((v n (⟨3 * 512 + j.val, by have := j.isLt; omega⟩ : Fin 2048) h' : ℝ) : EReal) := fun j h' =>
    (iblk1_2_apply V c ⟨t.val, (show t.val < cfg1.N from by have := t.isLt; omega)⟩ (ix3 (0 : Fin 1) j h') (ix3 n (⟨3 * 512 + j.val, by have := j.isLt; omega⟩ : Fin 2048) h')
      (by show n.val = (t.val) / 8; omega) (by show 3 * 512 + j.val = (t.val) % 4 * 512 + j.val; omega) rfl).trans (hv _ _ _)
  rw [after_last V c t h1]
  exact attn_rows_steps q k v n qi (iblk1 V c 0 ⟨t.val - 1 - 1 - 1, (show t.val - 1 - 1 - 1 < cfg1.N from by have := t.isLt; omega)⟩) (iblk1 V c 1 ⟨t.val - 1 - 1 - 1, (show t.val - 1 - 1 - 1 < cfg1.N from by have := t.isLt; omega)⟩) (iblk1 V c 1 ⟨t.val - 1 - 1, (show t.val - 1 - 1 < cfg1.N from by have := t.isLt; omega)⟩) (iblk1 V c 1 ⟨t.val - 1, (show t.val - 1 < cfg1.N from by have := t.isLt; omega)⟩) (iblk1 V c 1 t) (iblk1 V c 2 ⟨t.val - 1 - 1 - 1, (show t.val - 1 - 1 - 1 < cfg1.N from by have := t.isLt; omega)⟩) (iblk1 V c 2 ⟨t.val - 1 - 1, (show t.val - 1 - 1 < cfg1.N from by have := t.isLt; omega)⟩) (iblk1 V c 2 ⟨t.val - 1, (show t.val - 1 < cfg1.N from by have := t.isLt; omega)⟩) (iblk1 V c 2 t)
    hQ hK0 hK1 hK2 hK3 hV0 hV1 hV2 hV3 r h

set_option maxHeartbeats 1000000 in
/-- What a LAST point writes back is its block of the specification's array. -/
theorem flushed1_3_eq (c : Dev nD)
    (hq : ∀ n s h, (V c main_v6_0 : S8x2048x1024.Idx → EReal) (ix3 n s h) = ((q n s h : ℝ) : EReal))
    (hk : ∀ n s h, (V c main_v6_1 : S8x2048x1024.Idx → EReal) (ix3 n s h) = ((k n s h : ℝ) : EReal))
    (hv : ∀ n s h, (V c main_v6_2 : S8x2048x1024.Idx → EReal) (ix3 n s h) = ((v n s h : ℝ) : EReal))
    (t : Fin cfg1.N) (hf : (cfg1.win 3).flush t = true) :
    (dat1 V c).flushed 3 t = ((cfg1.win 3).blk t).view.read (Elt Ideal) (Gattn q k v) := by
  have h1 : t.val % 4 = 3 := (flush1_3 t).mp hf
  have ht : t.val < 64 := lt_of_lt_of_eq t.isLt (show cfg1.N = 64 from N_1)
  show (cfg1.win 3).cut (grid1.coords t) ((dat1 V c).after 3 t) = _
  funext y
  obtain ⟨r, h, rfl⟩ : ∃ (r : Fin 1024) (h : Fin 1024), y = (ix3 (0 : Fin 1) r h : S1x1024x1024.Idx) :=
    ⟨y 1, y 2, (eq_ix3 y).trans (congrArg (fun z : Fin 1 => (ix3 z (y 1) (y 2) : S1x1024x1024.Idx)) (Subsingleton.elim _ _))⟩
  refine Eq.trans (b := ((dat1 V c).after 3 t : Vec Ideal S1x1024x1024 .f32) (ix3 (0 : Fin 1) r h)) rfl ?_
  obtain ⟨n, hnv⟩ : ∃ n : Fin 8, n.val = t.val / 8 := ⟨⟨t.val / 8, by omega⟩, rfl⟩
  obtain ⟨qi, hqv⟩ : ∃ qi : Fin 2, qi.val = t.val / 4 % 2 := ⟨⟨t.val / 4 % 2, by omega⟩, rfl⟩
  have key := last_entry V q k v c hq hk hv t h1 r h n qi hnv hqv
  rw [View.read_apply, blk1_3_emb t r h n qi hnv hqv, Gattn_ix3]
  rw [key]
  exact (eq_of_heq (cast_heq _ _)).symm

/-- The result array after the region: the specification's array, when the projected queries, keys and values are real. -/
theorem final1_3 (c : Dev nD)
    (hq : ∀ n s h, (V c main_v6_0 : S8x2048x1024.Idx → EReal) (ix3 n s h) = ((q n s h : ℝ) : EReal))
    (hk : ∀ n s h, (V c main_v6_1 : S8x2048x1024.Idx → EReal) (ix3 n s h) = ((k n s h : ℝ) : EReal))
    (hv : ∀ n s h, (V c main_v6_2 : S8x2048x1024.Idx → EReal) (ix3 n s h) = ((v n s h : ℝ) : EReal)) :
    (dat1 V c).arrAt 3 cfg1.N = Gattn q k v :=
  (dat1 V c).arrAt_eq_of_cover 3 (Gattn q k v) (fun t hf => flushed1_3_eq V q k v c hq hk hv t hf) fun i => by
    have hi0 : (i 0).val < 8 := (i 0).isLt
    have hi1 : (i 1).val < 2048 := (i 1).isLt
    have hi2 : (i 2).val < 1024 := (i 2).isLt
    refine ⟨(⟨(i 0).val * 8 + (i 1).val / 1024 * 4 + 3, by show _ < 64; omega⟩ : Fin cfg1.N), (flush1_3 _).mpr (by show ((i 0).val * 8 + (i 1).val / 1024 * 4 + 3) % 4 = 3; omega), ?_⟩
    rw [mem_blk1_3]
    obtain ⟨e0, e1, e2⟩ := idx1_3 (⟨(i 0).val * 8 + (i 1).val / 1024 * 4 + 3, by show _ < 64; omega⟩ : Fin cfg1.N)
    intro a
    match a with
    | ⟨0, _⟩ => show win1_3.index _ 0 * 1 ≤ (i 0).val ∧ (i 0).val < win1_3.index _ 0 * 1 + 1; rw [e0]; show ((i 0).val * 8 + (i 1).val / 1024 * 4 + 3) / 8 * 1 ≤ (i 0).val ∧ (i 0).val < ((i 0).val * 8 + (i 1).val / 1024 * 4 + 3) / 8 * 1 + 1; omega
    | ⟨1, _⟩ => show win1_3.index _ 1 * 1024 ≤ (i 1).val ∧ (i 1).val < win1_3.index _ 1 * 1024 + 1024; rw [e1]; show ((i 0).val * 8 + (i 1).val / 1024 * 4 + 3) / 4 % 2 * 1024 ≤ (i 1).val ∧ (i 1).val < ((i 0).val * 8 + (i 1).val / 1024 * 4 + 3) / 4 % 2 * 1024 + 1024; omega
    | ⟨2, _⟩ => show win1_3.index _ 2 * 1024 ≤ (i 2).val ∧ (i 2).val < win1_3.index _ 2 * 1024 + 1024; rw [e2]; omega

end Ideal

end Cert.KernelIdeal.Hand

end
-- ==== Proof.KernelIdeal.ProjValue.lean ====
/-
  The projection kernel's output arrays, from blocks to the array. The grid has 8 × 4 points; point `t` is batch
  `t / 4`, row block `t % 4`. The input window and the three output windows have blocks of 512 rows of one batch
  at block index (batch, row block, 0); the weight and bias windows are whole arrays at block index zero. What
  a point writes back into an output array is its block of one whole-array function of the arrays as the region finds
  them: at row `s` of batch `n`, the body's payload of the 512-row block of the input that holds row `s`, of the
  weight matrix and of the bias row, read at row `s % 512`. The output blocks tile the arrays, so each array ends
  holding that function.
-/
import proofs.«170116_j5909874999592_2_alg».proof.Proof.KernelIdeal.ProjFrame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

-- the core's buffer contents when the region is entered
variable (V : (c : Dev nD) → (b : Ref sig .tc) → Buf (Elt F) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-! ## The index maps, decided over the grid -/

/-- Window 0's block index at point `t`: (batch, row block, 0). -/
theorem idx0_0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
/-- Window 7's block index at point `t`: (batch, row block, 0). -/
theorem idx0_7 : ∀ t : Fin cfg0.N, win0_7.index t (0 : Fin 3) = t.val / 4 ∧ win0_7.index t (1 : Fin 3) = t.val % 4 ∧ win0_7.index t (2 : Fin 3) = 0 :=
  (by decide +kernel : ∀ t : Fin grid0.N, _)
/-- Window 8's block index at point `t`: (batch, row block, 0). -/
theorem idx0_8 : ∀ t : Fin cfg0.N, win0_8.index t (0 : Fin 3) = t.val / 4 ∧ win0_8.index t (1 : Fin 3) = t.val % 4 ∧ win0_8.index t (2 : Fin 3) = 0 :=
  (by decide +kernel : ∀ t : Fin grid0.N, _)
/-- Window 9's block index at point `t`: (batch, row block, 0). -/
theorem idx0_9 : ∀ t : Fin cfg0.N, win0_9.index t (0 : Fin 3) = t.val / 4 ∧ win0_9.index t (1 : Fin 3) = t.val % 4 ∧ win0_9.index t (2 : Fin 3) = 0 :=
  (by decide +kernel : ∀ t : Fin grid0.N, _)
/-- Window 1's block index is zero at every point. -/
theorem idx0_1 : ∀ t : Fin cfg0.N, win0_1.index t (0 : Fin 2) = 0 ∧ win0_1.index t (1 : Fin 2) = 0 :=
  (by decide +kernel : ∀ t : Fin grid0.N, _)
/-- Window 2's block index is zero at every point. -/
theorem idx0_2 : ∀ t : Fin cfg0.N, win0_2.index t (0 : Fin 2) = 0 ∧ win0_2.index t (1 : Fin 2) = 0 :=
  (by decide +kernel : ∀ t : Fin grid0.N, _)
/-- Window 3's block index is zero at every point. -/
theorem idx0_3 : ∀ t : Fin cfg0.N, win0_3.index t (0 : Fin 2) = 0 ∧ win0_3.index t (1 : Fin 2) = 0 :=
  (by decide +kernel : ∀ t : Fin grid0.N, _)
/-- Window 4's block index is zero at every point. -/
theorem idx0_4 : ∀ t : Fin cfg0.N, win0_4.index t (0 : Fin 2) = 0 ∧ win0_4.index t (1 : Fin 2) = 0 :=
  (by decide +kernel : ∀ t : Fin grid0.N, _)
/-- Window 5's block index is zero at every point. -/
theorem idx0_5 : ∀ t : Fin cfg0.N, win0_5.index t (0 : Fin 2) = 0 ∧ win0_5.index t (1 : Fin 2) = 0 :=
  (by decide +kernel : ∀ t : Fin grid0.N, _)
/-- Window 6's block index is zero at every point. -/
theorem idx0_6 : ∀ t : Fin cfg0.N, win0_6.index t (0 : Fin 2) = 0 ∧ win0_6.index t (1 : Fin 2) = 0 :=
  (by decide +kernel : ∀ t : Fin grid0.N, _)

/-! ## The blocks the body reads, off the arrays -/

/-- The input window's block at point `t` is rows `512 (t % 4) … 512 (t % 4) + 511` of batch `t / 4`. -/
theorem iblk0_0_apply (c : Dev nD) (t : Fin cfg0.N) (y : S1x512x1024.Idx) (k : S8x2048x1024.Idx)
    (hk0 : (k 0).val = t.val / 4) (hk1 : (k 1).val = t.val % 4 * 512 + (y 1).val) (hk2 : (k 2).val = (y 2).val) :
    (iblk0 V c 0 t : Vec F S1x512x1024 .f32) y = (V c main_arg0 : S8x2048x1024.Idx → Elt F .f32) k := by
  obtain ⟨e0, e1, e2⟩ := idx0_0 t
  unfold iblk0
  rw [View.read_apply]
  show V c main_arg0 _ = V c main_arg0 _
  refine congrArg _ ?_
  funext a
  apply Fin.ext
  match a with
  | ⟨0, _⟩ => show win0_0.index t 0 * 1 + 1 * (y 0).val = (k 0).val; have : (y 0).val < 1 := (y 0).isLt; rw [e0, hk0]; omega
  | ⟨1, _⟩ => show win0_0.index t 1 * 512 + 1 * (y 1).val = (k 1).val; rw [e1, hk1]; omega
  | ⟨2, _⟩ => show win0_0.index t 2 * 1024 + 1 * (y 2).val = (k 2).val; rw [e2, hk2]; omega

/-- Window 1's block at every point is its whole array. -/
theorem iblk0_1_eq (c : Dev nD) (t : Fin cfg0.N) :
    (iblk0 V c 1 t : Vec F S1024x1024 .bf16) = (V c main_v0 : S1024x1024.Idx → Elt F .bf16) := by
  obtain ⟨e0, e1⟩ := idx0_1 t
  funext y
  unfold iblk0
  rw [View.read_apply]
  show V c main_v0 _ = V c main_v0 _
  refine congrArg _ ?_
  funext a
  apply Fin.ext
  match a with
  | ⟨0, _⟩ => show win0_1.index t 0 * 1024 + 1 * (y 0).val = (y 0).val; rw [e0]; omega
  | ⟨1, _⟩ => show win0_1.index t 1 * 1024 + 1 * (y 1).val = (y 1).val; rw [e1]; omega

/-- Window 2's block at every point is its whole array. -/
theorem iblk0_2_eq (c : Dev nD) (t : Fin cfg0.N) :
    (iblk0 V c 2 t : Vec F S1x1024 .f32) = (V c main_v3 : S1x1024.Idx → Elt F .f32) := by
  obtain ⟨e0, e1⟩ := idx0_2 t
  funext y
  unfold iblk0
  rw [View.read_apply]
  show V c main_v3 _ = V c main_v3 _
  refine congrArg _ ?_
  funext a
  apply Fin.ext
  match a with
  | ⟨0, _⟩ => show win0_2.index t 0 * 1 + 1 * (y 0).val = (y 0).val; rw [e0]; omega
  | ⟨1, _⟩ => show win0_2.index t 1 * 1024 + 1 * (y 1).val = (y 1).val; rw [e1]; omega

/-- Window 3's block at every point is its whole array. -/
theorem iblk0_3_eq (c : Dev nD) (t : Fin cfg0.N) :
    (iblk0 V c 3 t : Vec F S1024x1024 .bf16) = (V c main_v1 : S1024x1024.Idx → Elt F .bf16) := by
  obtain ⟨e0, e1⟩ := idx0_3 t
  funext y
  unfold iblk0
  rw [View.read_apply]
  show V c main_v1 _ = V c main_v1 _
  refine congrArg _ ?_
  funext a
  apply Fin.ext
  match a with
  | ⟨0, _⟩ => show win0_3.index t 0 * 1024 + 1 * (y 0).val = (y 0).val; rw [e0]; omega
  | ⟨1, _⟩ => show win0_3.index t 1 * 1024 + 1 * (y 1).val = (y 1).val; rw [e1]; omega

/-- Window 4's block at every point is its whole array. -/
theorem iblk0_4_eq (c : Dev nD) (t : Fin cfg0.N) :
    (iblk0 V c 4 t : Vec F S1x1024 .f32) = (V c main_v4 : S1x1024.Idx → Elt F .f32) := by
  obtain ⟨e0, e1⟩ := idx0_4 t
  funext y
  unfold iblk0
  rw [View.read_apply]
  show V c main_v4 _ = V c main_v4 _
  refine congrArg _ ?_
  funext a
  apply Fin.ext
  match a with
  | ⟨0, _⟩ => show win0_4.index t 0 * 1 + 1 * (y 0).val = (y 0).val; rw [e0]; omega
  | ⟨1, _⟩ => show win0_4.index t 1 * 1024 + 1 * (y 1).val = (y 1).val; rw [e1]; omega

/-- Window 5's block at every point is its whole array. -/
theorem iblk0_5_eq (c : Dev nD) (t : Fin cfg0.N) :
    (iblk0 V c 5 t : Vec F S1024x1024 .bf16) = (V c main_v2 : S1024x1024.Idx → Elt F .bf16) := by
  obtain ⟨e0, e1⟩ := idx0_5 t
  funext y
  unfold iblk0
  rw [View.read_apply]
  show V c main_v2 _ = V c main_v2 _
  refine congrArg _ ?_
  funext a
  apply Fin.ext
  match a with
  | ⟨0, _⟩ => show win0_5.index t 0 * 1024 + 1 * (y 0).val = (y 0).val; rw [e0]; omega
  | ⟨1, _⟩ => show win0_5.index t 1 * 1024 + 1 * (y 1).val = (y 1).val; rw [e1]; omega

/-- Window 6's block at every point is its whole array. -/
theorem iblk0_6_eq (c : Dev nD) (t : Fin cfg0.N) :
    (iblk0 V c 6 t : Vec F S1x1024 .f32) = (V c main_v5 : S1x1024.Idx → Elt F .f32) := by
  obtain ⟨e0, e1⟩ := idx0_6 t
  funext y
  unfold iblk0
  rw [View.read_apply]
  show V c main_v5 _ = V c main_v5 _
  refine congrArg _ ?_
  funext a
  apply Fin.ext
  match a with
  | ⟨0, _⟩ => show win0_6.index t 0 * 1 + 1 * (y 0).val = (y 0).val; rw [e0]; omega
  | ⟨1, _⟩ => show win0_6.index t 1 * 1024 + 1 * (y 1).val = (y 1).val; rw [e1]; omega

/-! ## The arrays the outputs end holding -/

/-- The 512-row block of an input array that holds the rows of batch `n`, row block `sb`. -/
def rowsBlk (X : S8x2048x1024.Idx → Elt F .f32) (n : Fin 8) (sb : Fin 4) : Vec F S1x512x1024 .f32 :=
  fun y => X (ix3 n (⟨sb.val * 512 + (y 1).val, by have h : (y 1).val < 512 := (y 1).isLt; omega⟩ : Fin 2048) (⟨(y 2).val, (y 2).isLt⟩ : Fin 1024))

/-- A row of that block is the row of the array. -/
theorem rowsBlk_apply (X : S8x2048x1024.Idx → Elt F .f32) (n : Fin 8) (sb : Fin 4) (r : Fin 512) (d : Fin 1024) :
    rowsBlk X n sb (ix3 (0 : Fin 1) r d) = X (ix3 n (⟨sb.val * 512 + r.val, by omega⟩ : Fin 2048) d) := rfl

/-- Row `s` of batch `n` is row `s % 512` of its block `s / 512`. -/
theorem rowsBlk_row (X : S8x2048x1024.Idx → Elt F .f32) (n : Fin 8) (s : Fin 2048) (d : Fin 1024) :
    rowsBlk X n (⟨s.val / 512, by omega⟩ : Fin 4) (ix3 (0 : Fin 1) (⟨s.val % 512, by omega⟩ : Fin 512) d) = X (ix3 n s d) := by
  rw [rowsBlk_apply]
  exact congrArg X (congrArg (fun s' => ix3 n s' d) (Fin.ext (by show s.val / 512 * 512 + s.val % 512 = s.val; omega)))

/-- The input window's block at point `t` is that block of the input array as the region finds it. -/
theorem iblk0_0_eq (c : Dev nD) (t : Fin cfg0.N) (n : Fin 8) (sb : Fin 4) (hn : n.val = t.val / 4) (hsb : sb.val = t.val % 4) :
    (iblk0 V c 0 t : Vec F S1x512x1024 .f32) = rowsBlk (V c main_arg0 : S8x2048x1024.Idx → Elt F .f32) n sb :=
  funext fun y => iblk0_0_apply V c t y _ hn (by show sb.val * 512 + (y 1).val = _; rw [hsb]) rfl

/-! ## Output window 7: the queries -/

/-- What output window 7's array ends holding: at row `s` of batch `n`, the query payload of the 512-row input block
    holding row `s`, read at row `s % 512`. -/
def proj7 (X : S8x2048x1024.Idx → Elt F .f32) (W : S1024x1024.Idx → Elt F .bf16) (b : S1x1024.Idx → Elt F .f32)
    (n : Fin 8) (s : Fin 2048) (h : Fin 1024) : Elt F .bf16 :=
  k0_pay4 (rowsBlk X n (⟨s.val / 512, by omega⟩ : Fin 4)) W b (ix3 (0 : Fin 1) (⟨s.val % 512, by omega⟩ : Fin 512) h)

/-- The same as a whole-array function of the index. -/
def G7 (X : S8x2048x1024.Idx → Elt F .f32) (W : S1024x1024.Idx → Elt F .bf16) (b : S1x1024.Idx → Elt F .f32) :
    S8x2048x1024.Idx → Elt F .bf16 :=
  fun i => proj7 X W b (i 0) (i 1) (i 2)

/-- The payload of a block at a block index is the array function at the index it sits at. -/
theorem pay7_at (X : S8x2048x1024.Idx → Elt F .f32) (W : S1024x1024.Idx → Elt F .bf16) (b : S1x1024.Idx → Elt F .f32)
    (xb : Vec F S1x512x1024 .f32) (y : S1x512x1024.Idx) (i : S8x2048x1024.Idx) (n : Fin 8) (sb : Fin 4)
    (hxb : xb = rowsBlk X n sb) (hi0 : (i 0).val = n.val) (hi1 : (i 1).val = sb.val * 512 + (y 1).val) (hi2 : (i 2).val = (y 2).val) :
    k0_pay4 xb W b y = G7 X W b i := by
  subst hxb
  have hy0 : (y 0).val < 1 := (y 0).isLt
  have hy1 : (y 1).val < 512 := (y 1).isLt
  have e0 : (i 0 : Fin 8) = n := Fin.ext hi0
  have e1 : ((⟨(i 1).val / 512, by have h : (i 1).val < 2048 := (i 1).isLt; omega⟩ : Fin 4)) = sb := Fin.ext (by show (i 1).val / 512 = sb.val; omega)
  have e2 : (ix3 (0 : Fin 1) (⟨(i 1).val % 512, by omega⟩ : Fin 512) (i 2 : Fin 1024) : S1x512x1024.Idx) = y :=
    funext fun a => Fin.ext (by
      match a with
      | ⟨0, _⟩ => show 0 = (y 0).val; omega
      | ⟨1, _⟩ => show (i 1).val % 512 = (y 1).val; omega
      | ⟨2, _⟩ => exact hi2)
  show _ = k0_pay4 (rowsBlk X (i 0) (⟨(i 1).val / 512, _⟩ : Fin 4)) W b (ix3 (0 : Fin 1) (⟨(i 1).val % 512, _⟩ : Fin 512) (i 2))
  rw [e0, e1, e2]

/-- What point `t` writes back into output window 7's array is block `t` of `G7` of the arrays as the region finds them. -/
theorem flushed7_eq (c : Dev nD) (t : Fin cfg0.N) :
    (dat0 V c).flushed 7 t = ((cfg0.win 7).blk t).view.read (Elt F) (G7 (V c main_arg0) (V c main_v0) (V c main_v3)) := by
  show (cfg0.win 7).cut (grid0.coords t) ((dat0 V c).after 7 t) = _
  rw [after0_7]
  unfold out0_7
  rw [View.canon_unit_zero hz3]
  simp only [View.ld_unit_zero (S := S1x512x1024) hz3, View.ld_unit_zero (S := S1024x1024) hz2, View.ld_unit_zero (S := S1x1024) hz2]
  rw [iblk0_1_eq V c t, iblk0_2_eq V c t]
  obtain ⟨e0, e1, e2⟩ := idx0_7 t
  have ht : t.val < 32 := t.isLt
  funext y
  show k0_pay4 (iblk0 V c 0 t) (V c main_v0) (V c main_v3) y
      = G7 (V c main_arg0) (V c main_v0) (V c main_v3) (((cfg0.win 7).blk t).view.emb y)
  refine pay7_at (V c main_arg0) (V c main_v0) (V c main_v3) (iblk0 V c 0 t) y _ (⟨t.val / 4, by omega⟩ : Fin 8) (⟨t.val % 4, by omega⟩ : Fin 4)
    (iblk0_0_eq V c t _ _ rfl rfl) ?_ ?_ ?_
  · show win0_7.index t 0 * 1 + 1 * (y 0).val = t.val / 4
    have hy0 : (y 0).val < 1 := (y 0).isLt
    rw [e0]; omega
  · show win0_7.index t 1 * 512 + 1 * (y 1).val = t.val % 4 * 512 + (y 1).val
    rw [e1]; omega
  · show win0_7.index t 2 * 1024 + 1 * (y 2).val = (y 2).val
    rw [e2]; omega

/-- An index of the array is in point `t`'s block iff each coordinate is in the block's range on its axis. -/
theorem mem_blk7 (t : Fin cfg0.N) (i : S8x2048x1024.Idx) :
    i ∈ ((cfg0.win 7).blk t).view.set ↔ ∀ a : Fin 3, win0_7.index t a * S1x512x1024.size a ≤ (i a).val ∧ (i a).val < win0_7.index t a * S1x512x1024.size a + S1x512x1024.size a := by
  show i ∈ ((View.whole main_v6_0).slice (win0_7.rect t)).set ↔ _
  rw [View.set_slice_whole, Rect.mem_set_unit]
  exact Iff.rfl

/-- The array after the run: `G7` of the arrays as the region finds them (row `s` of batch `n` is covered by point `4 n + s / 512`). -/
theorem final7 (c : Dev nD) : (dat0 V c).arrAt 7 cfg0.N = G7 (V c main_arg0) (V c main_v0) (V c main_v3) :=
  (dat0 V c).arrAt_eq_of_cover 7 (G7 (V c main_arg0) (V c main_v0) (V c main_v3)) (fun t _ => flushed7_eq V c t) fun i => by
    have hi0 : (i 0).val < 8 := (i 0).isLt
    have hi1 : (i 1).val < 2048 := (i 1).isLt
    have hi2 : (i 2).val < 1024 := (i 2).isLt
    refine ⟨(⟨(i 0).val * 4 + (i 1).val / 512, by show _ < 32; omega⟩ : Fin cfg0.N), flush0_7 _, ?_⟩
    rw [mem_blk7]
    obtain ⟨e0, e1, e2⟩ := idx0_7 (⟨(i 0).val * 4 + (i 1).val / 512, by show _ < 32; omega⟩ : Fin cfg0.N)
    intro a
    match a with
    | ⟨0, _⟩ => show win0_7.index _ 0 * 1 ≤ (i 0).val ∧ (i 0).val < win0_7.index _ 0 * 1 + 1; rw [e0]; show ((i 0).val * 4 + (i 1).val / 512) / 4 * 1 ≤ (i 0).val ∧ (i 0).val < ((i 0).val * 4 + (i 1).val / 512) / 4 * 1 + 1; omega
    | ⟨1, _⟩ => show win0_7.index _ 1 * 512 ≤ (i 1).val ∧ (i 1).val < win0_7.index _ 1 * 512 + 512; rw [e1]; show ((i 0).val * 4 + (i 1).val / 512) % 4 * 512 ≤ (i 1).val ∧ (i 1).val < ((i 0).val * 4 + (i 1).val / 512) % 4 * 512 + 512; omega
    | ⟨2, _⟩ => show win0_7.index _ 2 * 1024 ≤ (i 2).val ∧ (i 2).val < win0_7.index _ 2 * 1024 + 1024; rw [e2]; omega

/-- The array at coordinates: the payload of the input block holding the row, of the weight matrix and of the bias row. -/
theorem arr7_apply (c : Dev nD) (n : Fin 8) (s : Fin 2048) (h : Fin 1024) :
    (dat0 V c).arrAt 7 cfg0.N (ix3 n s h)
      = k0_pay4 (rowsBlk (V c main_arg0) n (⟨s.val / 512, by omega⟩ : Fin 4)) (V c main_v0) (V c main_v3) (ix3 (0 : Fin 1) (⟨s.val % 512, by omega⟩ : Fin 512) h) :=
  congrFun (final7 V c) (ix3 n s h)

/-! ## Output window 8: the keys -/

/-- What output window 8's array ends holding: at row `s` of batch `n`, the key payload of the 512-row input block
    holding row `s`, read at row `s % 512`. -/
def proj8 (X : S8x2048x1024.Idx → Elt F .f32) (W : S1024x1024.Idx → Elt F .bf16) (b : S1x1024.Idx → Elt F .f32)
    (n : Fin 8) (s : Fin 2048) (h : Fin 1024) : Elt F .bf16 :=
  k0_pay5 (rowsBlk X n (⟨s.val / 512, by omega⟩ : Fin 4)) W b (ix3 (0 : Fin 1) (⟨s.val % 512, by omega⟩ : Fin 512) h)

/-- The same as a whole-array function of the index. -/
def G8 (X : S8x2048x1024.Idx → Elt F .f32) (W : S1024x1024.Idx → Elt F .bf16) (b : S1x1024.Idx → Elt F .f32) :
    S8x2048x1024.Idx → Elt F .bf16 :=
  fun i => proj8 X W b (i 0) (i 1) (i 2)

/-- The payload of a block at a block index is the array function at the index it sits at. -/
theorem pay8_at (X : S8x2048x1024.Idx → Elt F .f32) (W : S1024x1024.Idx → Elt F .bf16) (b : S1x1024.Idx → Elt F .f32)
    (xb : Vec F S1x512x1024 .f32) (y : S1x512x1024.Idx) (i : S8x2048x1024.Idx) (n : Fin 8) (sb : Fin 4)
    (hxb : xb = rowsBlk X n sb) (hi0 : (i 0).val = n.val) (hi1 : (i 1).val = sb.val * 512 + (y 1).val) (hi2 : (i 2).val = (y 2).val) :
    k0_pay5 xb W b y = G8 X W b i := by
  subst hxb
  have hy0 : (y 0).val < 1 := (y 0).isLt
  have hy1 : (y 1).val < 512 := (y 1).isLt
  have e0 : (i 0 : Fin 8) = n := Fin.ext hi0
  have e1 : ((⟨(i 1).val / 512, by have h : (i 1).val < 2048 := (i 1).isLt; omega⟩ : Fin 4)) = sb := Fin.ext (by show (i 1).val / 512 = sb.val; omega)
  have e2 : (ix3 (0 : Fin 1) (⟨(i 1).val % 512, by omega⟩ : Fin 512) (i 2 : Fin 1024) : S1x512x1024.Idx) = y :=
    funext fun a => Fin.ext (by
      match a with
      | ⟨0, _⟩ => show 0 = (y 0).val; omega
      | ⟨1, _⟩ => show (i 1).val % 512 = (y 1).val; omega
      | ⟨2, _⟩ => exact hi2)
  show _ = k0_pay5 (rowsBlk X (i 0) (⟨(i 1).val / 512, _⟩ : Fin 4)) W b (ix3 (0 : Fin 1) (⟨(i 1).val % 512, _⟩ : Fin 512) (i 2))
  rw [e0, e1, e2]

/-- What point `t` writes back into output window 8's array is block `t` of `G8` of the arrays as the region finds them. -/
theorem flushed8_eq (c : Dev nD) (t : Fin cfg0.N) :
    (dat0 V c).flushed 8 t = ((cfg0.win 8).blk t).view.read (Elt F) (G8 (V c main_arg0) (V c main_v1) (V c main_v4)) := by
  show (cfg0.win 8).cut (grid0.coords t) ((dat0 V c).after 8 t) = _
  rw [after0_8]
  unfold out0_8
  rw [View.canon_unit_zero hz3]
  simp only [View.ld_unit_zero (S := S1x512x1024) hz3, View.ld_unit_zero (S := S1024x1024) hz2, View.ld_unit_zero (S := S1x1024) hz2]
  rw [iblk0_3_eq V c t, iblk0_4_eq V c t]
  obtain ⟨e0, e1, e2⟩ := idx0_8 t
  have ht : t.val < 32 := t.isLt
  funext y
  show k0_pay5 (iblk0 V c 0 t) (V c main_v1) (V c main_v4) y
      = G8 (V c main_arg0) (V c main_v1) (V c main_v4) (((cfg0.win 8).blk t).view.emb y)
  refine pay8_at (V c main_arg0) (V c main_v1) (V c main_v4) (iblk0 V c 0 t) y _ (⟨t.val / 4, by omega⟩ : Fin 8) (⟨t.val % 4, by omega⟩ : Fin 4)
    (iblk0_0_eq V c t _ _ rfl rfl) ?_ ?_ ?_
  · show win0_8.index t 0 * 1 + 1 * (y 0).val = t.val / 4
    have hy0 : (y 0).val < 1 := (y 0).isLt
    rw [e0]; omega
  · show win0_8.index t 1 * 512 + 1 * (y 1).val = t.val % 4 * 512 + (y 1).val
    rw [e1]; omega
  · show win0_8.index t 2 * 1024 + 1 * (y 2).val = (y 2).val
    rw [e2]; omega

/-- An index of the array is in point `t`'s block iff each coordinate is in the block's range on its axis. -/
theorem mem_blk8 (t : Fin cfg0.N) (i : S8x2048x1024.Idx) :
    i ∈ ((cfg0.win 8).blk t).view.set ↔ ∀ a : Fin 3, win0_8.index t a * S1x512x1024.size a ≤ (i a).val ∧ (i a).val < win0_8.index t a * S1x512x1024.size a + S1x512x1024.size a := by
  show i ∈ ((View.whole main_v6_1).slice (win0_8.rect t)).set ↔ _
  rw [View.set_slice_whole, Rect.mem_set_unit]
  exact Iff.rfl

/-- The array after the run: `G8` of the arrays as the region finds them (row `s` of batch `n` is covered by point `4 n + s / 512`). -/
theorem final8 (c : Dev nD) : (dat0 V c).arrAt 8 cfg0.N = G8 (V c main_arg0) (V c main_v1) (V c main_v4) :=
  (dat0 V c).arrAt_eq_of_cover 8 (G8 (V c main_arg0) (V c main_v1) (V c main_v4)) (fun t _ => flushed8_eq V c t) fun i => by
    have hi0 : (i 0).val < 8 := (i 0).isLt
    have hi1 : (i 1).val < 2048 := (i 1).isLt
    have hi2 : (i 2).val < 1024 := (i 2).isLt
    refine ⟨(⟨(i 0).val * 4 + (i 1).val / 512, by show _ < 32; omega⟩ : Fin cfg0.N), flush0_8 _, ?_⟩
    rw [mem_blk8]
    obtain ⟨e0, e1, e2⟩ := idx0_8 (⟨(i 0).val * 4 + (i 1).val / 512, by show _ < 32; omega⟩ : Fin cfg0.N)
    intro a
    match a with
    | ⟨0, _⟩ => show win0_8.index _ 0 * 1 ≤ (i 0).val ∧ (i 0).val < win0_8.index _ 0 * 1 + 1; rw [e0]; show ((i 0).val * 4 + (i 1).val / 512) / 4 * 1 ≤ (i 0).val ∧ (i 0).val < ((i 0).val * 4 + (i 1).val / 512) / 4 * 1 + 1; omega
    | ⟨1, _⟩ => show win0_8.index _ 1 * 512 ≤ (i 1).val ∧ (i 1).val < win0_8.index _ 1 * 512 + 512; rw [e1]; show ((i 0).val * 4 + (i 1).val / 512) % 4 * 512 ≤ (i 1).val ∧ (i 1).val < ((i 0).val * 4 + (i 1).val / 512) % 4 * 512 + 512; omega
    | ⟨2, _⟩ => show win0_8.index _ 2 * 1024 ≤ (i 2).val ∧ (i 2).val < win0_8.index _ 2 * 1024 + 1024; rw [e2]; omega

/-- The array at coordinates: the payload of the input block holding the row, of the weight matrix and of the bias row. -/
theorem arr8_apply (c : Dev nD) (n : Fin 8) (s : Fin 2048) (h : Fin 1024) :
    (dat0 V c).arrAt 8 cfg0.N (ix3 n s h)
      = k0_pay5 (rowsBlk (V c main_arg0) n (⟨s.val / 512, by omega⟩ : Fin 4)) (V c main_v1) (V c main_v4) (ix3 (0 : Fin 1) (⟨s.val % 512, by omega⟩ : Fin 512) h) :=
  congrFun (final8 V c) (ix3 n s h)

/-! ## Output window 9: the values -/

/-- What output window 9's array ends holding: at row `s` of batch `n`, the value payload of the 512-row input block
    holding row `s`, read at row `s % 512`. -/
def proj9 (X : S8x2048x1024.Idx → Elt F .f32) (W : S1024x1024.Idx → Elt F .bf16) (b : S1x1024.Idx → Elt F .f32)
    (n : Fin 8) (s : Fin 2048) (h : Fin 1024) : Elt F .bf16 :=
  k0_pay1 (k0_pay3 (rowsBlk X n (⟨s.val / 512, by omega⟩ : Fin 4)) W b) (ix3 (0 : Fin 1) (⟨s.val % 512, by omega⟩ : Fin 512) h)

/-- The same as a whole-array function of the index. -/
def G9 (X : S8x2048x1024.Idx → Elt F .f32) (W : S1024x1024.Idx → Elt F .bf16) (b : S1x1024.Idx → Elt F .f32) :
    S8x2048x1024.Idx → Elt F .bf16 :=
  fun i => proj9 X W b (i 0) (i 1) (i 2)

/-- The payload of a block at a block index is the array function at the index it sits at. -/
theorem pay9_at (X : S8x2048x1024.Idx → Elt F .f32) (W : S1024x1024.Idx → Elt F .bf16) (b : S1x1024.Idx → Elt F .f32)
    (xb : Vec F S1x512x1024 .f32) (y : S1x512x1024.Idx) (i : S8x2048x1024.Idx) (n : Fin 8) (sb : Fin 4)
    (hxb : xb = rowsBlk X n sb) (hi0 : (i 0).val = n.val) (hi1 : (i 1).val = sb.val * 512 + (y 1).val) (hi2 : (i 2).val = (y 2).val) :
    k0_pay1 (k0_pay3 xb W b) y = G9 X W b i := by
  subst hxb
  have hy0 : (y 0).val < 1 := (y 0).isLt
  have hy1 : (y 1).val < 512 := (y 1).isLt
  have e0 : (i 0 : Fin 8) = n := Fin.ext hi0
  have e1 : ((⟨(i 1).val / 512, by have h : (i 1).val < 2048 := (i 1).isLt; omega⟩ : Fin 4)) = sb := Fin.ext (by show (i 1).val / 512 = sb.val; omega)
  have e2 : (ix3 (0 : Fin 1) (⟨(i 1).val % 512, by omega⟩ : Fin 512) (i 2 : Fin 1024) : S1x512x1024.Idx) = y :=
    funext fun a => Fin.ext (by
      match a with
      | ⟨0, _⟩ => show 0 = (y 0).val; omega
      | ⟨1, _⟩ => show (i 1).val % 512 = (y 1).val; omega
      | ⟨2, _⟩ => exact hi2)
  show _ = k0_pay1 (k0_pay3 (rowsBlk X (i 0) (⟨(i 1).val / 512, _⟩ : Fin 4)) W b) (ix3 (0 : Fin 1) (⟨(i 1).val % 512, _⟩ : Fin 512) (i 2))
  rw [e0, e1, e2]

/-- What point `t` writes back into output window 9's array is block `t` of `G9` of the arrays as the region finds them. -/
theorem flushed9_eq (c : Dev nD) (t : Fin cfg0.N) :
    (dat0 V c).flushed 9 t = ((cfg0.win 9).blk t).view.read (Elt F) (G9 (V c main_arg0) (V c main_v2) (V c main_v5)) := by
  show (cfg0.win 9).cut (grid0.coords t) ((dat0 V c).after 9 t) = _
  rw [after0_9]
  unfold out0_9
  rw [View.canon_unit_zero hz3]
  simp only [View.ld_unit_zero (S := S1x512x1024) hz3, View.ld_unit_zero (S := S1024x1024) hz2, View.ld_unit_zero (S := S1x1024) hz2]
  rw [iblk0_5_eq V c t, iblk0_6_eq V c t]
  obtain ⟨e0, e1, e2⟩ := idx0_9 t
  have ht : t.val < 32 := t.isLt
  funext y
  show k0_pay1 (k0_pay3 (iblk0 V c 0 t) (V c main_v2) (V c main_v5)) y
      = G9 (V c main_arg0) (V c main_v2) (V c main_v5) (((cfg0.win 9).blk t).view.emb y)
  refine pay9_at (V c main_arg0) (V c main_v2) (V c main_v5) (iblk0 V c 0 t) y _ (⟨t.val / 4, by omega⟩ : Fin 8) (⟨t.val % 4, by omega⟩ : Fin 4)
    (iblk0_0_eq V c t _ _ rfl rfl) ?_ ?_ ?_
  · show win0_9.index t 0 * 1 + 1 * (y 0).val = t.val / 4
    have hy0 : (y 0).val < 1 := (y 0).isLt
    rw [e0]; omega
  · show win0_9.index t 1 * 512 + 1 * (y 1).val = t.val % 4 * 512 + (y 1).val
    rw [e1]; omega
  · show win0_9.index t 2 * 1024 + 1 * (y 2).val = (y 2).val
    rw [e2]; omega

/-- An index of the array is in point `t`'s block iff each coordinate is in the block's range on its axis. -/
theorem mem_blk9 (t : Fin cfg0.N) (i : S8x2048x1024.Idx) :
    i ∈ ((cfg0.win 9).blk t).view.set ↔ ∀ a : Fin 3, win0_9.index t a * S1x512x1024.size a ≤ (i a).val ∧ (i a).val < win0_9.index t a * S1x512x1024.size a + S1x512x1024.size a := by
  show i ∈ ((View.whole main_v6_2).slice (win0_9.rect t)).set ↔ _
  rw [View.set_slice_whole, Rect.mem_set_unit]
  exact Iff.rfl

/-- The array after the run: `G9` of the arrays as the region finds them (row `s` of batch `n` is covered by point `4 n + s / 512`). -/
theorem final9 (c : Dev nD) : (dat0 V c).arrAt 9 cfg0.N = G9 (V c main_arg0) (V c main_v2) (V c main_v5) :=
  (dat0 V c).arrAt_eq_of_cover 9 (G9 (V c main_arg0) (V c main_v2) (V c main_v5)) (fun t _ => flushed9_eq V c t) fun i => by
    have hi0 : (i 0).val < 8 := (i 0).isLt
    have hi1 : (i 1).val < 2048 := (i 1).isLt
    have hi2 : (i 2).val < 1024 := (i 2).isLt
    refine ⟨(⟨(i 0).val * 4 + (i 1).val / 512, by show _ < 32; omega⟩ : Fin cfg0.N), flush0_9 _, ?_⟩
    rw [mem_blk9]
    obtain ⟨e0, e1, e2⟩ := idx0_9 (⟨(i 0).val * 4 + (i 1).val / 512, by show _ < 32; omega⟩ : Fin cfg0.N)
    intro a
    match a with
    | ⟨0, _⟩ => show win0_9.index _ 0 * 1 ≤ (i 0).val ∧ (i 0).val < win0_9.index _ 0 * 1 + 1; rw [e0]; show ((i 0).val * 4 + (i 1).val / 512) / 4 * 1 ≤ (i 0).val ∧ (i 0).val < ((i 0).val * 4 + (i 1).val / 512) / 4 * 1 + 1; omega
    | ⟨1, _⟩ => show win0_9.index _ 1 * 512 ≤ (i 1).val ∧ (i 1).val < win0_9.index _ 1 * 512 + 512; rw [e1]; show ((i 0).val * 4 + (i 1).val / 512) % 4 * 512 ≤ (i 1).val ∧ (i 1).val < ((i 0).val * 4 + (i 1).val / 512) % 4 * 512 + 512; omega
    | ⟨2, _⟩ => show win0_9.index _ 2 * 1024 ≤ (i 2).val ∧ (i 2).val < win0_9.index _ 2 * 1024 + 1024; rw [e2]; omega

/-- The array at coordinates: the payload of the input block holding the row, of the weight matrix and of the bias row. -/
theorem arr9_apply (c : Dev nD) (n : Fin 8) (s : Fin 2048) (h : Fin 1024) :
    (dat0 V c).arrAt 9 cfg0.N (ix3 n s h)
      = k0_pay1 (k0_pay3 (rowsBlk (V c main_arg0) n (⟨s.val / 512, by omega⟩ : Fin 4)) (V c main_v2) (V c main_v5)) (ix3 (0 : Fin 1) (⟨s.val % 512, by omega⟩ : Fin 512) h) :=
  congrFun (final9 V c) (ix3 n s h)

end Cert.KernelIdeal.Hand

end
-- ==== Proof.KernelIdeal.ProjPayload.lean ====
/-
  The three dense projections of the first kernel, read at an index over the extended reals.

  Each projection rounds the block of input rows to the narrow format (the identity on extended reals), multiplies
  it by a weight matrix into a zero accumulator, and adds the bias row spread over the rows. At row `r` and column
  `h` this is the inner product of input row `r` with weight column `h`, plus the bias entry `h`. The stored
  blocks carry a leading unit axis, which changes no entry.
-/
import proofs.«170116_j5909874999592_2_alg».proof.Proof.Gen.KernelIdeal.Skeleton
import proofs.«170116_j5909874999592_2_alg».proof.Proof.LibDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- One projection read at row `r`, column `h` of a block: the inner product of the input row with the weight
    column, plus the bias entry. -/
def projAt (xb : Vec Ideal S1x512x1024 .f32) (W : Vec Ideal S1024x1024 .bf16) (b : Vec Ideal S1x1024 .f32)
    (r : Fin 512) (h : Fin 1024) : EReal :=
  (∑ d : Fin 1024, xb (ix3 (0 : Fin 1) r d) * W (ix2 d h)) + b (ix2 (0 : Fin 1) h)

/-- The common core of the three projections: the rounded input block against a weight matrix into zero, plus the
    bias row spread over the rows, at `(r, h)`. -/
theorem proj_core (xb : Vec Ideal S1x512x1024 .f32) (W : Vec Ideal S1024x1024 .bf16) (b : Vec Ideal S1x1024 .f32)
    (r : Fin 512) (h : Fin 1024) :
    addf (matmul (φ₁ := .bf16) (φ₂ := .bf16) dot_S512x1024_S1024x1024_S512x1024_1_0_0_1_n_n none
        (truncf .bf16 (shapeCast S512x1024 xb shapeCasts_S1x512x1024_S512x1024) bitsLt_bf16_f32)
        (shapeCast S1024x1024 W shapeCasts_S1024x1024_S1024x1024) (constant (F := Ideal) S512x1024 .f32 0x00000000#32))
      (broadcastTo S512x1024 (shapeCast S1x1024 b shapeCasts_S1x1024_S1x1024) broadcasts_S1x1024_S512x1024) (ix2 r h)
      = projAt xb W b r h := by
  unfold projAt
  refine (addf_apply _ _ _).trans ?_
  refine congrArg₂ (· + ·) ?_ ?_
  · -- the product into zero is the sum over the contraction index; the casts change no entry
    refine (Ideal.matmul_constant_zero_apply _ none _ _ _).trans ?_
    refine (PlainDot.sum_eq _ rfl rfl rfl rfl rfl rfl _ _ r h).trans ?_
    refine Finset.sum_congr rfl fun d _ => ?_
    refine congrArg₂ (· * ·) ?_ ?_
    · exact (truncf_apply (φ := .f32) (ψ := .bf16) _ bitsLt_bf16_f32 _).trans (shapeCast_1ab_ab_apply xb _ r d)
    · exact congrFun (shapeCast_self W _) _
  · -- the bias row spread over the rows
    refine (broadcastTo_1b_ab_apply _ _ r h).trans ?_
    exact congrFun (shapeCast_self b _) _

/-- The third projection, kept as a value, at `(r, h)`. -/
theorem k0_pay3_apply (xb : Vec Ideal S1x512x1024 .f32) (W : Vec Ideal S1024x1024 .bf16) (b : Vec Ideal S1x1024 .f32)
    (r : Fin 512) (h : Fin 1024) : k0_pay3 (F := Ideal) xb W b (ix2 r h) = projAt xb W b r h := by
  dsimp only [k0_pay3, k0_pay2]
  exact proj_core xb W b r h

/-- The first projection as stored, at `(0, r, h)`. -/
theorem k0_pay4_apply (xb : Vec Ideal S1x512x1024 .f32) (W : Vec Ideal S1024x1024 .bf16) (b : Vec Ideal S1x1024 .f32)
    (r : Fin 512) (h : Fin 1024) : k0_pay4 (F := Ideal) xb W b (ix3 (0 : Fin 1) r h) = projAt xb W b r h := by
  dsimp only [k0_pay4, k0_pay2]
  refine (shapeCast_ab_1ab_apply _ _ (0 : Fin 1) r h).trans ?_
  refine (truncf_apply (φ := .f32) (ψ := .bf16) _ bitsLt_bf16_f32 _).trans ?_
  exact proj_core xb W b r h

/-- The second projection as stored, at `(0, r, h)`. -/
theorem k0_pay5_apply (xb : Vec Ideal S1x512x1024 .f32) (W : Vec Ideal S1024x1024 .bf16) (b : Vec Ideal S1x1024 .f32)
    (r : Fin 512) (h : Fin 1024) : k0_pay5 (F := Ideal) xb W b (ix3 (0 : Fin 1) r h) = projAt xb W b r h := by
  dsimp only [k0_pay5, k0_pay2]
  refine (shapeCast_ab_1ab_apply _ _ (0 : Fin 1) r h).trans ?_
  refine (truncf_apply (φ := .f32) (ψ := .bf16) _ bitsLt_bf16_f32 _).trans ?_
  exact proj_core xb W b r h

/-- Storing a value block: rounding to the narrow format and a leading unit axis change no entry. -/
theorem k0_pay1_apply (v : FVec Ideal S512x1024 .f32) (r : Fin 512) (h : Fin 1024) :
    k0_pay1 (F := Ideal) v (ix3 (0 : Fin 1) r h) = v (ix2 r h) := by
  dsimp only [k0_pay1]
  refine (shapeCast_ab_1ab_apply _ _ (0 : Fin 1) r h).trans ?_
  exact truncf_apply (φ := .f32) (ψ := .bf16) _ bitsLt_bf16_f32 _

/-- The third projection as stored, at `(0, r, h)`. -/
theorem k0_pay1_pay3_apply (xb : Vec Ideal S1x512x1024 .f32) (W : Vec Ideal S1024x1024 .bf16) (b : Vec Ideal S1x1024 .f32)
    (r : Fin 512) (h : Fin 1024) : k0_pay1 (F := Ideal) (k0_pay3 xb W b) (ix3 (0 : Fin 1) r h) = projAt xb W b r h :=
  (k0_pay1_apply _ r h).trans (k0_pay3_apply xb W b r h)

end Cert.KernelIdeal.Hand

end
-- ==== Proof.KernelIdeal.ProjHost.lean ====
/-
  The host operations before the projection region, read at the buffers the region's windows stage. They round each
  of the three weight matrices to the narrower format and view each of the three bias vectors as a one-row matrix;
  the input array is not written. Stated at any contents `W0` the operations start from.
-/
import proofs.«170116_j5909874999592_2_alg».proof.Proof.Gen.KernelIdeal.Launch
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem

variable {F : FTy → Type} [FloatOps F]

-- the buffer contents the host operations start from
variable (W0 : Valuation τ sig (Elt F))

/-- The input array is as it was. -/
theorem host_arg0 : StableHlo.after hostOps0 W0 (Proc.devRef .tc main_arg0) = W0 (Proc.devRef .tc main_arg0) := by
  after_results

/-- The first weight matrix as the region finds it: the argument rounded to the narrower format. -/
theorem host_v0 : (StableHlo.after hostOps0 W0 (Proc.devRef .tc main_v0) : S1024x1024.Idx → Elt F .bf16)
    = truncf .bf16 (W0 (Proc.devRef .tc main_arg1) : FVec F S1024x1024 .f32) bitsLt_bf16_f32 := by
  after_results

/-- The same at an index. -/
theorem host_v0_apply (d h : Fin 1024) : (StableHlo.after hostOps0 W0 (Proc.devRef .tc main_v0) : S1024x1024.Idx → Elt F .bf16) (ix2 d h)
    = FloatOps.truncf .bf16 bitsLt_bf16_f32 ((W0 (Proc.devRef .tc main_arg1) : S1024x1024.Idx → Elt F .f32) (ix2 d h)) := by
  rw [host_v0]; rfl

/-- The second weight matrix, likewise. -/
theorem host_v1 : (StableHlo.after hostOps0 W0 (Proc.devRef .tc main_v1) : S1024x1024.Idx → Elt F .bf16)
    = truncf .bf16 (W0 (Proc.devRef .tc main_arg3) : FVec F S1024x1024 .f32) bitsLt_bf16_f32 := by
  after_results

/-- The same at an index. -/
theorem host_v1_apply (d h : Fin 1024) : (StableHlo.after hostOps0 W0 (Proc.devRef .tc main_v1) : S1024x1024.Idx → Elt F .bf16) (ix2 d h)
    = FloatOps.truncf .bf16 bitsLt_bf16_f32 ((W0 (Proc.devRef .tc main_arg3) : S1024x1024.Idx → Elt F .f32) (ix2 d h)) := by
  rw [host_v1]; rfl

/-- The third weight matrix, likewise. -/
theorem host_v2 : (StableHlo.after hostOps0 W0 (Proc.devRef .tc main_v2) : S1024x1024.Idx → Elt F .bf16)
    = truncf .bf16 (W0 (Proc.devRef .tc main_arg5) : FVec F S1024x1024 .f32) bitsLt_bf16_f32 := by
  after_results

/-- The same at an index. -/
theorem host_v2_apply (d h : Fin 1024) : (StableHlo.after hostOps0 W0 (Proc.devRef .tc main_v2) : S1024x1024.Idx → Elt F .bf16) (ix2 d h)
    = FloatOps.truncf .bf16 bitsLt_bf16_f32 ((W0 (Proc.devRef .tc main_arg5) : S1024x1024.Idx → Elt F .f32) (ix2 d h)) := by
  rw [host_v2]; rfl

/-- The first bias row as the region finds it: the argument vector viewed as a one-row matrix. -/
theorem host_v3 : (StableHlo.after hostOps0 W0 (Proc.devRef .tc main_v3) : S1x1024.Idx → Elt F .f32)
    = shapeCast S1x1024 (W0 (Proc.devRef .tc main_arg2) : S1024.Idx → Elt F .f32) shapeCasts_S1024_S1x1024 := by
  after_results
  rfl

/-- The same at an index: entry `h` of the one row is entry `h` of the vector. -/
theorem host_v3_apply (h : Fin 1024) : (StableHlo.after hostOps0 W0 (Proc.devRef .tc main_v3) : S1x1024.Idx → Elt F .f32) (ix2 (0 : Fin 1) h)
    = (W0 (Proc.devRef .tc main_arg2) : S1024.Idx → Elt F .f32) (ix1 h) := by
  rw [host_v3]
  refine shapeCast_apply (s := S1024) (t := S1x1024) _ _ _ _ ?_
  show (S1024.rowMajor (ix1 h)).val = (S1x1024.rowMajor (ix2 (0 : Fin 1) h)).val
  rw [Shape.rowMajor_val_one, Shape.rowMajor_val_two]
  show h.val = 0 * 1024 + h.val
  omega

/-- The second bias row, likewise. -/
theorem host_v4 : (StableHlo.after hostOps0 W0 (Proc.devRef .tc main_v4) : S1x1024.Idx → Elt F .f32)
    = shapeCast S1x1024 (W0 (Proc.devRef .tc main_arg4) : S1024.Idx → Elt F .f32) shapeCasts_S1024_S1x1024 := by
  after_results
  rfl

/-- The same at an index: entry `h` of the one row is entry `h` of the vector. -/
theorem host_v4_apply (h : Fin 1024) : (StableHlo.after hostOps0 W0 (Proc.devRef .tc main_v4) : S1x1024.Idx → Elt F .f32) (ix2 (0 : Fin 1) h)
    = (W0 (Proc.devRef .tc main_arg4) : S1024.Idx → Elt F .f32) (ix1 h) := by
  rw [host_v4]
  refine shapeCast_apply (s := S1024) (t := S1x1024) _ _ _ _ ?_
  show (S1024.rowMajor (ix1 h)).val = (S1x1024.rowMajor (ix2 (0 : Fin 1) h)).val
  rw [Shape.rowMajor_val_one, Shape.rowMajor_val_two]
  show h.val = 0 * 1024 + h.val
  omega

/-- The third bias row, likewise. -/
theorem host_v5 : (StableHlo.after hostOps0 W0 (Proc.devRef .tc main_v5) : S1x1024.Idx → Elt F .f32)
    = shapeCast S1x1024 (W0 (Proc.devRef .tc main_arg6) : S1024.Idx → Elt F .f32) shapeCasts_S1024_S1x1024 := by
  after_results
  rfl

/-- The same at an index: entry `h` of the one row is entry `h` of the vector. -/
theorem host_v5_apply (h : Fin 1024) : (StableHlo.after hostOps0 W0 (Proc.devRef .tc main_v5) : S1x1024.Idx → Elt F .f32) (ix2 (0 : Fin 1) h)
    = (W0 (Proc.devRef .tc main_arg6) : S1024.Idx → Elt F .f32) (ix1 h) := by
  rw [host_v5]
  refine shapeCast_apply (s := S1024) (t := S1x1024) _ _ _ _ ?_
  show (S1024.rowMajor (ix1 h)).val = (S1x1024.rowMajor (ix2 (0 : Fin 1) h)).val
  rw [Shape.rowMajor_val_one, Shape.rowMajor_val_two]
  show h.val = 0 * 1024 + h.val
  omega

end Cert.KernelIdeal.Hand

end
-- ==== Proof.KernelIdeal.ProjClosed.lean ====
/-
  The projection region's three output arrays in closed form over the extended reals, from the launch contents: the
  host operations before the region change no entry there (rounding a weight matrix is the identity, a bias vector
  viewed as a one-row matrix has the vector's entries), every point writes back its block of one whole-array
  function, and the body's payload at a row is the inner product of the input row with a weight column plus the bias
  entry. So the arrays the attention region is entered with are the dense projections of the specification.
-/
import proofs.«170116_j5909874999592_2_alg».proof.Proof.KernelIdeal.Run
import proofs.«170116_j5909874999592_2_alg».proof.Proof.KernelIdeal.ProjValue
import proofs.«170116_j5909874999592_2_alg».proof.Proof.KernelIdeal.ProjPayload
import proofs.«170116_j5909874999592_2_alg».proof.Proof.KernelIdeal.ProjHost
import proofs.«170116_j5909874999592_2_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

/-- A projection of the block holding row `s`, read at row `s % 512`, is the dense projection at row `s` of arrays that
    agree with the block's entry by entry. -/
theorem projAt_launch (X X' : S8x2048x1024.Idx → EReal) (Wm W' : S1024x1024.Idx → EReal) (bm : S1x1024.Idx → EReal)
    (b' : S1024.Idx → EReal) (hX : X = X') (hW : ∀ d h : Fin 1024, Wm (ix2 d h) = W' (ix2 d h))
    (hb : ∀ h : Fin 1024, bm (ix2 (0 : Fin 1) h) = b' (ix1 h)) (n : Fin 8) (s : Fin 2048) (h : Fin 1024) :
    projAt (rowsBlk (F := Ideal) X n (⟨s.val / 512, by omega⟩ : Fin 4)) Wm bm (⟨s.val % 512, by omega⟩ : Fin 512) h
      = Cert.Attn.proj (fun n s d => X' (ix3 n s d)) (fun d h => W' (ix2 d h)) (fun h => b' (ix1 h)) n s h := by
  subst hX
  unfold projAt Cert.Attn.proj
  rw [hb h]
  refine congrArg (· + b' (ix1 h)) (Finset.sum_congr rfl fun d _ => ?_)
  rw [rowsBlk_row (F := Ideal) X n s d, hW d h]

variable (m : (ℓ : Loc nD τ sig) → Buf (Elt Ideal) ℓ)

/-- The query array the attention region is entered with is the query projection of the launch arrays. -/
theorem entry_q (c : Dev nD) (n : Fin 8) (s : Fin 2048) (h : Fin 1024) :
    (Vt2 m c main_v6_0 : S8x2048x1024.Idx → EReal) (ix3 n s h)
      = Cert.Attn.proj (fun n s d => (m ((c : Thread nD τ).loc main_arg0) : S8x2048x1024.Idx → EReal) (ix3 n s d))
          (fun d h => (m ((c : Thread nD τ).loc main_arg1) : S1024x1024.Idx → EReal) (ix2 d h))
          (fun h => (m ((c : Thread nD τ).loc main_arg2) : S1024.Idx → EReal) (ix1 h)) n s h := by
  have e : (Vt2 m c main_v6_0 : S8x2048x1024.Idx → EReal) = (dat0 (Vt1 m) c).arrAt 7 cfg0.N := Wt2_arr m c 7
  rw [e, arr7_apply (Vt1 m) c n s h]
  refine (k0_pay4_apply _ _ _ _ h).trans ?_
  refine projAt_launch _ _ _ _ _ _ ?_ ?_ ?_ n s h
  · exact host_arg0 (Wt0 m c)
  · intro d h; exact host_v0_apply (Wt0 m c) d h
  · intro h; exact host_v3_apply (Wt0 m c) h

/-- The key array likewise. -/
theorem entry_k (c : Dev nD) (n : Fin 8) (s : Fin 2048) (h : Fin 1024) :
    (Vt2 m c main_v6_1 : S8x2048x1024.Idx → EReal) (ix3 n s h)
      = Cert.Attn.proj (fun n s d => (m ((c : Thread nD τ).loc main_arg0) : S8x2048x1024.Idx → EReal) (ix3 n s d))
          (fun d h => (m ((c : Thread nD τ).loc main_arg3) : S1024x1024.Idx → EReal) (ix2 d h))
          (fun h => (m ((c : Thread nD τ).loc main_arg4) : S1024.Idx → EReal) (ix1 h)) n s h := by
  have e : (Vt2 m c main_v6_1 : S8x2048x1024.Idx → EReal) = (dat0 (Vt1 m) c).arrAt 8 cfg0.N := Wt2_arr m c 8
  rw [e, arr8_apply (Vt1 m) c n s h]
  refine (k0_pay5_apply _ _ _ _ h).trans ?_
  refine projAt_launch _ _ _ _ _ _ ?_ ?_ ?_ n s h
  · exact host_arg0 (Wt0 m c)
  · intro d h; exact host_v1_apply (Wt0 m c) d h
  · intro h; exact host_v4_apply (Wt0 m c) h

/-- The value array likewise. -/
theorem entry_v (c : Dev nD) (n : Fin 8) (s : Fin 2048) (h : Fin 1024) :
    (Vt2 m c main_v6_2 : S8x2048x1024.Idx → EReal) (ix3 n s h)
      = Cert.Attn.proj (fun n s d => (m ((c : Thread nD τ).loc main_arg0) : S8x2048x1024.Idx → EReal) (ix3 n s d))
          (fun d h => (m ((c : Thread nD τ).loc main_arg5) : S1024x1024.Idx → EReal) (ix2 d h))
          (fun h => (m ((c : Thread nD τ).loc main_arg6) : S1024.Idx → EReal) (ix1 h)) n s h := by
  have e : (Vt2 m c main_v6_2 : S8x2048x1024.Idx → EReal) = (dat0 (Vt1 m) c).arrAt 9 cfg0.N := Wt2_arr m c 9
  rw [e, arr9_apply (Vt1 m) c n s h]
  refine (k0_pay1_pay3_apply _ _ _ _ h).trans ?_
  refine projAt_launch _ _ _ _ _ _ ?_ ?_ ?_ n s h
  · exact host_arg0 (Wt0 m c)
  · intro d h; exact host_v2_apply (Wt0 m c) d h
  · intro h; exact host_v5_apply (Wt0 m c) h

end Cert.KernelIdeal.Hand

end
-- ==== Proof.FiniteInputs.lean ====
/-
  Finiteness of the argument arrays, read off the printed precondition.

  The precondition is the conjunction, over the seven argument arrays, of "every entry `x` satisfies
  `|x| < +∞`" (an all-reduce by `and` of the elementwise comparison of `|x|` with the pattern of `+∞`).
  Over the extended reals `|x| = max x (-x)`, the pattern `0x7F800000` denotes `⊤`, and `max x (-x) < ⊤`
  holds exactly when `x` is neither `⊥` nor `⊤`: so every entry of every array is the coercion of a real.
-/
import proofs.«170116_j5909874999592_2_alg».proof.Pre_finite_inputs
import Idealize.ShloMosaic.Lib.ReduceAll
import Idealize.ShloMosaic.Lib.ValueIdx

noncomputable section

namespace Cert.Pre_finite_inputs.Hand

open Idealize.ShloMosaic

/-- The rank-0 shape has one index. -/
instance : Subsingleton S_.Idx := ⟨fun a b => funext fun d => d.elim0⟩

/-- A one-bit word made from a Boolean is 1 exactly when the Boolean is true. -/
theorem ofBool_eq_one {b : Bool} : BitVec.ofBool b = 1#1 ↔ b = true := by cases b <;> decide

/-- The single-precision pattern `0x7F800000` denotes `+∞`. -/
theorem inf_pattern : Ideal.ofBits .f32 0x7F800000#32 = (⊤ : EReal) := by
  simp [Ideal.ofBits, Ideal.ieee]

/-- An extended real whose absolute value `max x (-x)` is below `⊤` is a real. -/
theorem real_of_abs_lt_top (x : EReal) (h : max x (-x) < ⊤) : ∃ r : ℝ, x = (r : EReal) := by
  induction x using EReal.rec with
  | bot => simp at h
  | coe r => exact ⟨r, rfl⟩
  | top => simp at h

/-- The element fact of the precondition: `|x| < +∞` as the comparison prints it makes `x` a real. -/
theorem real_of_cmp (x : Ideal .f32)
    (h : FloatOps.cmpf .olt (FloatOps.hostAbsf x) (FloatOps.ofBits (F := Ideal) .f32 0x7F800000#32) = 1#1) :
    ∃ r : ℝ, x = (r : EReal) := by
  apply real_of_abs_lt_top
  have h2 : Ideal.cmp .olt (max x (-x)) (Ideal.ofBits .f32 0x7F800000#32) = 1#1 := h
  rw [inf_pattern] at h2
  simpa only [Ideal.cmp, ofBool_eq_one, decide_eq_true_eq] using h2

/-- One array's conjunct: if the all-reduce of `|x| < +∞` over the whole array is 1, every entry is a real. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) :
    ∀ idx : s.Idx, ∃ r : ℝ, x idx = (r : EReal) := fun idx =>
  real_of_cmp (x idx) (Host.reduce_andi_all _ _ hr hu ValueIdx.ix0 e idx)

/-- Finiteness: when the printed precondition holds of seven arrays over the extended reals, every entry
    of every array is the coercion of a real. -/
theorem finite [Facts] (a0 : FVec Ideal S8x2048x1024 .f32) (a1 : FVec Ideal S1024x1024 .f32)
    (a2 : FVec Ideal S1024 .f32) (a3 : FVec Ideal S1024x1024 .f32) (a4 : FVec Ideal S1024 .f32)
    (a5 : FVec Ideal S1024x1024 .f32) (a6 : FVec Ideal S1024 .f32)
    (h : fn (F := Ideal) a0 a1 a2 a3 a4 a5 a6 = fun _ => 1#1) :
    (∀ idx, ∃ r : ℝ, a0 idx = (r : EReal)) ∧ (∀ idx, ∃ r : ℝ, a1 idx = (r : EReal))
      ∧ (∀ idx, ∃ r : ℝ, a2 idx = (r : EReal)) ∧ (∀ idx, ∃ r : ℝ, a3 idx = (r : EReal))
      ∧ (∀ idx, ∃ r : ℝ, a4 idx = (r : EReal)) ∧ (∀ idx, ∃ r : ℝ, a5 idx = (r : EReal))
      ∧ (∀ idx, ∃ r : ℝ, a6 idx = (r : EReal)) := by
  have h' := congrFun h ValueIdx.ix0
  dsimp only [fn, fn_part1, andi] at h'
  obtain ⟨h5, e6⟩ := IntOp.andi_eq_one.1 h'
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨all_real a0 _ _ _ e0, all_real a1 _ _ _ e1, all_real a2 _ _ _ e2, all_real a3 _ _ _ e3,
    all_real a4 _ _ _ e4, all_real a5 _ _ _ e5, all_real a6 _ _ _ e6⟩

/-- Finiteness with the real witnesses chosen, over plain coordinates: seven real arrays whose coercions
    are the seven argument arrays, entry by entry. -/
theorem witnesses [Facts] (a0 : FVec Ideal S8x2048x1024 .f32) (a1 : FVec Ideal S1024x1024 .f32)
    (a2 : FVec Ideal S1024 .f32) (a3 : FVec Ideal S1024x1024 .f32) (a4 : FVec Ideal S1024 .f32)
    (a5 : FVec Ideal S1024x1024 .f32) (a6 : FVec Ideal S1024 .f32)
    (h : fn (F := Ideal) a0 a1 a2 a3 a4 a5 a6 = fun _ => 1#1) :
    ∃ (X : Fin 8 → Fin 2048 → Fin 1024 → ℝ) (W1 : Fin 1024 → Fin 1024 → ℝ) (b1 : Fin 1024 → ℝ)
      (W2 : Fin 1024 → Fin 1024 → ℝ) (b2 : Fin 1024 → ℝ) (W3 : Fin 1024 → Fin 1024 → ℝ) (b3 : Fin 1024 → ℝ),
      (∀ n s d, a0 (ValueIdx.ix3 n s d) = ((X n s d : ℝ) : EReal))
      ∧ (∀ d c, a1 (ValueIdx.ix2 d c) = ((W1 d c : ℝ) : EReal)) ∧ (∀ c, a2 (ValueIdx.ix1 c) = ((b1 c : ℝ) : EReal))
      ∧ (∀ d c, a3 (ValueIdx.ix2 d c) = ((W2 d c : ℝ) : EReal)) ∧ (∀ c, a4 (ValueIdx.ix1 c) = ((b2 c : ℝ) : EReal))
      ∧ (∀ d c, a5 (ValueIdx.ix2 d c) = ((W3 d c : ℝ) : EReal)) ∧ (∀ c, a6 (ValueIdx.ix1 c) = ((b3 c : ℝ) : EReal)) := by
  obtain ⟨f0, f1, f2, f3, f4, f5, f6⟩ := finite a0 a1 a2 a3 a4 a5 a6 h
  choose X hX using f0
  choose W1 hW1 using f1
  choose b1 hb1 using f2
  choose W2 hW2 using f3
  choose b2 hb2 using f4
  choose W3 hW3 using f5
  choose b3 hb3 using f6
  exact ⟨fun n s d => X (ValueIdx.ix3 n s d), fun d c => W1 (ValueIdx.ix2 d c), fun c => b1 (ValueIdx.ix1 c),
    fun d c => W2 (ValueIdx.ix2 d c), fun c => b2 (ValueIdx.ix1 c), fun d c => W3 (ValueIdx.ix2 d c),
    fun c => b3 (ValueIdx.ix1 c), fun _ _ _ => hX _, fun _ _ => hW1 _, fun _ => hb1 _, fun _ _ => hW2 _,
    fun _ => hb2 _, fun _ _ => hW3 _, fun _ => hb3 _⟩

end Cert.Pre_finite_inputs.Hand

end
-- ==== Proof.RefValue.lean ====
/-
  The reference program computes the specification. Its result array is read stage by stage at an index given by
  literal-size coordinates: the three dense projections (a contraction over the input's last axis plus a broadcast
  bias), the scale 1 / sqrt 1024 = 1 / 32, the scaled scores (a batched contraction over the head axis), each
  row's maximum (a fold of max from -∞ over the key axis, which is the supremum of the row; a further max with -∞
  changes nothing), the shifted exponentials, their sum from 0 over the key axis, the quotient, and the final
  batched contraction of the weights with the value rows. Each stage is the specification's function of the same
  name at the same coordinates, operation by operation, so no finiteness of the inputs is used.
-/
import proofs.«170116_j5909874999592_2_alg».proof.Proof.Gen.ReferenceIdeal.Read
import proofs.«170116_j5909874999592_2_alg».proof.Proof.Spec

noncomputable section

namespace Cert.ReferenceIdeal.RefValue

open Cert.ReferenceIdeal Cert.ReferenceIdeal.Gen Idealize.ShloMosaic Idealize.ShloMosaic.ValueIdx

/-- A rank-3 argument array read by its coordinates. -/
abbrev arr3 (x : (⟨S8x2048x1024, .f32⟩ : BufTy).Contents (Elt Ideal)) : Fin 8 → Fin 2048 → Fin 1024 → EReal :=
  fun n s d => x (ix3 n s d)
/-- A weight matrix read by its coordinates. -/
abbrev arr2 (x : (⟨S1024x1024, .f32⟩ : BufTy).Contents (Elt Ideal)) : Fin 1024 → Fin 1024 → EReal :=
  fun d h => x (ix2 d h)
/-- A bias vector read by its coordinate. -/
abbrev arr1 (x : (⟨S1024, .f32⟩ : BufTy).Contents (Elt Ideal)) : Fin 1024 → EReal :=
  fun h => x (ix1 h)

/-- The query projection: the contraction of input row `(n, s)` with column `h` of the weights, plus the broadcast bias. -/
theorem queries_eq (x0 : (⟨S8x2048x1024, .f32⟩ : BufTy).Contents (Elt Ideal)) (w : (⟨S1024x1024, .f32⟩ : BufTy).Contents (Elt Ideal))
    (b : (⟨S1024, .f32⟩ : BufTy).Contents (Elt Ideal)) (n : Fin 8) (s : Fin 2048) (h : Fin 1024) :
    Read.val_main_v3 (F := Ideal) x0 w b (ix3 n s h) = Cert.Attn.proj (arr3 x0) (arr2 w) (arr1 b) n s h := by
  have el : ∀ k : Fin 1024, Read.lidx_main_v0 (ix3 n s h) k = ix3 n s k := fun k =>
    funext fun a => Fin.ext (by match a with | ⟨0, _⟩ => rfl | ⟨1, _⟩ => rfl | ⟨2, _⟩ => rfl)
  have er : ∀ k : Fin 1024, Read.ridx_main_v0 (ix3 n s h) k = ix2 k h := fun k =>
    funext fun a => Fin.ext (by match a with | ⟨0, _⟩ => rfl | ⟨1, _⟩ => rfl)
  have eb : Read.idx_main_v1 (Read.idx_main_v2 (ix3 n s h)) = ix1 h :=
    funext fun a => Fin.ext (by match a with | ⟨0, _⟩ => rfl)
  rw [Read.val_main_v3_apply, Read.val_main_v0_apply, Read.val_main_v2_apply, Read.val_main_v1_apply]
  simp only [el, er, eb, Ideal.addf_def]
  rfl

/-- The key projection, the same reading with the second weight matrix and bias. -/
theorem keys_eq (x0 : (⟨S8x2048x1024, .f32⟩ : BufTy).Contents (Elt Ideal)) (w : (⟨S1024x1024, .f32⟩ : BufTy).Contents (Elt Ideal))
    (b : (⟨S1024, .f32⟩ : BufTy).Contents (Elt Ideal)) (n : Fin 8) (s : Fin 2048) (h : Fin 1024) :
    Read.val_main_v7 (F := Ideal) x0 w b (ix3 n s h) = Cert.Attn.proj (arr3 x0) (arr2 w) (arr1 b) n s h := by
  have el : ∀ k : Fin 1024, Read.lidx_main_v4 (ix3 n s h) k = ix3 n s k := fun k =>
    funext fun a => Fin.ext (by match a with | ⟨0, _⟩ => rfl | ⟨1, _⟩ => rfl | ⟨2, _⟩ => rfl)
  have er : ∀ k : Fin 1024, Read.ridx_main_v4 (ix3 n s h) k = ix2 k h := fun k =>
    funext fun a => Fin.ext (by match a with | ⟨0, _⟩ => rfl | ⟨1, _⟩ => rfl)
  have eb : Read.idx_main_v5 (Read.idx_main_v6 (ix3 n s h)) = ix1 h :=
    funext fun a => Fin.ext (by match a with | ⟨0, _⟩ => rfl)
  rw [Read.val_main_v7_apply, Read.val_main_v4_apply, Read.val_main_v6_apply, Read.val_main_v5_apply]
  simp only [el, er, eb, Ideal.addf_def]
  rfl

/-- The value projection, the same reading with the third weight matrix and bias. -/
theorem values_eq (x0 : (⟨S8x2048x1024, .f32⟩ : BufTy).Contents (Elt Ideal)) (w : (⟨S1024x1024, .f32⟩ : BufTy).Contents (Elt Ideal))
    (b : (⟨S1024, .f32⟩ : BufTy).Contents (Elt Ideal)) (n : Fin 8) (s : Fin 2048) (h : Fin 1024) :
    Read.val_main_v11 (F := Ideal) x0 w b (ix3 n s h) = Cert.Attn.proj (arr3 x0) (arr2 w) (arr1 b) n s h := by
  have el : ∀ k : Fin 1024, Read.lidx_main_v8 (ix3 n s h) k = ix3 n s k := fun k =>
    funext fun a => Fin.ext (by match a with | ⟨0, _⟩ => rfl | ⟨1, _⟩ => rfl | ⟨2, _⟩ => rfl)
  have er : ∀ k : Fin 1024, Read.ridx_main_v8 (ix3 n s h) k = ix2 k h := fun k =>
    funext fun a => Fin.ext (by match a with | ⟨0, _⟩ => rfl | ⟨1, _⟩ => rfl)
  have eb : Read.idx_main_v9 (Read.idx_main_v10 (ix3 n s h)) = ix1 h :=
    funext fun a => Fin.ext (by match a with | ⟨0, _⟩ => rfl)
  rw [Read.val_main_v11_apply, Read.val_main_v8_apply, Read.val_main_v10_apply, Read.val_main_v9_apply]
  simp only [el, er, eb, Ideal.addf_def]
  rfl

/-- The pattern `0x44800000` denotes the real `1024`. -/
theorem ofBits_1024 : Ideal.ofBits .f32 0x44800000#32 = ((1024 : ℝ) : EReal) := by
  simp [Ideal.ofBits, Ideal.ieee, -EReal.coe_mul]; norm_num

/-- The pattern `0x3F800000` denotes `1`. -/
theorem ofBits_one : Ideal.ofBits .f32 0x3F800000#32 = 1 := by
  simp [Ideal.ofBits, Ideal.ieee, -EReal.coe_mul]; norm_num

/-- The pattern `0xFF800000` denotes `-∞`. -/
theorem ofBits_neg_inf : Ideal.ofBits .f32 0xFF800000#32 = ⊥ := by
  simp [Ideal.ofBits, Ideal.ieee]

theorem sqrt_1024 : Real.sqrt 1024 = 32 := by
  rw [show (1024 : ℝ) = 32 * 32 by norm_num]
  exact Real.sqrt_mul_self (by norm_num)

/-- The scale the scores are multiplied by: `1 / sqrt 1024 = 1 / 32`. -/
theorem scale_eq (j : S_.Idx) : Read.val_main_v13 (F := Ideal) j = ((1 / 32 : ℝ) : EReal) := by
  rw [Read.val_main_v13_apply, Read.val_main_cst_0_apply, Read.val_main_v12_apply, Read.val_main_cst_apply]
  simp only [Ideal.hostDivf_def, Ideal.hostUnary_sqrt_def, Ideal.ofBits_def]
  rw [ofBits_1024, ofBits_one, Ideal.sqrt_coe, if_neg (by norm_num), sqrt_1024, Ideal.div_coe (by norm_num), one_mul]

/-- The scaled scores of the specification at the argument arrays. -/
abbrev scores (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) : Fin 8 → Fin 2048 → Fin 2048 → EReal :=
  Cert.Attn.score (Cert.Attn.proj (arr3 x0) (arr2 x1) (arr1 x2)) (Cert.Attn.proj (arr3 x0) (arr2 x3) (arr1 x4))

/-- The scaled scores: the contraction of query row `i` with key row `j` over the head axis, times the broadcast scale. -/
theorem score_eq (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (n : Fin 8) (i j : Fin 2048) :
    Read.val_main_v16 (F := Ideal) x0 x1 x2 x3 x4 (ix3 n i j)
      = scores x0 x1 x2 x3 x4 n i j := by
  have el : ∀ k : Fin 1024, Read.lidx_main_v14 (ix3 n i j) k = ix3 n i k := fun k =>
    funext fun a => Fin.ext (by match a with | ⟨0, _⟩ => rfl | ⟨1, _⟩ => rfl | ⟨2, _⟩ => rfl)
  have er : ∀ k : Fin 1024, Read.ridx_main_v14 (ix3 n i j) k = ix3 n j k := fun k =>
    funext fun a => Fin.ext (by match a with | ⟨0, _⟩ => rfl | ⟨1, _⟩ => rfl | ⟨2, _⟩ => rfl)
  rw [Read.val_main_v16_apply, Read.val_main_v14_apply, Read.val_main_v15_apply, scale_eq]
  simp only [el, er, queries_eq, keys_eq, Ideal.mulf_def]
  rfl

/-- The shape fact that names the index a reduction over the key axis reads. -/
theorem reduces_keys : S8x2048x2048.Reduces [2] S8x2048 := by decide

/-- The row maximum: the fold of `max` from `-∞` over the key axis is the supremum of the row, and the further
    `max` with `-∞` changes nothing. -/
theorem rowMax_eq (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (n : Fin 8) (i : Fin 2048) :
    Read.val_main_v19 (F := Ideal) x0 x1 x2 x3 x4 (ix2 n i)
      = Cert.Attn.rowMax (scores x0 x1 x2 x3 x4) n i := by
  rw [Read.val_main_v19_apply, Read.val_main_v18_apply, Read.val_main_cst_2_apply]
  simp only [Ideal.maximumf_def, Ideal.ofBits_def, ofBits_neg_inf]
  rw [max_eq_right bot_le]
  unfold Read.val_main_v17
  have hs : ∀ j : Fin 2048, Read.val_main_v16 (F := Ideal) x0 x1 x2 x3 x4 (ix3 n i j) = _ := fun j => score_eq x0 x1 x2 x3 x4 n i j
  generalize Read.val_main_v16 (F := Ideal) x0 x1 x2 x3 x4 = y at hs ⊢
  refine (Host.reduce_eq_fold_single (FloatOps.maximumf (F := Ideal) (φ := .f32)) y (Read.val_main_cst_1 (F := Ideal))
    reducesTo_S8x2048x2048_S8x2048_d2 reduces_keys h_S_ (ix2 n i)).trans ?_
  rw [Read.val_main_cst_1_apply]
  simp only [Ideal.ofBits_def, ofBits_neg_inf]
  have hl : ∀ k : Fin 2048, reduces_keys.lift (ix2 n i) k = ix3 n i k := fun k =>
    funext fun a => Fin.ext (by match a with | ⟨0, _⟩ => rfl | ⟨1, _⟩ => rfl | ⟨2, _⟩ => rfl)
  have hf : (y ∘ reduces_keys.lift (ix2 n i)) = fun k : Fin 2048 => _ := funext fun k => (congrArg y (hl k)).trans (hs k)
  rw [hf]
  rfl

/-- The shifted exponential: the score minus the broadcast row maximum, exponentiated. -/
theorem expShift_eq (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (n : Fin 8) (i j : Fin 2048) :
    Read.val_main_v23 (F := Ideal) x0 x1 x2 x3 x4 (ix3 n i j)
      = Ideal.exp (scores x0 x1 x2 x3 x4 n i j - Cert.Attn.rowMax (scores x0 x1 x2 x3 x4) n i) := by
  have e : Read.idx_main_v20 (Read.idx_main_v21 (ix3 n i j)) = ix2 n i :=
    funext fun a => Fin.ext (by match a with | ⟨0, _⟩ => rfl | ⟨1, _⟩ => rfl)
  rw [Read.val_main_v23_apply, Read.val_main_v22_apply, Read.val_main_v21_apply, Read.val_main_v20_apply, e, rowMax_eq, score_eq]
  simp only [Ideal.hostUnary_exp_def, Ideal.subf_def]

/-- The softmax denominator: the sum from `0` of the shifted exponentials over the key axis. -/
theorem denom_eq (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (n : Fin 8) (i : Fin 2048) :
    Read.val_main_v24 (F := Ideal) x0 x1 x2 x3 x4 (ix2 n i)
      = ∑ j' : Fin 2048, Ideal.exp (scores x0 x1 x2 x3 x4 n i j' - Cert.Attn.rowMax (scores x0 x1 x2 x3 x4) n i) := by
  have e : ∀ k : Fin 2048, Read.idx_main_v24 (ix2 n i) k = ix3 n i k := fun k =>
    funext fun a => Fin.ext (by match a with | ⟨0, _⟩ => rfl | ⟨1, _⟩ => rfl | ⟨2, _⟩ => rfl)
  rw [Read.val_main_v24_apply, Read.val_main_cst_3_apply]
  simp only [Ideal.ofBits_def, Ideal.ofBits_zero_f32, zero_add, e, expShift_eq]

/-- The softmax weight: the shifted exponential over the broadcast denominator. -/
theorem weight_eq (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (n : Fin 8) (i j : Fin 2048) :
    Read.val_main_v27 (F := Ideal) x0 x1 x2 x3 x4 (ix3 n i j) = Cert.Attn.weight (scores x0 x1 x2 x3 x4) n i j := by
  have e : Read.idx_main_v25 (Read.idx_main_v26 (ix3 n i j)) = ix2 n i :=
    funext fun a => Fin.ext (by match a with | ⟨0, _⟩ => rfl | ⟨1, _⟩ => rfl)
  rw [Read.val_main_v27_apply, Read.val_main_v26_apply, Read.val_main_v25_apply, e, denom_eq, expShift_eq]
  simp only [Ideal.hostDivf_def]
  rfl

/-- The reference program's result is the specification: the contraction of the weights of query row `i` with the
    value rows over the key axis. -/
theorem ref_eq (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (n : Fin 8) (i : Fin 2048) (h : Fin 1024) :
    Read.val_main_v28 (F := Ideal) x0 x1 x2 x3 x4 x5 x6 (ValueIdx.ix3 n i h)
      = Cert.Attn.attention (fun n s d => x0 (ValueIdx.ix3 n s d)) (fun d h => x1 (ValueIdx.ix2 d h)) (fun h => x2 (ValueIdx.ix1 h))
          (fun d h => x3 (ValueIdx.ix2 d h)) (fun h => x4 (ValueIdx.ix1 h))
          (fun d h => x5 (ValueIdx.ix2 d h)) (fun h => x6 (ValueIdx.ix1 h)) n i h := by
  have el : ∀ k : Fin 2048, Read.lidx_main_v28 (ix3 n i h) k = ix3 n i k := fun k =>
    funext fun a => Fin.ext (by match a with | ⟨0, _⟩ => rfl | ⟨1, _⟩ => rfl | ⟨2, _⟩ => rfl)
  have er : ∀ k : Fin 2048, Read.ridx_main_v28 (ix3 n i h) k = ix3 n k h := fun k =>
    funext fun a => Fin.ext (by match a with | ⟨0, _⟩ => rfl | ⟨1, _⟩ => rfl | ⟨2, _⟩ => rfl)
  rw [Read.val_main_v28_apply]
  simp only [el, er, weight_eq, values_eq]
  rfl

end Cert.ReferenceIdeal.RefValue

end
-- ==== Proof.Algebraic.lean ====
/-
  The algebraic claim. Run from memories that agree on the seven arguments, the idealized kernel program and the idealized
  reference both end with the result array holding, index by index, single-head self-attention of the argument arrays
  (the specification). For the reference this is its operations read one after the other, and holds for any extended reals.
  For the kernel program it uses that the inputs are finite: then the three projections are real numbers, and a query
  block's four grid points carry out the online form of the softmax, which agrees with the plain form by the real
  identity exp (a - b) · exp (b - c) = exp (a - c), whatever finite value the running maximum is started from.
-/
import proofs.«170116_j5909874999592_2_alg».proof.Defs
import proofs.«170116_j5909874999592_2_alg».proof.Proof.KernelIdeal.Run
import proofs.«170116_j5909874999592_2_alg».proof.Proof.KernelIdeal.AttnValue
import proofs.«170116_j5909874999592_2_alg».proof.Proof.KernelIdeal.ProjClosed
import proofs.«170116_j5909874999592_2_alg».proof.Proof.AttnBridge
import proofs.«170116_j5909874999592_2_alg».proof.Proof.FiniteInputs
import proofs.«170116_j5909874999592_2_alg».proof.Proof.RefValue
import proofs.«170116_j5909874999592_2_alg».proof.Proof.Gen.KernelIdeal
import proofs.«170116_j5909874999592_2_alg».proof.Proof.Gen.ReferenceIdeal
import proofs.«170116_j5909874999592_2_alg».proof.Proof.Gen.ReferenceIdeal.Run
import proofs.«170116_j5909874999592_2_alg».proof.Proof.Gen.ReferenceIdeal.Read
import proofs.«170116_j5909874999592_2_alg».proof.Proof.Gen.Pre_finite_inputs

set_option maxRecDepth 16384

noncomputable section

namespace Cert.Proof.Alg

open Idealize.ShloMosaic Idealize.ShloMosaic.TcCoe Idealize.SL.Sem Idealize.ShloMosaic.ValueIdx

/-- The specification's result for seven argument arrays, as an array over the result's index type. -/
def specOf (x0 : Cert.KernelIdeal.S8x2048x1024.Idx → EReal) (x1 : Cert.KernelIdeal.S1024x1024.Idx → EReal) (x2 : Cert.KernelIdeal.S1024.Idx → EReal) (x3 : Cert.KernelIdeal.S1024x1024.Idx → EReal) (x4 : Cert.KernelIdeal.S1024.Idx → EReal)
    (x5 : Cert.KernelIdeal.S1024x1024.Idx → EReal) (x6 : Cert.KernelIdeal.S1024.Idx → EReal) : Cert.KernelIdeal.S8x2048x1024.Idx → EReal :=
  fun i => Cert.Attn.attention (fun n s d => x0 (ix3 n s d)) (fun d h => x1 (ix2 d h)) (fun h => x2 (ix1 h))
    (fun d h => x3 (ix2 d h)) (fun h => x4 (ix1 h)) (fun d h => x5 (ix2 d h)) (fun h => x6 (ix1 h)) (i 0) (i 1) (i 2)

/-- The kernel program's result array is the specification, when the inputs are finite. -/
theorem kernel_result (m : (ℓ : Loc Cert.KernelIdeal.nD Cert.KernelIdeal.τ Cert.KernelIdeal.sig) → Buf (Elt Ideal) ℓ) (hpre : Cert.Pre_KernelIdeal m) (c : Dev Cert.KernelIdeal.nD) :
    (Cert.KernelIdeal.Hand.Wt3 m c (Proc.devRef .tc Cert.KernelIdeal.main_v7) : Cert.KernelIdeal.S8x2048x1024.Idx → EReal) = specOf (m ((c.tc : Thread Cert.KernelIdeal.nD Cert.KernelIdeal.τ).loc Cert.KernelIdeal.main_arg0) : Cert.KernelIdeal.S8x2048x1024.Idx → EReal) (m ((c.tc : Thread Cert.KernelIdeal.nD Cert.KernelIdeal.τ).loc Cert.KernelIdeal.main_arg1) : Cert.KernelIdeal.S1024x1024.Idx → EReal) (m ((c.tc : Thread Cert.KernelIdeal.nD Cert.KernelIdeal.τ).loc Cert.KernelIdeal.main_arg2) : Cert.KernelIdeal.S1024.Idx → EReal) (m ((c.tc : Thread Cert.KernelIdeal.nD Cert.KernelIdeal.τ).loc Cert.KernelIdeal.main_arg3) : Cert.KernelIdeal.S1024x1024.Idx → EReal) (m ((c.tc : Thread Cert.KernelIdeal.nD Cert.KernelIdeal.τ).loc Cert.KernelIdeal.main_arg4) : Cert.KernelIdeal.S1024.Idx → EReal) (m ((c.tc : Thread Cert.KernelIdeal.nD Cert.KernelIdeal.τ).loc Cert.KernelIdeal.main_arg5) : Cert.KernelIdeal.S1024x1024.Idx → EReal) (m ((c.tc : Thread Cert.KernelIdeal.nD Cert.KernelIdeal.τ).loc Cert.KernelIdeal.main_arg6) : Cert.KernelIdeal.S1024.Idx → EReal) := by
  obtain ⟨X, W1, b1, W2, b2, W3, b3, h0, h1, h2, h3, h4, h5, h6⟩ := Cert.Pre_finite_inputs.Hand.witnesses _ _ _ _ _ _ _ (hpre c)
  have a0 : (fun n s d => (m ((c.tc : Thread Cert.KernelIdeal.nD Cert.KernelIdeal.τ).loc Cert.KernelIdeal.main_arg0) : Cert.KernelIdeal.S8x2048x1024.Idx → EReal) (ix3 n s d)) = fun n s d => ((X n s d : ℝ) : EReal) := by funext n s d; exact h0 n s d
  have a1 : (fun d h => (m ((c.tc : Thread Cert.KernelIdeal.nD Cert.KernelIdeal.τ).loc Cert.KernelIdeal.main_arg1) : Cert.KernelIdeal.S1024x1024.Idx → EReal) (ix2 d h)) = fun d h => ((W1 d h : ℝ) : EReal) := by funext d h; exact h1 d h
  have a2 : (fun h => (m ((c.tc : Thread Cert.KernelIdeal.nD Cert.KernelIdeal.τ).loc Cert.KernelIdeal.main_arg2) : Cert.KernelIdeal.S1024.Idx → EReal) (ix1 h)) = fun h => ((b1 h : ℝ) : EReal) := by funext h; exact h2 h
  have a3 : (fun d h => (m ((c.tc : Thread Cert.KernelIdeal.nD Cert.KernelIdeal.τ).loc Cert.KernelIdeal.main_arg3) : Cert.KernelIdeal.S1024x1024.Idx → EReal) (ix2 d h)) = fun d h => ((W2 d h : ℝ) : EReal) := by funext d h; exact h3 d h
  have a4 : (fun h => (m ((c.tc : Thread Cert.KernelIdeal.nD Cert.KernelIdeal.τ).loc Cert.KernelIdeal.main_arg4) : Cert.KernelIdeal.S1024.Idx → EReal) (ix1 h)) = fun h => ((b2 h : ℝ) : EReal) := by funext h; exact h4 h
  have a5 : (fun d h => (m ((c.tc : Thread Cert.KernelIdeal.nD Cert.KernelIdeal.τ).loc Cert.KernelIdeal.main_arg5) : Cert.KernelIdeal.S1024x1024.Idx → EReal) (ix2 d h)) = fun d h => ((W3 d h : ℝ) : EReal) := by funext d h; exact h5 d h
  have a6 : (fun h => (m ((c.tc : Thread Cert.KernelIdeal.nD Cert.KernelIdeal.τ).loc Cert.KernelIdeal.main_arg6) : Cert.KernelIdeal.S1024.Idx → EReal) (ix1 h)) = fun h => ((b3 h : ℝ) : EReal) := by funext h; exact h6 h
  have hq : ∀ n s h, (Cert.KernelIdeal.Hand.Vt2 m c Cert.KernelIdeal.main_v6_0 : Cert.KernelIdeal.S8x2048x1024.Idx → EReal) (ix3 n s h) = ((∑ d, X n s d * W1 d h + b1 h : ℝ) : EReal) := fun n s h => by
    rw [Cert.KernelIdeal.Hand.entry_q m c n s h, a0, a1, a2, Cert.Attn.proj_real]
  have hk : ∀ n s h, (Cert.KernelIdeal.Hand.Vt2 m c Cert.KernelIdeal.main_v6_1 : Cert.KernelIdeal.S8x2048x1024.Idx → EReal) (ix3 n s h) = ((∑ d, X n s d * W2 d h + b2 h : ℝ) : EReal) := fun n s h => by
    rw [Cert.KernelIdeal.Hand.entry_k m c n s h, a0, a3, a4, Cert.Attn.proj_real]
  have hv : ∀ n s h, (Cert.KernelIdeal.Hand.Vt2 m c Cert.KernelIdeal.main_v6_2 : Cert.KernelIdeal.S8x2048x1024.Idx → EReal) (ix3 n s h) = ((∑ d, X n s d * W3 d h + b3 h : ℝ) : EReal) := fun n s h => by
    rw [Cert.KernelIdeal.Hand.entry_v m c n s h, a0, a5, a6, Cert.Attn.proj_real]
  refine ((Cert.KernelIdeal.Hand.Wt3_arr m c 3).trans (Cert.KernelIdeal.Hand.final1_3 (Cert.KernelIdeal.Hand.Vt2 m) _ _ _ c hq hk hv)).trans ?_
  unfold specOf Cert.KernelIdeal.Hand.Gattn Cert.Attn.attention
  rw [a0, a1, a2, a3, a4, a5, a6, Cert.Attn.proj_real, Cert.Attn.proj_real, Cert.Attn.proj_real]

/-- The reference's result array is the specification of ITS argument arrays; no finiteness is needed. -/
theorem reference_result (x0 : (⟨Cert.ReferenceIdeal.S8x2048x1024, .f32⟩ : BufTy).Contents (Elt Ideal)) (x1 : (⟨Cert.ReferenceIdeal.S1024x1024, .f32⟩ : BufTy).Contents (Elt Ideal))
    (x2 : (⟨Cert.ReferenceIdeal.S1024, .f32⟩ : BufTy).Contents (Elt Ideal)) (x3 : (⟨Cert.ReferenceIdeal.S1024x1024, .f32⟩ : BufTy).Contents (Elt Ideal))
    (x4 : (⟨Cert.ReferenceIdeal.S1024, .f32⟩ : BufTy).Contents (Elt Ideal)) (x5 : (⟨Cert.ReferenceIdeal.S1024x1024, .f32⟩ : BufTy).Contents (Elt Ideal))
    (x6 : (⟨Cert.ReferenceIdeal.S1024, .f32⟩ : BufTy).Contents (Elt Ideal)) :
    Cert.ReferenceIdeal.Read.val_main_v28 (F := Ideal) x0 x1 x2 x3 x4 x5 x6
      = specOf x0 x1 x2 x3 x4 x5 x6 := by
  funext i
  exact (congrArg (Cert.ReferenceIdeal.Read.val_main_v28 (F := Ideal) x0 x1 x2 x3 x4 x5 x6) (eq_ix3 i)).trans
    (Cert.ReferenceIdeal.RefValue.ref_eq x0 x1 x2 x3 x4 x5 x6 (i 0) (i 1) (i 2))

theorem algebraic : Cert.algebraic_KernelIdeal_ReferenceIdeal := by
  intro m ρ m' ρ' hpre hagree
  refine ⟨fun c => Cert.KernelIdeal.Hand.Wt3 m c (Proc.devRef .tc Cert.KernelIdeal.main_v7), ?_, ?_⟩
  · exact (θ_run Cert.KernelIdeal.defs _ _).mono (fun r h c => ⟨h c _ (Cert.KernelIdeal.Hand.mem_ucH Cert.KernelIdeal.main_v7 (by decide)),
      (h c _ (Cert.KernelIdeal.Hand.mem_ucH Cert.KernelIdeal.main_arg0 (by decide))).trans (Cert.KernelIdeal.Hand.Wt3_main_arg0 m c),
      (h c _ (Cert.KernelIdeal.Hand.mem_ucH Cert.KernelIdeal.main_arg1 (by decide))).trans (Cert.KernelIdeal.Hand.Wt3_main_arg1 m c),
      (h c _ (Cert.KernelIdeal.Hand.mem_ucH Cert.KernelIdeal.main_arg2 (by decide))).trans (Cert.KernelIdeal.Hand.Wt3_main_arg2 m c),
      (h c _ (Cert.KernelIdeal.Hand.mem_ucH Cert.KernelIdeal.main_arg3 (by decide))).trans (Cert.KernelIdeal.Hand.Wt3_main_arg3 m c),
      (h c _ (Cert.KernelIdeal.Hand.mem_ucH Cert.KernelIdeal.main_arg4 (by decide))).trans (Cert.KernelIdeal.Hand.Wt3_main_arg4 m c),
      (h c _ (Cert.KernelIdeal.Hand.mem_ucH Cert.KernelIdeal.main_arg5 (by decide))).trans (Cert.KernelIdeal.Hand.Wt3_main_arg5 m c),
      (h c _ (Cert.KernelIdeal.Hand.mem_ucH Cert.KernelIdeal.main_arg6 (by decide))).trans (Cert.KernelIdeal.Hand.Wt3_main_arg6 m c)⟩)
      (Cert.KernelIdeal.Hand.run_all (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v28_eq m' c, (hagree c).1, (hagree c).2.1, (hagree c).2.2.1, (hagree c).2.2.2.1,
      (hagree c).2.2.2.2.1, (hagree c).2.2.2.2.2.1, (hagree c).2.2.2.2.2.2, reference_result]
    exact (kernel_result m hpre c).symm

end Cert.Proof.Alg

end
-- ==== Proof.lean ====
/-
  Single-head self-attention over f32[8, 2048, 1024] inputs with three 1024 × 1024 projections: a Pallas program of two
  kernels against a plain jnp reference, equal as extended reals for finite inputs.

  The kernel program rounds the three weight matrices, reshapes the three bias vectors to rows, and launches two regions.
  The first, on a grid of 8 × 4 points, multiplies a block of 512 input rows by each weight matrix and adds the bias row: the
  queries, keys and values. The second, on a grid of 8 × 2 × 4 points (batch, query block of 1024 rows, key block of 512
  rows), is the online form of softmax attention: at key block 0 it resets a running maximum (to a large negative finite
  number), a running sum and an accumulator, and stores the query block scaled by 1/32; at every key block it forms the
  scores of the scaled queries against the key block, raises the running maximum, rescales the running sum and the
  accumulator by the exponential of the old maximum minus the new one, and adds the block's exponentials and their product
  with the value block; at key block 3 it stores the accumulator divided by the running sum. The reference forms the same
  projections, scales the scores by 1 / sqrt 1024, and applies the softmax with the shift by each row's largest score.

  Over the extended reals a change of float format is the identity and sqrt 1024 is 32. For finite inputs the projections
  are real numbers, so every quantity of the second kernel is real: after the key blocks seen so far the running sum is the
  sum of exp (score − running maximum) over them, and the accumulator the same sum weighted by the value rows; the common
  factor exp (− running maximum) cancels in the final quotient, whatever finite number the maximum was started from. That
  quotient is the reference's softmax-weighted sum, whose own shift cancels the same way.

  The frames: each kernel program is followed from boundary to boundary (launch, after the host operations, after the first
  region, after the second); the second region's invariant keeps, between the four points of a query block, the four scratch
  buffers at the state the point before left. The ideal pass rewrote nothing, so the idealization claim is trivial.
-/
import proofs.«170116_j5909874999592_2_alg».proof.Defs
import proofs.«170116_j5909874999592_2_alg».proof.Proof.Gen.Kernel
import proofs.«170116_j5909874999592_2_alg».proof.Proof.Gen.Kernel.Skeleton
import proofs.«170116_j5909874999592_2_alg».proof.Proof.Gen.Kernel.Launch
import proofs.«170116_j5909874999592_2_alg».proof.Proof.Gen.Kernel.Regions
import proofs.«170116_j5909874999592_2_alg».proof.Proof.Gen.Kernel.Points
import proofs.«170116_j5909874999592_2_alg».proof.Proof.Gen.KernelIdeal
import proofs.«170116_j5909874999592_2_alg».proof.Proof.Gen.KernelIdeal.Skeleton
import proofs.«170116_j5909874999592_2_alg».proof.Proof.Gen.KernelIdeal.Launch
import proofs.«170116_j5909874999592_2_alg».proof.Proof.Gen.KernelIdeal.Regions
import proofs.«170116_j5909874999592_2_alg».proof.Proof.Gen.KernelIdeal.Points
import proofs.«170116_j5909874999592_2_alg».proof.Proof.Gen.ReferenceIdeal
import proofs.«170116_j5909874999592_2_alg».proof.Proof.Gen.ReferenceIdeal.Run
import proofs.«170116_j5909874999592_2_alg».proof.Proof.Gen.ReferenceIdeal.Read
import proofs.«170116_j5909874999592_2_alg».proof.Proof.Gen.Pre_finite_inputs
import proofs.«170116_j5909874999592_2_alg».proof.Proof.Frames
import proofs.«170116_j5909874999592_2_alg».proof.Proof.Algebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Frames.frame_k, Cert.Proof.Frames.frame_ki, Cert.Proof.Frames.frame_ri, trivial, Cert.Proof.Alg.algebraic⟩

end Cert.Proof

end
